-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S20000x64 : Shape := ⟨2, ![20000, 64]⟩
abbrev S2000000 : Shape := ⟨1, ![2000000]⟩
abbrev S64x64 : Shape := ⟨2, ![64, 64]⟩
abbrev S64 : Shape := ⟨1, ![64]⟩
abbrev S256x64 : Shape := ⟨2, ![256, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384 : Shape := ⟨1, ![16384]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S2000000 : S_.BroadcastsInDim S2000000 (![] : Fin 0 → Fin S2000000.rank)
  reducesTo_S2000000_S_d0 : S2000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S256x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S256x64 .f32 := Host.absf main_arg9
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S256x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x64 .f32) (main_arg1 : FVec F S20000x64 .f32) (main_arg2 : IVec S2000000 32) (main_arg3 : IVec S2000000 32) (main_arg4 : FVec F S2000000 .f32) (main_arg5 : FVec F S64x64 .f32) (main_arg6 : FVec F S64 .f32) (main_arg7 : FVec F S64x64 .f32) (main_arg8 : FVec F S64 .f32) (main_arg9 : FVec F S256x64 .f32) (main_arg10 : FVec F S64 .f32) (main_arg11 : FVec F S64x32 .f32) (main_arg12 : FVec F S32 .f32) (main_arg13 : FVec F S32x1 .f32) (main_arg14 : FVec F S1 .f32) (main_arg15 : IVec S16384 32) (main_arg16 : IVec S16384 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S2000000 .f32 := Host.absf main_arg4
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S50000x64 : Shape := ⟨2, ![50000, 64]⟩
abbrev S20000x64 : Shape := ⟨2, ![20000, 64]⟩
abbrev S2000000 : Shape := ⟨1, ![2000000]⟩
abbrev S64x64 : Shape := ⟨2, ![64, 64]⟩
abbrev S64 : Shape := ⟨1, ![64]⟩
abbrev S256x64 : Shape := ⟨2, ![256, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384 : Shape := ⟨1, ![16384]⟩
abbrev S70000x64 : Shape := ⟨2, ![70000, 64]⟩
abbrev S_ : Shape := ⟨0, ![]⟩
abbrev S2000000x1 : Shape := ⟨2, ![2000000, 1]⟩
abbrev S2000000x64 : Shape := ⟨2, ![2000000, 64]⟩
abbrev S1x64 : Shape := ⟨2, ![1, 64]⟩
abbrev S2800x64 : Shape := ⟨2, ![2800, 64]⟩
abbrev S16384x1 : Shape := ⟨2, ![16384, 1]⟩
abbrev S16384x64 : Shape := ⟨2, ![16384, 64]⟩
abbrev S1x32 : Shape := ⟨2, ![1, 32]⟩
abbrev S1x1 : Shape := ⟨2, ![1, 1]⟩
abbrev S2048x64 : Shape := ⟨2, ![2048, 64]⟩
abbrev S2048x1 : Shape := ⟨2, ![2048, 1]⟩
abbrev S2048x32 : Shape := ⟨2, ![2048, 32]⟩

abbrev nBuf : Space → Nat
  | .hbm => 96
  | .vmem => 31
  | .smem => 0
  | _ => 0

abbrev bufTy : (tb : Table) → Fin (tcTables nBuf tb) → BufTy
  | .hbm, ⟨0, _⟩ => ⟨S50000x64, .f32⟩
  | .hbm, ⟨1, _⟩ => ⟨S20000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S16384, .i32⟩
  | .hbm, ⟨16, _⟩ => ⟨S16384, .i32⟩
  | .hbm, ⟨17, _⟩ => ⟨S70000x64, .f32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i32⟩
  | .hbm, ⟨24, _⟩ => ⟨S2000000, .i32⟩
  | .hbm, ⟨25, _⟩ => ⟨S2000000x1, .i32⟩
  | .hbm, ⟨26, _⟩ => ⟨S2000000x64, .f32⟩
  | .hbm, ⟨27, _⟩ => ⟨S2000000x1, .f32⟩
  | .hbm, ⟨28, _⟩ => ⟨S2000000x64, .f32⟩
  | .hbm, ⟨29, _⟩ => ⟨S2000000x64, .f32⟩
  | .hbm, ⟨30, _⟩ => ⟨S_, .f32⟩
  | .hbm, ⟨31, _⟩ => ⟨S70000x64, .f32⟩
  | .hbm, ⟨32, _⟩ => ⟨S2000000x1, .i32⟩
  | .hbm, ⟨33, _⟩ => ⟨S70000x64, .f32⟩
  | .hbm, ⟨34, _⟩ => ⟨S2000000x1, .f32⟩
  | .hbm, ⟨35, _⟩ => ⟨S2000000x64, .f32⟩
  | .hbm, ⟨36, _⟩ => ⟨S2000000x64, .f32⟩
  | .hbm, ⟨37, _⟩ => ⟨S2000000x64, .f32⟩
  | .hbm, ⟨38, _⟩ => ⟨S_, .f32⟩
  | .hbm, ⟨39, _⟩ => ⟨S70000x64, .f32⟩
  | .hbm, ⟨40, _⟩ => ⟨S2000000x1, .i32⟩
  | .hbm, ⟨41, _⟩ => ⟨S70000x64, .f32⟩
  | .hbm, ⟨42, _⟩ => ⟨S1x64, .f32⟩
  | .hbm, ⟨43, _⟩ => ⟨S1x64, .f32⟩
  | .hbm, ⟨44, _⟩ => ⟨S70000x64, .bf16⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S16384x64, .f32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S16384x64, .bf16⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S_, .i32⟩
  | .hbm, ⟨67, _⟩ => ⟨S16384, .i32⟩
  | .hbm, ⟨68, _⟩ => ⟨S16384, .i1⟩
  | .hbm, ⟨69, _⟩ => ⟨S_, .i32⟩
  | .hbm, ⟨70, _⟩ => ⟨S16384, .i32⟩
  | .hbm, ⟨71, _⟩ => ⟨S16384, .i32⟩
  | .hbm, ⟨72, _⟩ => ⟨S16384, .i32⟩
  | .hbm, ⟨73, _⟩ => ⟨S16384x1, .i32⟩
  | .hbm, ⟨74, _⟩ => ⟨S16384x64, .f32⟩
  | .hbm, ⟨75, _⟩ => ⟨S_, .i32⟩
  | .hbm, ⟨76, _⟩ => ⟨S16384, .i32⟩
  | .hbm, ⟨77, _⟩ => ⟨S16384, .i32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S16384x1, .i32⟩
  | .hbm, ⟨86, _⟩ => ⟨S16384x64, .bf16⟩
  | .hbm, ⟨87, _⟩ => ⟨S64x64, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S1x64, .f32⟩
  | .hbm, ⟨92, _⟩ => ⟨S1x32, .f32⟩
  | .hbm, ⟨93, _⟩ => ⟨S1x1, .f32⟩
  | .hbm, ⟨94, _⟩ => ⟨S16384x1, .f32⟩
  | .hbm, ⟨95, _⟩ => ⟨S16384, .f32⟩
  | .local _ .vmem, ⟨0, _⟩ => ⟨S2800x64, .f32⟩
  | .local _ .vmem, ⟨1, _⟩ => ⟨S2800x64, .f32⟩
  | .local _ .vmem, ⟨2, _⟩ => ⟨S2800x64, .f32⟩
  | .local _ .vmem, ⟨3, _⟩ => ⟨S2800x64, .f32⟩
  | .local _ .vmem, ⟨4, _⟩ => ⟨S2800x64, .f32⟩
  | .local _ .vmem, ⟨5, _⟩ => ⟨S2800x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S2800x64, .bf16⟩
  | .local _ .vmem, ⟨11, _⟩ => ⟨S2800x64, .bf16⟩
  | .local _ .vmem, ⟨12, _⟩ => ⟨S2048x64, .f32⟩
  | .local _ .vmem, ⟨13, _⟩ => ⟨S2048x64, .f32⟩
  | .local _ .vmem, ⟨14, _⟩ => ⟨S2048x64, .bf16⟩
  | .local _ .vmem, ⟨15, _⟩ => ⟨S2048x64, .bf16⟩
  | .local _ .vmem, ⟨16, _⟩ => ⟨S2048x64, .f32⟩
  | .local _ .vmem, ⟨17, _⟩ => ⟨S2048x64, .f32⟩
  | .local _ .vmem, ⟨18, _⟩ => ⟨S2048x64, .bf16⟩
  | .local _ .vmem, ⟨19, _⟩ => ⟨S2048x64, .bf16⟩
  | .local _ .vmem, ⟨20, _⟩ => ⟨S64x64, .f32⟩
  | .local _ .vmem, ⟨21, _⟩ => ⟨S64x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S64x32, .f32⟩
  | .local _ .vmem, ⟨26, _⟩ => ⟨S1x32, .f32⟩
  | .local _ .vmem, ⟨27, _⟩ => ⟨S32x1, .f32⟩
  | .local _ .vmem, ⟨28, _⟩ => ⟨S1x1, .f32⟩
  | .local _ .vmem, ⟨29, _⟩ => ⟨S2048x1, .f32⟩
  | .local _ .vmem, ⟨30, _⟩ => ⟨S2048x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg13_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem13_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2800x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2800x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2800x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S32x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2048x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  concatenates_S50000x64_S20000x64_S70000x64_d0 : Shape.Concatenates [S50000x64, S20000x64] S70000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S70000x64 : S_.BroadcastsInDim S70000x64 (![] : Fin 0 → Fin S70000x64.rank)
  shapeCasts_S64_S1x64 : S64.ShapeCasts S1x64
  inb_S2800x64_S2800x64_0_0 : ∀ a, (![0, 0] : Fin 2 → Nat) a + S2800x64.size a ≤ S2800x64.size a
  h_S2800x64 : 0 < S2800x64.numel
  shapeCasts_S2800x64_S2800x64 : S2800x64.ShapeCasts S2800x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2800x64 : S1x64.Broadcasts S2800x64
  packedbf16_S2800x64_S2800x64_0_0 : (Rect.unit (s := S2800x64) ![0, 0] S2800x64.size inb_S2800x64_S2800x64_0_0).PackedRows (EltTy.packing .bf16)
  bcast_S_S16384 : S_.BroadcastsInDim S16384 (![] : Fin 0 → Fin S16384.rank)
  bcast_S16384_S16384x1_0 : S16384.BroadcastsInDim S16384x1 (![0] : Fin 1 → Fin S16384x1.rank)
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S32_S1x32 : S32.ShapeCasts S1x32
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S64x64_S64x64 : S64x64.ShapeCasts S64x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  gather_S70000x64_S2000000x1_S2000000x64_1_0_n_n_0_1_164_wf : GatherDims.WF S70000x64 S2000000x1 S2000000x64 [1] [0] [] [0] [] 1 ![1, 64]
  scatter_S70000x64_S2000000x1_S2000000x64_1_0_0_1_wf : ScatterDims.WF S70000x64 S2000000x1 S2000000x64 [1] [0] [0] 1
  dot_S2800x64_S64x64_S2800x64_1_0_0_1_n_n_wf : DotDims.WF S2800x64 S64x64 S2800x64 [1] [0] [0] [1] [] []
  gather_S70000x64_S16384x1_S16384x64_1_0_n_n_0_1_164_wf : GatherDims.WF S70000x64 S16384x1 S16384x64 [1] [0] [] [0] [] 1 ![1, 64]
  dot_S2048x64_S64x64_S2048x64_1_0_0_1_n_n_wf : DotDims.WF S2048x64 S64x64 S2048x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2800x64.size a ≤ S70000x64.size a
  hwx0_0 : ∀ i : grid0.Coords, EltTy.bits .f32 = 32 ∨ (Rect.block (s := S70000x64) S2800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2800x64.size a ≤ S70000x64.size a
  hwx0_1 : ∀ i : grid0.Coords, EltTy.bits .f32 = 32 ∨ (Rect.block (s := S70000x64) S2800x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2800x64.size a ≤ S70000x64.size a
  hwx0_2 : ∀ i : grid0.Coords, EltTy.bits .f32 = 32 ∨ (Rect.block (s := S70000x64) S2800x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2800x64.size a ≤ S70000x64.size a
  hwx0_7 : ∀ i : grid0.Coords, EltTy.bits .bf16 = 32 ∨ (Rect.block (s := S70000x64) S2800x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .bf16 = 32 ∨ (Rect.block (s := S16384x64) S2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .bf16 = 32 ∨ (Rect.block (s := S16384x64) S2048x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x32.size a ≤ S64x32.size a
  hwx1_9 : ∀ i : grid1.Coords, EltTy.bits .f32 = 32 ∨ (Rect.block (s := S64x32) S64x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S32x1.size a ≤ S32x1.size a
  hwx1_11 : ∀ i : grid1.Coords, EltTy.bits .f32 = 32 ∨ (Rect.block (s := S32x1) S32x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2048x1.size a ≤ S16384x1.size a
  hwx1_13 : ∀ i : grid1.Coords, EltTy.bits .f32 = 32 ∨ (Rect.block (s := S16384x1) S2048x1.size (cc1_transform_13 i) (hinb1_13 i)).WholeWords (EltTy.packing .f32)

variable [Facts₀]

def gather_S70000x64_S2000000x1_S2000000x64_1_0_n_n_0_1_164 : GatherDims S70000x64 S2000000x1 S2000000x64 where
  offsetDims := [1]
  collapsedSliceDims := [0]
  operandBatchingDims := []
  startIndicesBatchingDims := []
  startIndexMap := [0]
  indexVectorDim := 1
  sliceSizes := ![1, 64]
  wf := gather_S70000x64_S2000000x1_S2000000x64_1_0_n_n_0_1_164_wf
def scatter_S70000x64_S2000000x1_S2000000x64_1_0_0_1 : ScatterDims S70000x64 S2000000x1 S2000000x64 where
  updateWindowDims := [1]
  insertedWindowDims := [0]
  scatterDimsToOperandDims := [0]
  indexVectorDim := 1
  wf := scatter_S70000x64_S2000000x1_S2000000x64_1_0_0_1_wf
def dot_S2800x64_S64x64_S2800x64_1_0_0_1_n_n : DotDims S2800x64 S64x64 S2800x64 where
  lhsContracting := [1]
  rhsContracting := [0]
  lhsNonContracting := [0]
  rhsNonContracting := [1]
  lhsBatch := []
  rhsBatch := []
  wf := dot_S2800x64_S64x64_S2800x64_1_0_0_1_n_n_wf
def gather_S70000x64_S16384x1_S16384x64_1_0_n_n_0_1_164 : GatherDims S70000x64 S16384x1 S16384x64 where
  offsetDims := [1]
  collapsedSliceDims := [0]
  operandBatchingDims := []
  startIndicesBatchingDims := []
  startIndexMap := [0]
  indexVectorDim := 1
  sliceSizes := ![1, 64]
  wf := gather_S70000x64_S16384x1_S16384x64_1_0_n_n_0_1_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_v0) S2800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2800x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S2800x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v56) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v60) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S64x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v61) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg13) S32x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v62) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v63) S2048x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S50000x64 : Shape := ⟨2, ![50000, 64]⟩
abbrev S20000x64 : Shape := ⟨2, ![20000, 64]⟩
abbrev S2000000 : Shape := ⟨1, ![2000000]⟩
abbrev S64x64 : Shape := ⟨2, ![64, 64]⟩
abbrev S64 : Shape := ⟨1, ![64]⟩
abbrev S256x64 : Shape := ⟨2, ![256, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384 : Shape := ⟨1, ![16384]⟩
abbrev S70000x64 : Shape := ⟨2, ![70000, 64]⟩
abbrev S2000000x1 : Shape := ⟨2, ![2000000, 1]⟩
abbrev S_ : Shape := ⟨0, ![]⟩
abbrev S2000000x64 : Shape := ⟨2, ![2000000, 64]⟩
abbrev S1x64 : Shape := ⟨2, ![1, 64]⟩
abbrev S70000x128 : Shape := ⟨2, ![70000, 128]⟩
abbrev S16384x1 : Shape := ⟨2, ![16384, 1]⟩
abbrev S16384x128 : Shape := ⟨2, ![16384, 128]⟩
abbrev S16384x256 : Shape := ⟨2, ![16384, 256]⟩
abbrev S16384x64 : Shape := ⟨2, ![16384, 64]⟩
abbrev S16384x32 : Shape := ⟨2, ![16384, 32]⟩
abbrev S1x32 : Shape := ⟨2, ![1, 32]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S20000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S16384, .i32⟩
  | .hbm, ⟨16, _⟩ => ⟨S16384, .i32⟩
  | .hbm, ⟨17, _⟩ => ⟨S70000x64, .f32⟩
  | .hbm, ⟨18, _⟩ => ⟨S2000000x1, .f32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000x64, .f32⟩
  | .hbm, ⟨28, _⟩ => ⟨S2000000x64, .f32⟩
  | .hbm, ⟨29, _⟩ => ⟨S2000000x64, .f32⟩
  | .hbm, ⟨30, _⟩ => ⟨S_, .f32⟩
  | .hbm, ⟨31, _⟩ => ⟨S70000x64, .f32⟩
  | .hbm, ⟨32, _⟩ => ⟨S2000000x1, .i32⟩
  | .hbm, ⟨33, _⟩ => ⟨S70000x64, .f32⟩
  | .hbm, ⟨34, _⟩ => ⟨S70000x64, .f32⟩
  | .hbm, ⟨35, _⟩ => ⟨S2000000x1, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000x64, .f32⟩
  | .hbm, ⟨45, _⟩ => ⟨S2000000x64, .f32⟩
  | .hbm, ⟨46, _⟩ => ⟨S2000000x64, .f32⟩
  | .hbm, ⟨47, _⟩ => ⟨S_, .f32⟩
  | .hbm, ⟨48, _⟩ => ⟨S70000x64, .f32⟩
  | .hbm, ⟨49, _⟩ => ⟨S2000000x1, .i32⟩
  | .hbm, ⟨50, _⟩ => ⟨S70000x64, .f32⟩
  | .hbm, ⟨51, _⟩ => ⟨S70000x64, .f32⟩
  | .hbm, ⟨52, _⟩ => ⟨S70000x64, .f32⟩
  | .hbm, ⟨53, _⟩ => ⟨S1x64, .f32⟩
  | .hbm, ⟨54, _⟩ => ⟨S70000x64, .f32⟩
  | .hbm, ⟨55, _⟩ => ⟨S70000x64, .f32⟩
  | .hbm, ⟨56, _⟩ => ⟨S70000x64, .f32⟩
  | .hbm, ⟨57, _⟩ => ⟨S1x64, .f32⟩
  | .hbm, ⟨58, _⟩ => ⟨S70000x64, .f32⟩
  | .hbm, ⟨59, _⟩ => ⟨S70000x64, .f32⟩
  | .hbm, ⟨60, _⟩ => ⟨S70000x64, .f32⟩
  | .hbm, ⟨61, _⟩ => ⟨S_, .f32⟩
  | .hbm, ⟨62, _⟩ => ⟨S_, .f32⟩
  | .hbm, ⟨63, _⟩ => ⟨S70000x64, .f32⟩
  | .hbm, ⟨64, _⟩ => ⟨S70000x64, .i1⟩
  | .hbm, ⟨65, _⟩ => ⟨S_, .f32⟩
  | .hbm, ⟨66, _⟩ => ⟨S70000x64, .f32⟩
  | .hbm, ⟨67, _⟩ => ⟨S70000x64, .f32⟩
  | .hbm, ⟨68, _⟩ => ⟨S70000x64, .f32⟩
  | .hbm, ⟨69, _⟩ => ⟨S70000x128, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S16384x128, .f32⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S_, .i32⟩
  | .hbm, ⟨83, _⟩ => ⟨S16384, .i32⟩
  | .hbm, ⟨84, _⟩ => ⟨S16384, .i1⟩
  | .hbm, ⟨85, _⟩ => ⟨S_, .i32⟩
  | .hbm, ⟨86, _⟩ => ⟨S16384, .i32⟩
  | .hbm, ⟨87, _⟩ => ⟨S16384, .i32⟩
  | .hbm, ⟨88, _⟩ => ⟨S16384, .i32⟩
  | .hbm, ⟨89, _⟩ => ⟨S16384x1, .i32⟩
  | .hbm, ⟨90, _⟩ => ⟨S16384x128, .f32⟩
  | .hbm, ⟨91, _⟩ => ⟨S16384x256, .f32⟩
  | .hbm, ⟨92, _⟩ => ⟨S16384x64, .f32⟩
  | .hbm, ⟨93, _⟩ => ⟨S1x64, .f32⟩
  | .hbm, ⟨94, _⟩ => ⟨S16384x64, .f32⟩
  | .hbm, ⟨95, _⟩ => ⟨S16384x64, .f32⟩
  | .hbm, ⟨96, _⟩ => ⟨S_, .f32⟩
  | .hbm, ⟨97, _⟩ => ⟨S16384x64, .f32⟩
  | .hbm, ⟨98, _⟩ => ⟨S16384x64, .f32⟩
  | .hbm, ⟨99, _⟩ => ⟨S16384x32, .f32⟩
  | .hbm, ⟨100, _⟩ => ⟨S1x32, .f32⟩
  | .hbm, ⟨101, _⟩ => ⟨S16384x32, .f32⟩
  | .hbm, ⟨102, _⟩ => ⟨S16384x32, .f32⟩
  | .hbm, ⟨103, _⟩ => ⟨S_, .f32⟩
  | .hbm, ⟨104, _⟩ => ⟨S16384x32, .f32⟩
  | .hbm, ⟨105, _⟩ => ⟨S16384x32, .f32⟩
  | .hbm, ⟨106, _⟩ => ⟨S16384x1, .f32⟩
  | .hbm, ⟨107, _⟩ => ⟨S1x1, .f32⟩
  | .hbm, ⟨108, _⟩ => ⟨S16384x1, .f32⟩
  | .hbm, ⟨109, _⟩ => ⟨S16384x1, .f32⟩
  | .hbm, ⟨110, _⟩ => ⟨S16384, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v38 : Ref sig .tc := ⟨.hbm, 68, rfl⟩
abbrev main_v39 : Ref sig .tc := ⟨.hbm, 69, rfl⟩
abbrev main_c_5 : Ref sig .tc := ⟨.hbm, 70, rfl⟩
abbrev main_v40 : Ref sig .tc := ⟨.hbm, 71, rfl⟩
abbrev main_v41 : Ref sig .tc := ⟨.hbm, 72, rfl⟩
abbrev main_c_6 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_7 : Ref sig .tc := ⟨.hbm, 79, rfl⟩
abbrev main_v47 : Ref sig .tc := ⟨.hbm, 80, rfl⟩
abbrev main_v48 : Ref sig .tc := ⟨.hbm, 81, rfl⟩
abbrev main_c_8 : Ref sig .tc := ⟨.hbm, 82, rfl⟩
abbrev main_v49 : Ref sig .tc := ⟨.hbm, 83, rfl⟩
abbrev main_v50 : Ref sig .tc := ⟨.hbm, 84, rfl⟩
abbrev main_c_9 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call1_cst : Ref sig .tc := ⟨.hbm, 96, rfl⟩
abbrev main_call1_v0 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call2_cst : Ref sig .tc := ⟨.hbm, 103, rfl⟩
abbrev main_call2_v0 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]

class Facts₀ : Prop where
  concatenates_S50000x64_S20000x64_S70000x64_d0 : Shape.Concatenates [S50000x64, S20000x64] S70000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S70000x64 : S_.BroadcastsInDim S70000x64 (![] : Fin 0 → Fin S70000x64.rank)
  bcast_S64_S1x64_1 : S64.BroadcastsInDim S1x64 (![1] : Fin 1 → Fin S1x64.rank)
  bcast_S1x64_S70000x64_0_1 : S1x64.BroadcastsInDim S70000x64 (![0, 1] : Fin 2 → Fin S70000x64.rank)
  concatenates_S70000x64_S70000x64_S70000x128_d1 : Shape.Concatenates [S70000x64, S70000x64] S70000x128 1
  bcast_S_S16384 : S_.BroadcastsInDim S16384 (![] : Fin 0 → Fin S16384.rank)
  bcast_S16384_S16384x1_0 : S16384.BroadcastsInDim S16384x1 (![0] : Fin 1 → Fin S16384x1.rank)
  concatenates_S16384x128_S16384x128_S16384x256_d1 : Shape.Concatenates [S16384x128, S16384x128] S16384x256 1
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S70000x64_S2000000x1_S2000000x64_1_0_n_n_0_1_164_wf : GatherDims.WF S70000x64 S2000000x1 S2000000x64 [1] [0] [] [0] [] 1 ![1, 64]
  scatter_S70000x64_S2000000x1_S2000000x64_1_0_0_1_wf : ScatterDims.WF S70000x64 S2000000x1 S2000000x64 [1] [0] [0] 1
  dot_S70000x64_S64x64_S70000x64_1_0_0_1_n_n_wf : DotDims.WF S70000x64 S64x64 S70000x64 [1] [0] [0] [1] [] []
  gather_S70000x128_S16384x1_S16384x128_1_0_n_n_0_1_1128_wf : GatherDims.WF S70000x128 S16384x1 S16384x128 [1] [0] [] [0] [] 1 ![1, 128]
  dot_S16384x256_S256x64_S16384x64_1_0_0_1_n_n_wf : DotDims.WF S16384x256 S256x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def gather_S70000x64_S2000000x1_S2000000x64_1_0_n_n_0_1_164 : GatherDims S70000x64 S2000000x1 S2000000x64 where
  offsetDims := [1]
  collapsedSliceDims := [0]
  operandBatchingDims := []
  startIndicesBatchingDims := []
  startIndexMap := [0]
  indexVectorDim := 1
  sliceSizes := ![1, 64]
  wf := gather_S70000x64_S2000000x1_S2000000x64_1_0_n_n_0_1_164_wf
def scatter_S70000x64_S2000000x1_S2000000x64_1_0_0_1 : ScatterDims S70000x64 S2000000x1 S2000000x64 where
  updateWindowDims := [1]
  insertedWindowDims := [0]
  scatterDimsToOperandDims := [0]
  indexVectorDim := 1
  wf := scatter_S70000x64_S2000000x1_S2000000x64_1_0_0_1_wf
def dot_S70000x64_S64x64_S70000x64_1_0_0_1_n_n : DotDims S70000x64 S64x64 S70000x64 where
  lhsContracting := [1]
  rhsContracting := [0]
  lhsNonContracting := [0]
  rhsNonContracting := [1]
  lhsBatch := []
  rhsBatch := []
  wf := dot_S70000x64_S64x64_S70000x64_1_0_0_1_n_n_wf
def gather_S70000x128_S16384x1_S16384x128_1_0_n_n_0_1_1128 : GatherDims S70000x128 S16384x1 S16384x128 where
  offsetDims := [1]
  collapsedSliceDims := [0]
  operandBatchingDims := []
  startIndicesBatchingDims := []
  startIndexMap := [0]
  indexVectorDim := 1
  sliceSizes := ![1, 128]
  wf := gather_S70000x128_S16384x1_S16384x128_1_0_n_n_0_1_1128_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.Spec.lean ====
/-
  The two functions both programs compute, as whole-array functions of their argument arrays over the extended
  reals, entry by entry.

  * `gcn`: one graph-convolution combine layer. With `feat` the node features, `lx` and `lx2` the aggregated
    features and aggregated squared features (rows of extent 64), entry (n, j) is the leaky rectifier of
    (sum over k of (lx + feat)[n,k] * Wg1[k,j]) + bg1[j] + ((sum over k of lx2[n,k] * Wg2[k,j]) + bg2[j]).
  * `mlp`: the three-layer perceptron on a batch row r: the first layer is the sum of four 64-term products (the two
    gathered feature rows and the two gathered hidden rows against the four 64-row pieces of the first weight matrix)
    plus a bias, rectified; the second a 64-term product plus bias, rectified; the third a 32-term product plus bias.
  * `mlpCat`: the same perceptron with the first layer written as ONE 256-term product of the concatenated row.
  `mlpCat_eq_mlp` joins the last two: a sum over 256 terms is the sum of its four 64-term stretches, which needs only
  that addition of extended reals is associative and commutative (no finiteness).
-/
import Idealize.ShloMosaic.Lib.ValueIdx
import Idealize.ShloMosaic.PureOps.Ideal

noncomputable section

namespace Cert.Spec

open Idealize.ShloMosaic Idealize.ShloMosaic.ValueIdx

/-- A matrix and a vector of extended reals of literal extents. -/
abbrev Mat (a b : Nat) : Type := (⟨2, ![a, b]⟩ : Shape).Idx → EReal
abbrev Vct (a : Nat) : Type := (⟨1, ![a]⟩ : Shape).Idx → EReal

/-- The leaky rectifier as both programs spell it: `x` where `x ≥ 0` (an ordered comparison against the zero word),
    the slope word (the binary32 nearest 0.01) times `x` elsewhere. -/
def leaky (x : EReal) : EReal :=
  Scalar.select (FloatOps.cmpf (F := Ideal) (φ := .f32) .oge x (Ideal.ofBits .f32 0x00000000#32)) x
    (Ideal.ofBits .f32 0x3C23D70A#32 * x)

/-- The combine layer before the rectifier, at row `n` and column `j`. -/
def gcnPre {N : Nat} (feat lx lx2 : Mat N 64) (Wg1 Wg2 : Mat 64 64) (bg1 bg2 : Fin 64 → EReal) (n : Fin N) (j : Fin 64) : EReal :=
  (∑ k : Fin 64, (lx (ix2 n k) + feat (ix2 n k)) * Wg1 (ix2 k j) + bg1 j)
    + (∑ k : Fin 64, lx2 (ix2 n k) * Wg2 (ix2 k j) + bg2 j)

/-- The combine layer: the leaky rectifier of `gcnPre`, as an array. -/
def gcn {N : Nat} (feat lx lx2 : Mat N 64) (Wg1 Wg2 : Mat 64 64) (bg1 bg2 : Fin 64 → EReal) : Mat N 64 :=
  fun i => leaky (gcnPre feat lx lx2 Wg1 Wg2 bg1 bg2 (i 0) (i 1))

/-- The perceptron's first layer with the four pieces apart, rectified, at row `r` and column `j`. -/
def hid1 {R : Nat} (uf uh vf vh : Mat R 64) (Wa Wb Wc Wd : Mat 64 64) (b1 : Fin 64 → EReal) (r : Fin R) (j : Fin 64) : EReal :=
  max (((((∑ k : Fin 64, uf (ix2 r k) * Wa (ix2 k j)) + ∑ k : Fin 64, uh (ix2 r k) * Wb (ix2 k j))
      + ∑ k : Fin 64, vf (ix2 r k) * Wc (ix2 k j)) + ∑ k : Fin 64, vh (ix2 r k) * Wd (ix2 k j)) + b1 j) 0

/-- The perceptron's first layer as one 256-term product, rectified. -/
def hid1Cat {R : Nat} (e : Mat R 256) (W1 : Mat 256 64) (b1 : Fin 64 → EReal) (r : Fin R) (j : Fin 64) : EReal :=
  max (∑ q : Fin 256, e (ix2 r q) * W1 (ix2 q j) + b1 j) 0

/-- The second and third layers over a rectified first layer `h`. -/
def hid2 {R : Nat} (h : Fin R → Fin 64 → EReal) (W2 : Mat 64 32) (b2 : Fin 32 → EReal) (r : Fin R) (j : Fin 32) : EReal :=
  max (∑ k : Fin 64, h r k * W2 (ix2 k j) + b2 j) 0
def outRow {R : Nat} (h : Fin R → Fin 64 → EReal) (W2 : Mat 64 32) (b2 : Fin 32 → EReal) (W3 : Mat 32 1) (b3 : EReal) (r : Fin R) : EReal :=
  ∑ k : Fin 32, hid2 h W2 b2 r k * W3 (ix2 k (0 : Fin 1)) + b3

/-- The perceptron with the first layer in four pieces, as a one-column array. -/
def mlp {R : Nat} (uf uh vf vh : Mat R 64) (Wa Wb Wc Wd : Mat 64 64) (b1 : Fin 64 → EReal) (W2 : Mat 64 32) (b2 : Fin 32 → EReal)
    (W3 : Mat 32 1) (b3 : EReal) : Mat R 1 :=
  fun i => outRow (hid1 uf uh vf vh Wa Wb Wc Wd b1) W2 b2 W3 b3 (i 0)

/-- The perceptron with the first layer as one product of the concatenated row, as a one-column array. -/
def mlpCat {R : Nat} (e : Mat R 256) (W1 : Mat 256 64) (b1 : Fin 64 → EReal) (W2 : Mat 64 32) (b2 : Fin 32 → EReal)
    (W3 : Mat 32 1) (b3 : EReal) : Mat R 1 :=
  fun i => outRow (hid1Cat e W1 b1) W2 b2 W3 b3 (i 0)

/-- A sum over 256 terms is the sum of its four stretches of 64, in any additive commutative monoid. -/
theorem sum_fin256_quarters {M : Type*} [AddCommMonoid M] (f : Fin 256 → M) :
    ∑ q : Fin 256, f q
      = (((∑ k : Fin 64, f ⟨k.val, by omega⟩) + ∑ k : Fin 64, f ⟨64 + k.val, by omega⟩)
          + ∑ k : Fin 64, f ⟨128 + k.val, by omega⟩) + ∑ k : Fin 64, f ⟨192 + k.val, by omega⟩ := by
  have h4 : ∀ g : Fin (64 + 64 + 64 + 64) → M, ∑ q, g q
      = (((∑ k : Fin 64, g (Fin.castAdd 64 (Fin.castAdd 64 (Fin.castAdd 64 k))))
          + ∑ k : Fin 64, g (Fin.castAdd 64 (Fin.castAdd 64 (Fin.natAdd 64 k))))
          + ∑ k : Fin 64, g (Fin.castAdd 64 (Fin.natAdd (64 + 64) k))) + ∑ k : Fin 64, g (Fin.natAdd (64 + 64 + 64) k) := by
    intro g
    rw [Fin.sum_univ_add, Fin.sum_univ_add, Fin.sum_univ_add]
  exact h4 f

/-- The one-product first layer of a row whose four stretches are the four pieces, against a weight matrix whose four
    row stretches are the four pieces, is the four-piece first layer. -/
theorem hid1Cat_eq_hid1 {R : Nat} (e : Mat R 256) (W1 : Mat 256 64) (uf uh vf vh : Mat R 64) (Wa Wb Wc Wd : Mat 64 64)
    (b1 : Fin 64 → EReal)
    (he0 : ∀ (r : Fin R) (k : Fin 64), e (ix2 r ⟨k.val, by omega⟩) = uf (ix2 r k))
    (he1 : ∀ (r : Fin R) (k : Fin 64), e (ix2 r ⟨64 + k.val, by omega⟩) = uh (ix2 r k))
    (he2 : ∀ (r : Fin R) (k : Fin 64), e (ix2 r ⟨128 + k.val, by omega⟩) = vf (ix2 r k))
    (he3 : ∀ (r : Fin R) (k : Fin 64), e (ix2 r ⟨192 + k.val, by omega⟩) = vh (ix2 r k))
    (hw0 : ∀ (k j : Fin 64), W1 (ix2 ⟨k.val, by omega⟩ j) = Wa (ix2 k j))
    (hw1 : ∀ (k j : Fin 64), W1 (ix2 ⟨64 + k.val, by omega⟩ j) = Wb (ix2 k j))
    (hw2 : ∀ (k j : Fin 64), W1 (ix2 ⟨128 + k.val, by omega⟩ j) = Wc (ix2 k j))
    (hw3 : ∀ (k j : Fin 64), W1 (ix2 ⟨192 + k.val, by omega⟩ j) = Wd (ix2 k j))
    (r : Fin R) (j : Fin 64) :
    hid1Cat e W1 b1 r j = hid1 uf uh vf vh Wa Wb Wc Wd b1 r j := by
  unfold hid1Cat hid1
  rw [sum_fin256_quarters]
  simp only [he0, he1, he2, he3, hw0, hw1, hw2, hw3]

/-- Hence the two perceptrons agree. -/
theorem mlpCat_eq_mlp {R : Nat} (e : Mat R 256) (W1 : Mat 256 64) (uf uh vf vh : Mat R 64) (Wa Wb Wc Wd : Mat 64 64)
    (b1 : Fin 64 → EReal) (W2 : Mat 64 32) (b2 : Fin 32 → EReal) (W3 : Mat 32 1) (b3 : EReal)
    (he0 : ∀ (r : Fin R) (k : Fin 64), e (ix2 r ⟨k.val, by omega⟩) = uf (ix2 r k))
    (he1 : ∀ (r : Fin R) (k : Fin 64), e (ix2 r ⟨64 + k.val, by omega⟩) = uh (ix2 r k))
    (he2 : ∀ (r : Fin R) (k : Fin 64), e (ix2 r ⟨128 + k.val, by omega⟩) = vf (ix2 r k))
    (he3 : ∀ (r : Fin R) (k : Fin 64), e (ix2 r ⟨192 + k.val, by omega⟩) = vh (ix2 r k))
    (hw0 : ∀ (k j : Fin 64), W1 (ix2 ⟨k.val, by omega⟩ j) = Wa (ix2 k j))
    (hw1 : ∀ (k j : Fin 64), W1 (ix2 ⟨64 + k.val, by omega⟩ j) = Wb (ix2 k j))
    (hw2 : ∀ (k j : Fin 64), W1 (ix2 ⟨128 + k.val, by omega⟩ j) = Wc (ix2 k j))
    (hw3 : ∀ (k j : Fin 64), W1 (ix2 ⟨192 + k.val, by omega⟩ j) = Wd (ix2 k j)) :
    mlpCat e W1 b1 W2 b2 W3 b3 = mlp uf uh vf vh Wa Wb Wc Wd b1 W2 b2 W3 b3 := by
  funext i
  unfold mlpCat mlp
  have h : hid1Cat e W1 b1 = hid1 uf uh vf vh Wa Wb Wc Wd b1 :=
    funext fun r => funext fun j => hid1Cat_eq_hid1 e W1 uf uh vf vh Wa Wb Wc Wd b1 he0 he1 he2 he3 hw0 hw1 hw2 hw3 r j
  rw [h]

end Cert.Spec

end
-- ==== Proof.LibSageLayer.lean ====
/-
  One dense graph-convolution layer read at one entry, at the ideal values (extended reals, every operation exact; a
  change of float format is the identity).

  `dense A X Wl Wr b p j` is entry (p, j) of `A Wl + X Wr + b`: the two sums over the contracted coordinate of the
  products, added, plus the bias entry. `kernel_layer_apply`: the two products, each of format-narrowed operands and
  accumulated into a zero splat, added, plus a [1, N] bias row laid along every row, is `dense`. `host_layer_apply`: the
  first product plus the bias vector (laid as one row, then along every row), plus the second product, is `dense` too —
  addition of extended reals is commutative and associative, so the bias may be added before or after the second
  product. `relu_host_apply`, `relu_kernel_apply`: the maximum with a zero (a scalar constant broadcast, or a splat of
  the zero word), read at an entry, is `max · 0`. `rowcast_apply`: a vector cast to a one-row matrix reads, at (0, j),
  the vector at j.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

noncomputable section

open scoped BigOperators

namespace Cert.Sage

open Idealize.ShloMosaic Idealize.ShloMosaic.ValueIdx Idealize.ShloMosaic.StackMember

/-- Entry (p, j) of `A Wl + X Wr + b`. -/
def dense {R K N : Nat} (A X : (⟨2, ![R, K]⟩ : Shape).Idx → EReal) (Wl Wr : (⟨2, ![K, N]⟩ : Shape).Idx → EReal) (b : Fin N → EReal) (p : Fin R) (j : Fin N) : EReal :=
  (∑ k : Fin K, A (ix2 p k) * Wl (ix2 k j) + ∑ k : Fin K, X (ix2 p k) * Wr (ix2 k j)) + b j

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- The kernel's layer: the two products of format-narrowed operands into zero accumulators, added, plus the bias row
    laid along every row. The dimension numbers are any record equal to the plain ones. -/
theorem kernel_layer_apply {R K N : Nat} (D : DotDims ⟨2, ![R, K]⟩ ⟨2, ![K, N]⟩ ⟨2, ![R, N]⟩) (hD : D = DotDims.plain R K N)
    (a x : FVec Ideal ⟨2, ![R, K]⟩ .f32) (wl wr : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![R, N]⟩) (p : Fin R) (j : Fin N) :
    addf (addf (matmul D none (truncf .bf16 a ht) (truncf .bf16 wl ht) (constant ⟨2, ![R, N]⟩ .f32 0x00000000#32))
               (matmul D none (truncf .bf16 x ht) (truncf .bf16 wr ht) (constant ⟨2, ![R, N]⟩ .f32 0x00000000#32)))
         (broadcastTo ⟨2, ![R, N]⟩ b hb) (ix2 p j)
      = dense a x wl wr (fun j => b (ix2 (0 : Fin 1) j)) p j := by
  subst hD
  rw [addf_apply, addf_apply, broadcastTo_1b_ab_apply, matmul0_apply, matmul0_apply]
  rfl

/-- The host's layer: the first product plus the bias (a vector laid as one row, the row laid along every row), plus
    the second product. The bias is added before the second product here and after it in `dense`; the two sums agree. -/
theorem host_layer_apply {R K N : Nat} (D : DotDims ⟨2, ![R, K]⟩ ⟨2, ![K, N]⟩ ⟨2, ![R, N]⟩) (hD : D = DotDims.plain R K N)
    (A X : FVec Ideal ⟨2, ![R, K]⟩ .f32) (Wl Wr : FVec Ideal ⟨2, ![K, N]⟩ .f32) (bl : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (j : Fin N) :
    addf (addf (Host.dotGeneral D none A Wl) (broadcastInDim ⟨2, ![R, N]⟩ ![0, 1] h2 (broadcastInDim ⟨2, ![1, N]⟩ ![1] h1 bl)))
         (Host.dotGeneral D none X Wr) (ix2 p j)
      = dense A X Wl Wr (fun j => bl (ix1 j)) p j := by
  subst hD
  rw [addf_apply, addf_apply, broadcastInDim_oneRow_apply, broadcastInDim_vecRow_apply, dotGeneral_plain_apply,
    dotGeneral_plain_apply]
  unfold dense
  exact add_right_comm _ _ _

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A vector cast to a one-row matrix reads, at (0, j), the vector at j. -/
theorem rowcast_apply {α : Type} {N : Nat} (bl : (⟨1, ![N]⟩ : Shape).Idx → α) (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

end Cert.Sage

end
-- ==== Proof.Region0.lean ====
/-
  The first launch's value. The launch runs over 25 grid points; at point t its body loads rows 2800 t … 2800 t + 2799
  of the node features, the aggregated features and the aggregated squared features, the two whole 64 by 64 weight
  matrices and the two whole bias rows, and stores one [2800, 64] block: the leaky rectifier of
  (lx + feat) Wg1 + bg1 + (lx2 Wg2 + bg2). At the ideal values a change of float format is the identity and a product
  into a zero accumulator is the sum over the contracted coordinate, so the stored block, entry by entry, is the
  combine layer `Cert.Spec.gcn` of the loaded blocks (`payload_apply`); a block's entry (p, j) is the array's entry
  (2800 t + p, j), so what point t writes back is block t of the combine layer of the whole arrays (`flushed_eq`);
  row r of the output lies in the block of point r / 2800, so the blocks cover the output (`cover`), and the array
  after the launch is the combine layer of the arrays the launch found (`value`).
-/
import proofs.«152742_j52785148068369_2_alg».proof.Proof.Gen.KernelIdeal.Frame
import proofs.«152742_j52785148068369_2_alg».proof.Proof.Spec
import proofs.«152742_j52785148068369_2_alg».proof.Proof.LibSageLayer
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The printed dimension numbers of the two products are the plain [2800, 64] by [64, 64] ones. -/
theorem dot_plain : dot_S2800x64_S64x64_S2800x64_1_0_0_1_n_n = DotDims.plain 2800 64 64 := rfl

/-- The leaky rectifier of a vector (compare against a splat of the zero word, keep the entry or take the slope word
    times it, then change format), read at an entry, is the rectifier of the entry. -/
theorem leaky_apply {s : Shape} (v : FVec Ideal s .f32) (h : FTy.bits .bf16 < FTy.bits .f32) (i : s.Idx) :
    (truncf .bf16 (select (cmpf .oge v (broadcast s (Scalar.ofBits (F := Ideal) .f32 0x00000000#32))) v
        (mulf (broadcast s (Scalar.ofBits (F := Ideal) .f32 0x3C23D70A#32)) v)) h : FVec Ideal s .bf16) i
      = Cert.Spec.leaky (v i) := rfl

/-- The two products with their bias rows, added, read at (p, j): the combine layer before the rectifier. -/
theorem pre_apply {R : Nat} (D : DotDims ⟨2, ![R, 64]⟩ ⟨2, ![64, 64]⟩ ⟨2, ![R, 64]⟩) (hD : D = DotDims.plain R 64 64)
    (x0 x1 x2 : FVec Ideal ⟨2, ![R, 64]⟩ .f32) (x3 x5 : FVec Ideal ⟨2, ![64, 64]⟩ .f32) (x4 x6 : FVec Ideal ⟨2, ![1, 64]⟩ .f32)
    (ht : FTy.bits .bf16 < FTy.bits .f32) (hb : (⟨2, ![1, 64]⟩ : Shape).Broadcasts ⟨2, ![R, 64]⟩) (p : Fin R) (j : Fin 64) :
    addf (addf (matmul D none (truncf .bf16 (addf x1 x0) ht) (truncf .bf16 x3 ht) (constant ⟨2, ![R, 64]⟩ .f32 0x00000000#32))
               (broadcastTo ⟨2, ![R, 64]⟩ x4 hb))
         (addf (matmul D none (truncf .bf16 x2 ht) (truncf .bf16 x5 ht) (constant ⟨2, ![R, 64]⟩ .f32 0x00000000#32))
               (broadcastTo ⟨2, ![R, 64]⟩ x6 hb)) (ix2 p j)
      = Cert.Spec.gcnPre x0 x1 x2 x3 x5 (fun j => x4 (ix2 (0 : Fin 1) j)) (fun j => x6 (ix2 (0 : Fin 1) j)) p j := by
  subst hD
  rw [addf_apply, addf_apply, addf_apply, broadcastTo_1b_ab_apply, broadcastTo_1b_ab_apply, Cert.Sage.matmul0_apply,
    Cert.Sage.matmul0_apply]
  rfl

/-- The body's payload at (p, j): the leaky rectifier of the combine layer of the loaded blocks. -/
theorem payload_apply (x0 x1 x2 : Vec Ideal S2800x64 .f32) (x3 x5 : Vec Ideal S64x64 .f32) (x4 x6 : Vec Ideal S1x64 .f32)
    (p : Fin 2800) (j : Fin 64) :
    k0_pay1 (F := Ideal) x0 x1 x2 x3 x5 x4 x6 (ix2 p j)
      = Cert.Spec.leaky (Cert.Spec.gcnPre x0 x1 x2 x3 x5 (fun j => x4 (ix2 (0 : Fin 1) j)) (fun j => x6 (ix2 (0 : Fin 1) j)) p j) := by
  unfold k0_pay1
  simp only [shapeCast_self]
  refine (leaky_apply _ _ _).trans ?_
  exact congrArg Cert.Spec.leaky (pre_apply _ dot_plain x0 x1 x2 x3 x5 x4 x6 _ _ p j)

theorem hz : (![0, 0] : Fin 2 → Nat) = fun _ => 0 := funext fun a => by fin_cases a <;> rfl

/-- The body's payload of loaded blocks that are the rows `q * 2800 …` of three arrays, two whole weight matrices and
    two whole bias rows, at the block's entry `y`, is the combine layer of the arrays at the array entry `i` that `y`
    sits at (row `q * 2800 +` the row of `y`, the same column). -/
theorem block_apply (A0 A1 A2 : Cert.Spec.Mat 70000 64) (W1 W2 : Cert.Spec.Mat 64 64) (B1 B2 : Cert.Spec.Mat 1 64)
    (x0 x1 x2 : Vec Ideal S2800x64 .f32) (x3 x5 : Vec Ideal S64x64 .f32) (x4 x6 : Vec Ideal S1x64 .f32) (q : Nat)
    (h0 : ∀ (p : Fin 2800) (k : Fin 64) (r : Fin 70000), r.val = q * 2800 + p.val → x0 (ix2 p k) = A0 (ix2 r k))
    (h1 : ∀ (p : Fin 2800) (k : Fin 64) (r : Fin 70000), r.val = q * 2800 + p.val → x1 (ix2 p k) = A1 (ix2 r k))
    (h2 : ∀ (p : Fin 2800) (k : Fin 64) (r : Fin 70000), r.val = q * 2800 + p.val → x2 (ix2 p k) = A2 (ix2 r k))
    (h3 : ∀ a b : Fin 64, x3 (ix2 a b) = W1 (ix2 a b)) (h5 : ∀ a b : Fin 64, x5 (ix2 a b) = W2 (ix2 a b))
    (h4 : ∀ b : Fin 64, x4 (ix2 (0 : Fin 1) b) = B1 (ix2 (0 : Fin 1) b))
    (h6 : ∀ b : Fin 64, x6 (ix2 (0 : Fin 1) b) = B2 (ix2 (0 : Fin 1) b))
    (y : S2800x64.Idx) (i : S70000x64.Idx) (hi0 : (i 0).val = q * 2800 + (y 0).val) (hi1 : (i 1).val = (y 1).val) :
    k0_pay1 (F := Ideal) x0 x1 x2 x3 x5 x4 x6 y
      = Cert.Spec.gcn A0 A1 A2 W1 W2 (fun j => B1 (ix2 (0 : Fin 1) j)) (fun j => B2 (ix2 (0 : Fin 1) j)) i := by
  obtain ⟨p, j, rfl⟩ : ∃ (p : Fin 2800) (j : Fin 64), y = ix2 p j := ⟨y 0, y 1, eq_ix2 y⟩
  obtain ⟨r, j', rfl⟩ : ∃ (r : Fin 70000) (j' : Fin 64), i = ix2 r j' := ⟨i 0, i 1, eq_ix2 i⟩
  have hr : r.val = q * 2800 + p.val := hi0
  obtain rfl : j' = j := Fin.ext hi1
  rw [payload_apply]
  show Cert.Spec.leaky _ = Cert.Spec.leaky (Cert.Spec.gcnPre A0 A1 A2 W1 W2 _ _ r j')
  refine congrArg Cert.Spec.leaky ?_
  unfold Cert.Spec.gcnPre
  simp only [h0 p _ r hr, h1 p _ r hr, h2 p _ r hr, h3, h5, h4, h6]

/-- The printed index maps, decided over the 25 grid points: the three row-blocked inputs move with the output (block
    row = the point, block column 0), the weights and bias rows stay at block (0, 0). -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

section
variable (V : (c : Dev nD) → (b : Ref sig .tc) → Buf (Elt Ideal) ((c : Thread nD τ).loc b))

/-- The combine layer of the arrays as the region finds them. -/
abbrev G (c : Dev nD) : Cert.Spec.Mat 70000 64 :=
  Cert.Spec.gcn (V c (Pipeline.arrRef spec0 0)) (V c (Pipeline.arrRef spec0 1)) (V c (Pipeline.arrRef spec0 2))
    (V c (Pipeline.arrRef spec0 3)) (V c (Pipeline.arrRef spec0 5))
    (fun j => V c (Pipeline.arrRef spec0 4) (ValueIdx.ix2 (0 : Fin 1) j))
    (fun j => V c (Pipeline.arrRef spec0 6) (ValueIdx.ix2 (0 : Fin 1) j))

/-- The block of the features at point `t` is rows `2800 t …` of the array. -/
theorem blk0_apply (c : Dev nD) (t : Fin cfg0.N) (p : Fin 2800) (k : Fin 64) (r : Fin 70000) (hr : r.val = t.val * 2800 + p.val) :
    (iblk0 V c 0 t : Vec Ideal S2800x64 .f32) (ix2 p k) = (V c (Pipeline.arrRef spec0 0) : Cert.Spec.Mat 70000 64) (ix2 r k) := by
  obtain ⟨e70, e71, e00, e01, e10, e11, e20, e21, e30, e31, e40, e41, e50, e51, e60, e61⟩ := idx_facts t
  show V c (Pipeline.arrRef spec0 0) (((cfg0.win 0).blk t).view.emb (ix2 p k)) = V c (Pipeline.arrRef spec0 0) (ix2 r k)
  congr 1
  funext a
  apply Fin.ext
  match a with
  | ⟨0, _⟩ => show win0_0.index t (0 : Fin 2) * 2800 + 1 * p.val = r.val; omega
  | ⟨1, _⟩ => show win0_0.index t (1 : Fin 2) * 64 + 1 * k.val = k.val; omega

/-- The block of the aggregated features at point `t` is rows `2800 t …` of the array. -/
theorem blk1_apply (c : Dev nD) (t : Fin cfg0.N) (p : Fin 2800) (k : Fin 64) (r : Fin 70000) (hr : r.val = t.val * 2800 + p.val) :
    (iblk0 V c 1 t : Vec Ideal S2800x64 .f32) (ix2 p k) = (V c (Pipeline.arrRef spec0 1) : Cert.Spec.Mat 70000 64) (ix2 r k) := by
  obtain ⟨e70, e71, e00, e01, e10, e11, e20, e21, e30, e31, e40, e41, e50, e51, e60, e61⟩ := idx_facts t
  show V c (Pipeline.arrRef spec0 1) (((cfg0.win 1).blk t).view.emb (ix2 p k)) = V c (Pipeline.arrRef spec0 1) (ix2 r k)
  congr 1
  funext a
  apply Fin.ext
  match a with
  | ⟨0, _⟩ => show win0_1.index t (0 : Fin 2) * 2800 + 1 * p.val = r.val; omega
  | ⟨1, _⟩ => show win0_1.index t (1 : Fin 2) * 64 + 1 * k.val = k.val; omega

/-- The block of the aggregated squared features at point `t` is rows `2800 t …` of the array. -/
theorem blk2_apply (c : Dev nD) (t : Fin cfg0.N) (p : Fin 2800) (k : Fin 64) (r : Fin 70000) (hr : r.val = t.val * 2800 + p.val) :
    (iblk0 V c 2 t : Vec Ideal S2800x64 .f32) (ix2 p k) = (V c (Pipeline.arrRef spec0 2) : Cert.Spec.Mat 70000 64) (ix2 r k) := by
  obtain ⟨e70, e71, e00, e01, e10, e11, e20, e21, e30, e31, e40, e41, e50, e51, e60, e61⟩ := idx_facts t
  show V c (Pipeline.arrRef spec0 2) (((cfg0.win 2).blk t).view.emb (ix2 p k)) = V c (Pipeline.arrRef spec0 2) (ix2 r k)
  congr 1
  funext a
  apply Fin.ext
  match a with
  | ⟨0, _⟩ => show win0_2.index t (0 : Fin 2) * 2800 + 1 * p.val = r.val; omega
  | ⟨1, _⟩ => show win0_2.index t (1 : Fin 2) * 64 + 1 * k.val = k.val; omega

/-- The block of the first weight matrix at any point is the whole matrix. -/
theorem blk3_apply (c : Dev nD) (t : Fin cfg0.N) (a b : Fin 64) :
    (iblk0 V c 3 t : Vec Ideal S64x64 .f32) (ix2 a b) = (V c (Pipeline.arrRef spec0 3) : Cert.Spec.Mat 64 64) (ix2 a b) := by
  obtain ⟨e70, e71, e00, e01, e10, e11, e20, e21, e30, e31, e40, e41, e50, e51, e60, e61⟩ := idx_facts t
  show V c (Pipeline.arrRef spec0 3) (((cfg0.win 3).blk t).view.emb (ix2 a b)) = V c (Pipeline.arrRef spec0 3) (ix2 a b)
  congr 1
  funext d
  apply Fin.ext
  match d with
  | ⟨0, _⟩ => show win0_3.index t (0 : Fin 2) * 64 + 1 * a.val = a.val; omega
  | ⟨1, _⟩ => show win0_3.index t (1 : Fin 2) * 64 + 1 * b.val = b.val; omega

/-- The block of the second weight matrix at any point is the whole matrix. -/
theorem blk5_apply (c : Dev nD) (t : Fin cfg0.N) (a b : Fin 64) :
    (iblk0 V c 5 t : Vec Ideal S64x64 .f32) (ix2 a b) = (V c (Pipeline.arrRef spec0 5) : Cert.Spec.Mat 64 64) (ix2 a b) := by
  obtain ⟨e70, e71, e00, e01, e10, e11, e20, e21, e30, e31, e40, e41, e50, e51, e60, e61⟩ := idx_facts t
  show V c (Pipeline.arrRef spec0 5) (((cfg0.win 5).blk t).view.emb (ix2 a b)) = V c (Pipeline.arrRef spec0 5) (ix2 a b)
  congr 1
  funext d
  apply Fin.ext
  match d with
  | ⟨0, _⟩ => show win0_5.index t (0 : Fin 2) * 64 + 1 * a.val = a.val; omega
  | ⟨1, _⟩ => show win0_5.index t (1 : Fin 2) * 64 + 1 * b.val = b.val; omega

/-- The block of the first bias row at any point is the whole row. -/
theorem blk4_apply (c : Dev nD) (t : Fin cfg0.N) (b : Fin 64) :
    (iblk0 V c 4 t : Vec Ideal S1x64 .f32) (ix2 (0 : Fin 1) b) = (V c (Pipeline.arrRef spec0 4) : Cert.Spec.Mat 1 64) (ix2 (0 : Fin 1) b) := by
  obtain ⟨e70, e71, e00, e01, e10, e11, e20, e21, e30, e31, e40, e41, e50, e51, e60, e61⟩ := idx_facts t
  show V c (Pipeline.arrRef spec0 4) (((cfg0.win 4).blk t).view.emb (ix2 (0 : Fin 1) b)) = V c (Pipeline.arrRef spec0 4) (ix2 (0 : Fin 1) b)
  congr 1
  funext d
  apply Fin.ext
  match d with
  | ⟨0, _⟩ => show win0_4.index t (0 : Fin 2) * 1 + 1 * (0 : Fin 1).val = (0 : Fin 1).val; omega
  | ⟨1, _⟩ => show win0_4.index t (1 : Fin 2) * 64 + 1 * b.val = b.val; omega

/-- The block of the second bias row at any point is the whole row. -/
theorem blk6_apply (c : Dev nD) (t : Fin cfg0.N) (b : Fin 64) :
    (iblk0 V c 6 t : Vec Ideal S1x64 .f32) (ix2 (0 : Fin 1) b) = (V c (Pipeline.arrRef spec0 6) : Cert.Spec.Mat 1 64) (ix2 (0 : Fin 1) b) := by
  obtain ⟨e70, e71, e00, e01, e10, e11, e20, e21, e30, e31, e40, e41, e50, e51, e60, e61⟩ := idx_facts t
  show V c (Pipeline.arrRef spec0 6) (((cfg0.win 6).blk t).view.emb (ix2 (0 : Fin 1) b)) = V c (Pipeline.arrRef spec0 6) (ix2 (0 : Fin 1) b)
  congr 1
  funext d
  apply Fin.ext
  match d with
  | ⟨0, _⟩ => show win0_6.index t (0 : Fin 2) * 1 + 1 * (0 : Fin 1).val = (0 : Fin 1).val; omega
  | ⟨1, _⟩ => show win0_6.index t (1 : Fin 2) * 64 + 1 * b.val = b.val; omega

/-- What point `t` writes back is block `t` of the combine layer of the arrays. -/
theorem flushed_eq (c : Dev nD) (t : Fin cfg0.N) :
    (dat0 (F := Ideal) V c).flushed 7 t = ((cfg0.win 7).blk t).view.read (Elt Ideal) (G V c) := by
  show (cfg0.win 7).cut (grid0.coords t) ((dat0 (F := Ideal) V c).after 7 t) = _
  rw [after0_7]
  unfold out0_7
  rw [View.canon_unit_zero hz]
  simp only [View.ld_unit_zero (S := S2800x64) hz, View.ld_unit_zero (S := S64x64) hz, View.ld_unit_zero (S := S1x64) hz]
  obtain ⟨e70, e71, e00, e01, e10, e11, e20, e21, e30, e31, e40, e41, e50, e51, e60, e61⟩ := idx_facts t
  funext y
  show k0_pay1 (F := Ideal) (iblk0 V c 0 t) (iblk0 V c 1 t) (iblk0 V c 2 t) (iblk0 V c 3 t) (iblk0 V c 5 t) (iblk0 V c 4 t) (iblk0 V c 6 t) y
    = G V c (((cfg0.win 7).blk t).view.emb y)
  refine block_apply (V c (Pipeline.arrRef spec0 0)) (V c (Pipeline.arrRef spec0 1)) (V c (Pipeline.arrRef spec0 2))
    (V c (Pipeline.arrRef spec0 3)) (V c (Pipeline.arrRef spec0 5)) (V c (Pipeline.arrRef spec0 4)) (V c (Pipeline.arrRef spec0 6))
    (iblk0 V c 0 t) (iblk0 V c 1 t) (iblk0 V c 2 t) (iblk0 V c 3 t) (iblk0 V c 5 t) (iblk0 V c 4 t) (iblk0 V c 6 t) t.val
    (blk0_apply V c t) (blk1_apply V c t) (blk2_apply V c t) (blk3_apply V c t) (blk5_apply V c t) (blk4_apply V c t) (blk6_apply V c t)
    y (((cfg0.win 7).blk t).view.emb y) ?_ ?_
  · show win0_7.index t (0 : Fin 2) * 2800 + 1 * (y 0).val = t.val * 2800 + (y 0).val
    omega
  · show win0_7.index t (1 : Fin 2) * 64 + 1 * (y 1).val = (y 1).val
    omega

end
/-- An index of the output array is in point `t`'s block iff each coordinate is in the block's range on its axis. -/
theorem mem_blk (t : Fin cfg0.N) (i : S70000x64.Idx) :
    i ∈ ((cfg0.win 7).blk t).view.set ↔ ∀ a : Fin 2, win0_7.index t a * S2800x64.size a ≤ (i a).val ∧ (i a).val < win0_7.index t a * S2800x64.size a + S2800x64.size a := by
  show i ∈ ((View.whole main_v23).slice (win0_7.rect t)).set ↔ _
  rw [View.set_slice_whole, Rect.mem_set_unit]
  exact Iff.rfl

/-- Every entry of the output array is in some point's block: row `r` is in the block of point `r / 2800`. -/
theorem cover (i : S70000x64.Idx) :
    ∃ t : Fin cfg0.N, (cfg0.win 7).flush t = true ∧ i ∈ ((cfg0.win 7).blk t).view.set := by
  have hN : cfg0.N = 25 := N_0
  have hi0 : (i 0).val < 70000 := (i 0).isLt
  have hi1 : (i 1).val < 64 := (i 1).isLt
  obtain ⟨t, ht⟩ : ∃ t : Fin cfg0.N, t.val = (i 0).val / 2800 := ⟨⟨(i 0).val / 2800, by rw [hN]; omega⟩, rfl⟩
  obtain ⟨e70, e71, -⟩ := idx_facts t
  refine ⟨t, flush0_7 t, ?_⟩
  rw [mem_blk]
  intro a
  match a with
  | ⟨0, _⟩ => show win0_7.index t (0 : Fin 2) * 2800 ≤ (i 0).val ∧ (i 0).val < win0_7.index t (0 : Fin 2) * 2800 + 2800; omega
  | ⟨1, _⟩ => show win0_7.index t (1 : Fin 2) * 64 ≤ (i 1).val ∧ (i 1).val < win0_7.index t (1 : Fin 2) * 64 + 64; omega

/-- THE FIRST LAUNCH'S VALUE: after the 25 points the output array holds the combine layer of the arrays the region
    found — every point writes its block of that one function, and the blocks cover the array. -/
theorem value (V : (c : Dev nD) → (b : Ref sig .tc) → Buf (Elt Ideal) ((c : Thread nD τ).loc b)) (c : Dev nD) :
    (Gen.dat0 (F := Ideal) V c).arrAt 7 cfg0.N
      = Cert.Spec.gcn (V c (Pipeline.arrRef spec0 0)) (V c (Pipeline.arrRef spec0 1)) (V c (Pipeline.arrRef spec0 2))
          (V c (Pipeline.arrRef spec0 3)) (V c (Pipeline.arrRef spec0 5))
          (fun j => V c (Pipeline.arrRef spec0 4) (ValueIdx.ix2 (0 : Fin 1) j))
          (fun j => V c (Pipeline.arrRef spec0 6) (ValueIdx.ix2 (0 : Fin 1) j)) :=
  (dat0 (F := Ideal) V c).arrAt_eq_of_cover 7 (G V c) (fun t _ => flushed_eq V c t) cover

end Cert.KernelIdeal.Region0

end
-- ==== Proof.Region1.lean ====
/-
  The second launch (the batch perceptron) as a whole-array function. Each of the eight grid points holds a block of 2048
  batch rows of the four gathered inputs and all of the weights and biases; its body computes, row by row, the
  three-layer perceptron of the specification: the first layer as four 64-term products added and a bias, rectified;
  the second layer a 64-term product and a bias, rectified; the third a 32-term product and a bias. A change of float
  format is the identity on the extended reals, a cast of a shape to itself is the identity, and a product into a zero
  accumulator is the sum over the contracted coordinate. Block t covers rows 2048 t ... 2048 t + 2047 of the output, so
  the eight blocks cover the 16384 rows and the output array is the perceptron of the whole arrays.
-/
import proofs.«152742_j52785148068369_2_alg».proof.Proof.Gen.KernelIdeal.Frame
import proofs.«152742_j52785148068369_2_alg».proof.Proof.Spec
import proofs.«152742_j52785148068369_2_alg».proof.Proof.LibSageLayer
import Idealize.ShloMosaic.Lib.ValueLayout
import Idealize.ShloMosaic.Lib.Pipeline.Value

noncomputable section

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat)

/-! ## The dimension numbers are the plain ones -/

theorem dims_first : dot_S2048x64_S64x64_S2048x64_1_0_0_1_n_n = DotDims.plain 2048 64 64 := rfl
theorem dims_second : dot_S2048x64_S64x32_S2048x32_1_0_0_1_n_n = DotDims.plain 2048 64 32 := rfl
theorem dims_third : dot_S2048x32_S32x1_S2048x1_1_0_0_1_n_n = DotDims.plain 2048 32 1 := rfl

/-! ## The body's values at an entry -/

/-- The rectified first layer of a block, at row p and column j. -/
theorem first_layer_apply (v0 : Vec Ideal S2048x64 .f32) (v3 : Vec Ideal S2048x64 .bf16) (v5 : Vec Ideal S2048x64 .f32)
    (v8 : Vec Ideal S2048x64 .bf16) (v10 v13 v16 v19 : Vec Ideal S64x64 .f32) (v29 : Vec Ideal S1x64 .f32)
    (p : Fin 2048) (j : Fin 64) :
    k1_pay2 (F := Ideal) v0 v3 v5 v8 v10 v13 v16 v19 v29 (ix2 p j)
      = Cert.Spec.hid1 v0 v3 v5 v8 v10 v13 v16 v19 (fun j => v29 (ix2 (0 : Fin 1) j)) p j := by
  unfold k1_pay2
  simp only [shapeCast_self]
  rw [Cert.Sage.relu_kernel_apply, addf_apply, addf_apply, addf_apply, addf_apply, broadcastTo_1b_ab_apply]
  rw [dims_first]
  rw [Cert.Sage.matmul0_apply, Cert.Sage.matmul0_apply, Cert.Sage.matmul0_apply, Cert.Sage.matmul0_apply]
  rfl

/-- The rectified second layer over a first layer h, at row p and column k. -/
theorem second_layer_apply (h : FVec Ideal S2048x64 .f32) (v35 : Vec Ideal S64x32 .f32) (v39 : Vec Ideal S1x32 .f32)
    (ht : FTy.bits .bf16 < FTy.bits .f32) (hb : S1x32.Broadcasts S2048x32) (p : Fin 2048) (k : Fin 32) :
    maximumf (addf (matmul dot_S2048x64_S64x32_S2048x32_1_0_0_1_n_n none (truncf .bf16 h ht)
          (truncf .bf16 v35 ht) (constant (F := Ideal) S2048x32 .f32 0x00000000#32))
        (broadcastTo S2048x32 v39 hb))
      (broadcast S2048x32 (Scalar.ofBits (F := Ideal) .f32 0x00000000#32)) (ix2 p k)
      = Cert.Spec.hid2 (fun p j => h (ix2 p j)) v35 (fun j => v39 (ix2 (0 : Fin 1) j)) p k := by
  rw [Cert.Sage.relu_kernel_apply, addf_apply, broadcastTo_1b_ab_apply, dims_second, Cert.Sage.matmul0_apply]
  rfl

/-- The third layer over a first layer h, at row p. -/
theorem out_row_apply (h : FVec Ideal S2048x64 .f32) (v35 : Vec Ideal S64x32 .f32) (v39 : Vec Ideal S1x32 .f32)
    (v45 : Vec Ideal S32x1 .f32) (v49 : Vec Ideal S1x1 .f32) (p : Fin 2048) :
    k1_pay1 (F := Ideal) h v35 v39 v45 v49 (ix2 p (0 : Fin 1))
      = Cert.Spec.outRow (fun p j => h (ix2 p j)) v35 (fun j => v39 (ix2 (0 : Fin 1) j)) v45
          (v49 (ix2 (0 : Fin 1) (0 : Fin 1))) p := by
  unfold k1_pay1
  simp only [shapeCast_self]
  rw [addf_apply, broadcastTo_1b_ab_apply, dims_third, Cert.Sage.matmul0_apply]
  unfold Cert.Spec.outRow
  refine congrArg (· + v49 (ix2 (0 : Fin 1) (0 : Fin 1))) ?_
  refine Finset.sum_congr rfl fun k _ => ?_
  rw [truncf_apply, truncf_apply, second_layer_apply]

/-! ## The blocks -/

/-- The index maps, decided over the eight points: the four gathered inputs and the output move down their rows with
    the point, block column 0; every weight and bias window stays at block (0, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = t.val ∧ win1_13.index t (1 : Fin 2) = 0) :=
  (by decide +kernel : ∀ t : Fin grid1.N, _)

section Blocks
variable (V : (c : Dev nD) → (b : Ref sig .tc) → Buf (Elt Ideal) ((c : Thread nD τ).loc b))

/-- Window 0's block at point t is rows 2048 t … 2048 t + 2047 of its array. -/
theorem block0_apply (c : Dev nD) (t : Fin cfg1.N) (x : S2048x64.Idx) (k : S16384x64.Idx)
    (hk0 : (k 0).val = 2048 * t.val + (x 0).val) (hk1 : (k 1).val = (x 1).val) :
    (iblk1 V c 0 t : Vec Ideal S2048x64 .f32) x = (V c (Pipeline.arrRef spec1 0) : S16384x64.Idx → Elt Ideal .f32) k := by
  have hi := (index_facts t).1
  unfold iblk1
  rw [View.read_apply]
  refine congrArg (V c (Pipeline.arrRef spec1 0)) ?_
  funext a
  apply Fin.ext
  match a with
  | ⟨0, _⟩ => show win1_0.index t 0 * 2048 + 1 * (x 0).val = (k 0).val; rw [hi.1, hk0]; omega
  | ⟨1, _⟩ => show win1_0.index t 1 * 64 + 1 * (x 1).val = (k 1).val; rw [hi.2, hk1]; omega

/-- Window 1's block at point t is rows 2048 t … 2048 t + 2047 of its array. -/
theorem block1_apply (c : Dev nD) (t : Fin cfg1.N) (x : S2048x64.Idx) (k : S16384x64.Idx)
    (hk0 : (k 0).val = 2048 * t.val + (x 0).val) (hk1 : (k 1).val = (x 1).val) :
    (iblk1 V c 1 t : Vec Ideal S2048x64 .bf16) x = (V c (Pipeline.arrRef spec1 1) : S16384x64.Idx → Elt Ideal .bf16) k := by
  have hi := (index_facts t).2.1
  unfold iblk1
  rw [View.read_apply]
  refine congrArg (V c (Pipeline.arrRef spec1 1)) ?_
  funext a
  apply Fin.ext
  match a with
  | ⟨0, _⟩ => show win1_1.index t 0 * 2048 + 1 * (x 0).val = (k 0).val; rw [hi.1, hk0]; omega
  | ⟨1, _⟩ => show win1_1.index t 1 * 64 + 1 * (x 1).val = (k 1).val; rw [hi.2, hk1]; omega

/-- Window 2's block at point t is rows 2048 t … 2048 t + 2047 of its array. -/
theorem block2_apply (c : Dev nD) (t : Fin cfg1.N) (x : S2048x64.Idx) (k : S16384x64.Idx)
    (hk0 : (k 0).val = 2048 * t.val + (x 0).val) (hk1 : (k 1).val = (x 1).val) :
    (iblk1 V c 2 t : Vec Ideal S2048x64 .f32) x = (V c (Pipeline.arrRef spec1 2) : S16384x64.Idx → Elt Ideal .f32) k := by
  have hi := (index_facts t).2.2.1
  unfold iblk1
  rw [View.read_apply]
  refine congrArg (V c (Pipeline.arrRef spec1 2)) ?_
  funext a
  apply Fin.ext
  match a with
  | ⟨0, _⟩ => show win1_2.index t 0 * 2048 + 1 * (x 0).val = (k 0).val; rw [hi.1, hk0]; omega
  | ⟨1, _⟩ => show win1_2.index t 1 * 64 + 1 * (x 1).val = (k 1).val; rw [hi.2, hk1]; omega

/-- Window 3's block at point t is rows 2048 t … 2048 t + 2047 of its array. -/
theorem block3_apply (c : Dev nD) (t : Fin cfg1.N) (x : S2048x64.Idx) (k : S16384x64.Idx)
    (hk0 : (k 0).val = 2048 * t.val + (x 0).val) (hk1 : (k 1).val = (x 1).val) :
    (iblk1 V c 3 t : Vec Ideal S2048x64 .bf16) x = (V c (Pipeline.arrRef spec1 3) : S16384x64.Idx → Elt Ideal .bf16) k := by
  have hi := (index_facts t).2.2.2.1
  unfold iblk1
  rw [View.read_apply]
  refine congrArg (V c (Pipeline.arrRef spec1 3)) ?_
  funext a
  apply Fin.ext
  match a with
  | ⟨0, _⟩ => show win1_3.index t 0 * 2048 + 1 * (x 0).val = (k 0).val; rw [hi.1, hk0]; omega
  | ⟨1, _⟩ => show win1_3.index t 1 * 64 + 1 * (x 1).val = (k 1).val; rw [hi.2, hk1]; omega

/-- Window 4's block at every point is its whole array. -/
theorem block4_eq (c : Dev nD) (t : Fin cfg1.N) :
    (iblk1 V c 4 t : Vec Ideal S64x64 .f32) = (V c (Pipeline.arrRef spec1 4) : S64x64.Idx → Elt Ideal .f32) := by
  have hi := (index_facts t).2.2.2.2.1
  funext x
  unfold iblk1
  rw [View.read_apply]
  refine congrArg (V c (Pipeline.arrRef spec1 4)) ?_
  funext a
  apply Fin.ext
  match a with
  | ⟨0, _⟩ => show win1_4.index t 0 * 64 + 1 * (x 0).val = (x 0).val; rw [hi.1]; omega
  | ⟨1, _⟩ => show win1_4.index t 1 * 64 + 1 * (x 1).val = (x 1).val; rw [hi.2]; omega

/-- Window 5's block at every point is its whole array. -/
theorem block5_eq (c : Dev nD) (t : Fin cfg1.N) :
    (iblk1 V c 5 t : Vec Ideal S64x64 .f32) = (V c (Pipeline.arrRef spec1 5) : S64x64.Idx → Elt Ideal .f32) := by
  have hi := (index_facts t).2.2.2.2.2.1
  funext x
  unfold iblk1
  rw [View.read_apply]
  refine congrArg (V c (Pipeline.arrRef spec1 5)) ?_
  funext a
  apply Fin.ext
  match a with
  | ⟨0, _⟩ => show win1_5.index t 0 * 64 + 1 * (x 0).val = (x 0).val; rw [hi.1]; omega
  | ⟨1, _⟩ => show win1_5.index t 1 * 64 + 1 * (x 1).val = (x 1).val; rw [hi.2]; omega

/-- Window 6's block at every point is its whole array. -/
theorem block6_eq (c : Dev nD) (t : Fin cfg1.N) :
    (iblk1 V c 6 t : Vec Ideal S64x64 .f32) = (V c (Pipeline.arrRef spec1 6) : S64x64.Idx → Elt Ideal .f32) := by
  have hi := (index_facts t).2.2.2.2.2.2.1
  funext x
  unfold iblk1
  rw [View.read_apply]
  refine congrArg (V c (Pipeline.arrRef spec1 6)) ?_
  funext a
  apply Fin.ext
  match a with
  | ⟨0, _⟩ => show win1_6.index t 0 * 64 + 1 * (x 0).val = (x 0).val; rw [hi.1]; omega
  | ⟨1, _⟩ => show win1_6.index t 1 * 64 + 1 * (x 1).val = (x 1).val; rw [hi.2]; omega

/-- Window 7's block at every point is its whole array. -/
theorem block7_eq (c : Dev nD) (t : Fin cfg1.N) :
    (iblk1 V c 7 t : Vec Ideal S64x64 .f32) = (V c (Pipeline.arrRef spec1 7) : S64x64.Idx → Elt Ideal .f32) := by
  have hi := (index_facts t).2.2.2.2.2.2.2.1
  funext x
  unfold iblk1
  rw [View.read_apply]
  refine congrArg (V c (Pipeline.arrRef spec1 7)) ?_
  funext a
  apply Fin.ext
  match a with
  | ⟨0, _⟩ => show win1_7.index t 0 * 64 + 1 * (x 0).val = (x 0).val; rw [hi.1]; omega
  | ⟨1, _⟩ => show win1_7.index t 1 * 64 + 1 * (x 1).val = (x 1).val; rw [hi.2]; omega

/-- Window 8's block at every point is its whole array. -/
theorem block8_eq (c : Dev nD) (t : Fin cfg1.N) :
    (iblk1 V c 8 t : Vec Ideal S1x64 .f32) = (V c (Pipeline.arrRef spec1 8) : S1x64.Idx → Elt Ideal .f32) := by
  have hi := (index_facts t).2.2.2.2.2.2.2.2.1
  funext x
  unfold iblk1
  rw [View.read_apply]
  refine congrArg (V c (Pipeline.arrRef spec1 8)) ?_
  funext a
  apply Fin.ext
  match a with
  | ⟨0, _⟩ => show win1_8.index t 0 * 1 + 1 * (x 0).val = (x 0).val; rw [hi.1]; omega
  | ⟨1, _⟩ => show win1_8.index t 1 * 64 + 1 * (x 1).val = (x 1).val; rw [hi.2]; omega

/-- Window 9's block at every point is its whole array. -/
theorem block9_eq (c : Dev nD) (t : Fin cfg1.N) :
    (iblk1 V c 9 t : Vec Ideal S64x32 .f32) = (V c (Pipeline.arrRef spec1 9) : S64x32.Idx → Elt Ideal .f32) := by
  have hi := (index_facts t).2.2.2.2.2.2.2.2.2.1
  funext x
  unfold iblk1
  rw [View.read_apply]
  refine congrArg (V c (Pipeline.arrRef spec1 9)) ?_
  funext a
  apply Fin.ext
  match a with
  | ⟨0, _⟩ => show win1_9.index t 0 * 64 + 1 * (x 0).val = (x 0).val; rw [hi.1]; omega
  | ⟨1, _⟩ => show win1_9.index t 1 * 32 + 1 * (x 1).val = (x 1).val; rw [hi.2]; omega

/-- Window 10's block at every point is its whole array. -/
theorem block10_eq (c : Dev nD) (t : Fin cfg1.N) :
    (iblk1 V c 10 t : Vec Ideal S1x32 .f32) = (V c (Pipeline.arrRef spec1 10) : S1x32.Idx → Elt Ideal .f32) := by
  have hi := (index_facts t).2.2.2.2.2.2.2.2.2.2.1
  funext x
  unfold iblk1
  rw [View.read_apply]
  refine congrArg (V c (Pipeline.arrRef spec1 10)) ?_
  funext a
  apply Fin.ext
  match a with
  | ⟨0, _⟩ => show win1_10.index t 0 * 1 + 1 * (x 0).val = (x 0).val; rw [hi.1]; omega
  | ⟨1, _⟩ => show win1_10.index t 1 * 32 + 1 * (x 1).val = (x 1).val; rw [hi.2]; omega

/-- Window 11's block at every point is its whole array. -/
theorem block11_eq (c : Dev nD) (t : Fin cfg1.N) :
    (iblk1 V c 11 t : Vec Ideal S32x1 .f32) = (V c (Pipeline.arrRef spec1 11) : S32x1.Idx → Elt Ideal .f32) := by
  have hi := (index_facts t).2.2.2.2.2.2.2.2.2.2.2.1
  funext x
  unfold iblk1
  rw [View.read_apply]
  refine congrArg (V c (Pipeline.arrRef spec1 11)) ?_
  funext a
  apply Fin.ext
  match a with
  | ⟨0, _⟩ => show win1_11.index t 0 * 32 + 1 * (x 0).val = (x 0).val; rw [hi.1]; omega
  | ⟨1, _⟩ => show win1_11.index t 1 * 1 + 1 * (x 1).val = (x 1).val; rw [hi.2]; omega

/-- Window 12's block at every point is its whole array. -/
theorem block12_eq (c : Dev nD) (t : Fin cfg1.N) :
    (iblk1 V c 12 t : Vec Ideal S1x1 .f32) = (V c (Pipeline.arrRef spec1 12) : S1x1.Idx → Elt Ideal .f32) := by
  have hi := (index_facts t).2.2.2.2.2.2.2.2.2.2.2.2.1
  funext x
  unfold iblk1
  rw [View.read_apply]
  refine congrArg (V c (Pipeline.arrRef spec1 12)) ?_
  funext a
  apply Fin.ext
  match a with
  | ⟨0, _⟩ => show win1_12.index t 0 * 1 + 1 * (x 0).val = (x 0).val; rw [hi.1]; omega
  | ⟨1, _⟩ => show win1_12.index t 1 * 1 + 1 * (x 1).val = (x 1).val; rw [hi.2]; omega

/-! ## What a point writes back -/

theorem zero_offsets : (![0, 0] : Fin 2 → Nat) = fun _ => 0 := funext fun a => by fin_cases a <;> rfl

/-- The third layer depends on the first layer through its row only. -/
theorem outRow_congr {R R' : Nat} (h : Fin R → Fin 64 → EReal) (h' : Fin R' → Fin 64 → EReal) (W2 : Cert.Spec.Mat 64 32)
    (b2 : Fin 32 → EReal) (W3 : Cert.Spec.Mat 32 1) (b3 : EReal) (r : Fin R) (r' : Fin R') (hh : ∀ k, h r k = h' r' k) :
    Cert.Spec.outRow h W2 b2 W3 b3 r = Cert.Spec.outRow h' W2 b2 W3 b3 r' := by
  unfold Cert.Spec.outRow Cert.Spec.hid2
  simp only [hh]

/-- The first layer depends on the four inputs through their rows only. -/
theorem hid1_congr {R R' : Nat} (uf uh vf vh : Cert.Spec.Mat R 64) (uf' uh' vf' vh' : Cert.Spec.Mat R' 64)
    (Wa Wb Wc Wd : Cert.Spec.Mat 64 64) (b1 : Fin 64 → EReal) (r : Fin R) (r' : Fin R') (j : Fin 64)
    (h0 : ∀ k, uf (ix2 r k) = uf' (ix2 r' k)) (h1 : ∀ k, uh (ix2 r k) = uh' (ix2 r' k))
    (h2 : ∀ k, vf (ix2 r k) = vf' (ix2 r' k)) (h3 : ∀ k, vh (ix2 r k) = vh' (ix2 r' k)) :
    Cert.Spec.hid1 uf uh vf vh Wa Wb Wc Wd b1 r j = Cert.Spec.hid1 uf' uh' vf' vh' Wa Wb Wc Wd b1 r' j := by
  unfold Cert.Spec.hid1
  simp only [h0, h1, h2, h3]

/-- The perceptron of the arrays as the launch finds them. -/
abbrev wholeValue (c : Dev nD) : S16384x1.Idx → EReal :=
  Cert.Spec.mlp (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (V c (Pipeline.arrRef spec1 6)) (V c (Pipeline.arrRef spec1 7))
    (fun j => V c (Pipeline.arrRef spec1 8) (ValueIdx.ix2 (0 : Fin 1) j))
    (V c (Pipeline.arrRef spec1 9))
    (fun j => V c (Pipeline.arrRef spec1 10) (ValueIdx.ix2 (0 : Fin 1) j))
    (V c (Pipeline.arrRef spec1 11))
    (V c (Pipeline.arrRef spec1 12) (ValueIdx.ix2 (0 : Fin 1) (0 : Fin 1)))

/-- The output block's row p at point t is row 2048 t + p of the array. -/
theorem out_row (t : Fin cfg1.N) (p : Fin 2048) (r : Fin 16384) (hr : r.val = 2048 * t.val + p.val) :
    ((cfg1.win 13).blk t).view.emb (ix2 p (0 : Fin 1) : S2048x1.Idx) = (ix2 r (0 : Fin 1) : S16384x1.Idx) := by
  have hi := (index_facts t).2.2.2.2.2.2.2.2.2.2.2.2.2
  funext a
  apply Fin.ext
  match a with
  | ⟨0, _⟩ => show win1_13.index t 0 * 2048 + 1 * p.val = r.val; rw [hi.1, hr]; omega
  | ⟨1, _⟩ => show win1_13.index t 1 * 1 + 1 * 0 = 0; rw [hi.2]

/-- Block t of a whole output array, read at row p, is the array at row 2048 t + p. -/
theorem out_block_apply (G : S16384x1.Idx → EReal) (t : Fin cfg1.N) (p : Fin 2048) (r : Fin 16384)
    (hr : r.val = 2048 * t.val + p.val) :
    (((cfg1.win 13).blk t).view.read (Elt Ideal) G : S2048x1.Idx → EReal) (ix2 p (0 : Fin 1)) = G (ix2 r (0 : Fin 1)) := by
  rw [View.read_apply]
  exact congrArg G (out_row t p r hr)

/-- The body's result at point t, of the four row blocks and the whole weight and bias arrays. -/
def bodyValue (c : Dev nD) (t : Fin cfg1.N) : S2048x1.Idx → EReal :=
  k1_pay1 (F := Ideal)
    (k1_pay2 (F := Ideal) (iblk1 V c 0 t) (iblk1 V c 1 t) (iblk1 V c 2 t) (iblk1 V c 3 t) (V c (Pipeline.arrRef spec1 4))
      (V c (Pipeline.arrRef spec1 5)) (V c (Pipeline.arrRef spec1 6)) (V c (Pipeline.arrRef spec1 7)) (V c (Pipeline.arrRef spec1 8)))
    (V c (Pipeline.arrRef spec1 9)) (V c (Pipeline.arrRef spec1 10)) (V c (Pipeline.arrRef spec1 11)) (V c (Pipeline.arrRef spec1 12))

/-- What point t writes back is the body's result there. -/
theorem written_eq (c : Dev nD) (t : Fin cfg1.N) : (dat1 (F := Ideal) V c).flushed 13 t = bodyValue V c t := by
  show (cfg1.win 13).cut (grid1.coords t) ((dat1 (F := Ideal) V c).after 13 t) = _
  rw [after1_13]
  unfold out1_13
  rw [View.canon_unit_zero zero_offsets]
  simp only [View.ld_unit_zero (S := S2048x64) zero_offsets, View.ld_unit_zero (S := S64x64) zero_offsets,
    View.ld_unit_zero (S := S1x64) zero_offsets, View.ld_unit_zero (S := S64x32) zero_offsets,
    View.ld_unit_zero (S := S1x32) zero_offsets, View.ld_unit_zero (S := S32x1) zero_offsets,
    View.ld_unit_zero (S := S1x1) zero_offsets]
  rw [block4_eq V c t, block5_eq V c t, block6_eq V c t, block7_eq V c t, block8_eq V c t, block9_eq V c t,
    block10_eq V c t, block11_eq V c t, block12_eq V c t]
  rfl

/-- The body's result at point t and row p is the perceptron of the whole arrays at row 2048 t + p. -/
theorem bodyValue_apply (c : Dev nD) (t : Fin cfg1.N) (p : Fin 2048) (r : Fin 16384) (hr : r.val = 2048 * t.val + p.val) :
    bodyValue V c t (ix2 p (0 : Fin 1)) = wholeValue V c (ix2 r (0 : Fin 1)) := by
  unfold bodyValue
  refine (out_row_apply _ _ _ _ _ p).trans ?_
  unfold wholeValue Cert.Spec.mlp
  refine outRow_congr _ _ _ _ _ _ p r (fun k => ?_)
  refine (first_layer_apply _ _ _ _ _ _ _ _ _ p k).trans ?_
  exact hid1_congr _ _ _ _ _ _ _ _ _ _ _ _ _ p r k
    (fun k' => block0_apply V c t (ix2 p k') (ix2 r k') hr rfl)
    (fun k' => block1_apply V c t (ix2 p k') (ix2 r k') hr rfl)
    (fun k' => block2_apply V c t (ix2 p k') (ix2 r k') hr rfl)
    (fun k' => block3_apply V c t (ix2 p k') (ix2 r k') hr rfl)

/-- What point t writes back is block t of the perceptron of the whole arrays. -/
theorem flushed_eq (c : Dev nD) (t : Fin cfg1.N) :
    (dat1 (F := Ideal) V c).flushed 13 t = ((cfg1.win 13).blk t).view.read (Elt Ideal) (wholeValue V c) := by
  refine (written_eq V c t).trans ?_
  refine funext fun (y : S2048x1.Idx) => ?_
  obtain ⟨p, q, rfl⟩ : ∃ (p : Fin 2048) (q : Fin 1), y = ix2 p q := ⟨y 0, y 1, eq_ix2 y⟩
  obtain rfl : q = 0 := Subsingleton.elim _ _
  have hN : grid1.N = 8 := N_1
  have ht : t.val < grid1.N := t.isLt
  have hp : p.val < 2048 := p.isLt
  exact (bodyValue_apply V c t p ⟨2048 * t.val + p.val, by omega⟩ rfl).trans
    (out_block_apply (wholeValue V c) t p ⟨2048 * t.val + p.val, by omega⟩ rfl).symm

/-! ## The eight blocks cover the output -/

/-- An index of the output array is in point t's block iff each coordinate is in the block's range on its axis. -/
theorem mem_block (t : Fin cfg1.N) (i : S16384x1.Idx) :
    i ∈ ((cfg1.win 13).blk t).view.set
      ↔ ∀ a : Fin 2, win1_13.index t a * S2048x1.size a ≤ (i a).val ∧ (i a).val < win1_13.index t a * S2048x1.size a + S2048x1.size a := by
  show i ∈ ((View.whole main_v63).slice (win1_13.rect t)).set ↔ _
  rw [View.set_slice_whole, Rect.mem_set_unit]
  exact Iff.rfl

/-- Row r of the output is in the block of point r / 2048. -/
theorem covered (i : S16384x1.Idx) :
    ∃ t : Fin cfg1.N, (cfg1.win 13).flush t = true ∧ i ∈ ((cfg1.win 13).blk t).view.set := by
  have hi0 : (i 0).val < 16384 := (i 0).isLt
  have hi1 : (i 1).val < 1 := (i 1).isLt
  have hN : grid1.N = 8 := N_1
  obtain ⟨t, ht⟩ : ∃ t : Fin cfg1.N, t.val = (i 0).val / 2048 := ⟨⟨(i 0).val / 2048, by show _ < grid1.N; omega⟩, rfl⟩
  obtain ⟨h0, h1⟩ := (index_facts t).2.2.2.2.2.2.2.2.2.2.2.2.2
  refine ⟨t, flush1_13 t, ?_⟩
  rw [mem_block]
  intro a
  match a with
  | ⟨0, _⟩ =>
    show win1_13.index t 0 * 2048 ≤ (i 0).val ∧ (i 0).val < win1_13.index t 0 * 2048 + 2048
    rw [h0, ht]; omega
  | ⟨1, _⟩ =>
    show win1_13.index t 1 * 1 ≤ (i 1).val ∧ (i 1).val < win1_13.index t 1 * 1 + 1
    rw [h1]; omega

/-- The output array after the launch is the perceptron of the arrays as the launch finds them. -/
theorem final (c : Dev nD) : (dat1 (F := Ideal) V c).arrAt 13 cfg1.N = wholeValue V c :=
  (dat1 (F := Ideal) V c).arrAt_eq_of_cover 13 (wholeValue V c) (fun t _ => flushed_eq V c t) covered

end Blocks

/-- The second launch's value: its output array is the perceptron of its thirteen input arrays. -/
theorem value (V : (c : Dev nD) → (b : Ref sig .tc) → Buf (Elt Ideal) ((c : Thread nD τ).loc b)) (c : Dev nD) :
    (Gen.dat1 (F := Ideal) V c).arrAt 13 cfg1.N
      = Cert.Spec.mlp (V c (Pipeline.arrRef spec1 0)) (V c (Pipeline.arrRef spec1 1)) (V c (Pipeline.arrRef spec1 2)) (V c (Pipeline.arrRef spec1 3))
          (V c (Pipeline.arrRef spec1 4)) (V c (Pipeline.arrRef spec1 5)) (V c (Pipeline.arrRef spec1 6)) (V c (Pipeline.arrRef spec1 7))
          (fun j => V c (Pipeline.arrRef spec1 8) (ValueIdx.ix2 (0 : Fin 1) j))
          (V c (Pipeline.arrRef spec1 9))
          (fun j => V c (Pipeline.arrRef spec1 10) (ValueIdx.ix2 (0 : Fin 1) j))
          (V c (Pipeline.arrRef spec1 11))
          (V c (Pipeline.arrRef spec1 12) (ValueIdx.ix2 (0 : Fin 1) (0 : Fin 1))) :=
  final V c

end Cert.KernelIdeal.Region1

end
-- ==== Proof.RefTerm.lean ====
/-
  The reference program's result as ONE term of its seventeen argument arrays, built in named stages that follow
  the program's operations in order: node features (users' rows above items' rows); the edge aggregation
  (gather the source rows, scale by the edge value, scatter-add into the target rows) of the features and of their
  squares; the combine layer with its leaky rectifier; the features and the hidden rows side by side; the two batch
  gathers (user rows, item rows offset by the number of users), side by side; three dense layers; the column read as
  a vector. Negative indices wrap by the number of rows, as array indexing does.
-/
import proofs.«152742_j52785148068369_2_alg».proof.ReferenceIdeal

noncomputable section

namespace Cert.RefTerm

open Cert.ReferenceIdeal Cert.ReferenceIdeal.Facts₀ Cert.ReferenceIdeal.Facts Idealize.ShloMosaic

variable {F : FTy → Type} [FloatOps F] [Cert.ReferenceIdeal.Facts]

/-- The contents of a buffer of a shape and element type. -/
abbrev Arr (F : FTy → Type) [FloatOps F] (s : Shape) (e : EltTy) : Type := (⟨s, e⟩ : BufTy).Contents (Elt F)

/-- The seventeen argument arrays, in the programs' order. -/
structure Args (F : FTy → Type) [FloatOps F] where
  a0 : Arr F S50000x64 .f32
  a1 : Arr F S20000x64 .f32
  a2 : Arr F S2000000 .i32
  a3 : Arr F S2000000 .i32
  a4 : Arr F S2000000 .f32
  a5 : Arr F S64x64 .f32
  a6 : Arr F S64 .f32
  a7 : Arr F S64x64 .f32
  a8 : Arr F S64 .f32
  a9 : Arr F S256x64 .f32
  a10 : Arr F S64 .f32
  a11 : Arr F S64x32 .f32
  a12 : Arr F S32 .f32
  a13 : Arr F S32x1 .f32
  a14 : Arr F S1 .f32
  a15 : Arr F S16384 .i32
  a16 : Arr F S16384 .i32

variable (A : Args F)

/-- Node features: the users' rows, then the items' rows. -/
def feat : Arr F S70000x64 .f32 :=
  concatenate S70000x64 0 [⟨S50000x64, A.a0⟩, ⟨S20000x64, A.a1⟩] concatenates_S50000x64_S20000x64_S70000x64_d0

/-- The edges' source indices, negative ones wrapped by the number of nodes, as a column. -/
def colIdx : Arr F S2000000x1 .i32 :=
  broadcastInDim S2000000x1 ![0] bcast_S2000000_S2000000x1_0
    (select (cmpi .slt A.a3 (broadcastInDim S2000000 ![] bcast_S_S2000000 (constantI S_ 32 0#32)))
      (addi A.a3 (broadcastInDim S2000000 ![] bcast_S_S2000000 (constantI S_ 32 70000#32))) A.a3)

/-- The edges' values laid along the 64 columns. -/
def valCols : Arr F S2000000x64 .f32 :=
  broadcastInDim S2000000x64 ![0, 1] bcast_S2000000x1_S2000000x64_0_1
    (broadcastInDim S2000000x1 ![0] bcast_S2000000_S2000000x1_0 A.a4)

/-- The edges' target indices as a column. -/
def rowIdx : Arr F S2000000x1 .i32 := broadcastInDim S2000000x1 ![0] bcast_S2000000_S2000000x1_0 A.a2

/-- The zero array the aggregation starts from. -/
def zeros : Arr F S70000x64 .f32 := broadcastInDim S70000x64 ![] bcast_S_S70000x64 (constant S_ .f32 0x00000000#32)

/-- Scatter-add of per-edge messages into the target rows. -/
def scatterRows (msgs : Arr F S2000000x64 .f32) : Arr F S70000x64 .f32 :=
  Host.scatterAdd scatter_S70000x64_S2000000x1_S2000000x64_1_0_0_1 (zeros (F := F)) (rowIdx A) msgs

/-- The rows of `x` at the edges' sources. -/
def atSources (x : Arr F S70000x64 .f32) : Arr F S2000000x64 .f32 :=
  Host.gather gather_S70000x64_S2000000x1_S2000000x64_1_0_n_n_0_1_164 x (colIdx A)

/-- Aggregated features, and aggregated squared features (the square taken BEFORE the gather). -/
def lx : Arr F S70000x64 .f32 := scatterRows A (mulf (valCols A) (atSources A (feat A)))
def lx2 : Arr F S70000x64 .f32 := scatterRows A (mulf (valCols A) (atSources A (mulf (feat A) (feat A))))

/-- A bias vector laid as a row, the row laid along all 70000 rows. -/
def biasRows (b : Arr F S64 .f32) : Arr F S70000x64 .f32 :=
  broadcastInDim S70000x64 ![0, 1] bcast_S1x64_S70000x64_0_1 (broadcastInDim S1x64 ![1] bcast_S64_S1x64_1 b)

/-- The combine layer before its rectifier. -/
def pre : Arr F S70000x64 .f32 :=
  addf (addf (Host.dotGeneral dot_S70000x64_S64x64_S70000x64_1_0_0_1_n_n none (addf (lx A) (feat A)) A.a5) (biasRows A.a6))
       (addf (Host.dotGeneral dot_S70000x64_S64x64_S70000x64_1_0_0_1_n_n none (lx2 A) A.a7) (biasRows A.a8))

/-- The leaky rectifier on an array: `x` where `x ≥ 0`, the slope constant times `x` elsewhere. -/
def leakyArr (x : Arr F S70000x64 .f32) : Arr F S70000x64 .f32 :=
  select (cmpf .oge x (broadcastInDim S70000x64 ![] bcast_S_S70000x64 (constant S_ .f32 0x00000000#32))) x
    (mulf (broadcastInDim S70000x64 ![] bcast_S_S70000x64 (id (constant S_ .f32 0x3C23D70A#32))) x)

/-- The hidden rows. -/
def hidden : Arr F S70000x64 .f32 := leakyArr (pre A)

/-- Features and hidden rows side by side. -/
def final : Arr F S70000x128 .f32 :=
  concatenate S70000x128 1 [⟨S70000x64, feat A⟩, ⟨S70000x64, hidden A⟩] concatenates_S70000x64_S70000x64_S70000x128_d1

/-- A batch index vector with negative entries wrapped by the number of nodes, as a column. -/
def wrapCol (x : Arr F S16384 .i32) : Arr F S16384x1 .i32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 70000#32))) x)

/-- The user rows' indices, and the item rows' (offset by the number of users). -/
def userIdx : Arr F S16384x1 .i32 := wrapCol A.a15
def itemIdx : Arr F S16384x1 .i32 :=
  wrapCol (addi A.a16 (broadcastInDim S16384 ![] bcast_S_S16384 (constantI S_ 32 50000#32)))

/-- The gathered user row and item row, side by side: 256 columns. -/
def embed : Arr F S16384x256 .f32 :=
  concatenate S16384x256 1
    [⟨S16384x128, Host.gather gather_S70000x128_S16384x1_S16384x128_1_0_n_n_0_1_1128 (final A) (userIdx A)⟩,
     ⟨S16384x128, Host.gather gather_S70000x128_S16384x1_S16384x128_1_0_n_n_0_1_1128 (final A) (itemIdx A)⟩]
    concatenates_S16384x128_S16384x128_S16384x256_d1

/-- The three dense layers. -/
def layer1 : Arr F S16384x64 .f32 :=
  maximumf (addf (Host.dotGeneral dot_S16384x256_S256x64_S16384x64_1_0_0_1_n_n none (embed A) A.a9)
      (broadcastInDim S16384x64 ![0, 1] bcast_S1x64_S16384x64_0_1 (broadcastInDim S1x64 ![1] bcast_S64_S1x64_1 A.a10)))
    (broadcastInDim S16384x64 ![] bcast_S_S16384x64 (constant S_ .f32 0x00000000#32))
def layer2 : Arr F S16384x32 .f32 :=
  maximumf (addf (Host.dotGeneral dot_S16384x64_S64x32_S16384x32_1_0_0_1_n_n none (layer1 A) A.a11)
      (broadcastInDim S16384x32 ![0, 1] bcast_S1x32_S16384x32_0_1 (broadcastInDim S1x32 ![1] bcast_S32_S1x32_1 A.a12)))
    (broadcastInDim S16384x32 ![] bcast_S_S16384x32 (constant S_ .f32 0x00000000#32))
def layer3 : Arr F S16384x1 .f32 :=
  addf (Host.dotGeneral dot_S16384x32_S32x1_S16384x1_1_0_0_1_n_n none (layer2 A) A.a13)
    (broadcastInDim S16384x1 ![0, 1] bcast_S1x1_S16384x1_0_1 (broadcastInDim S1x1 ![1] bcast_S1_S1x1_1 A.a14))

/-- The result: the one column read as a vector. -/
def out : Arr F S16384 .f32 := shapeCast S16384 (layer3 A) shapeCasts_S16384x1_S16384

end Cert.RefTerm

end
-- ==== Proof.KerTerm.lean ====
/-
  The kernel program's result as ONE term of the seventeen argument arrays: the host operations before, between and
  after its two kernel launches as they are printed, and each launch replaced by the whole-array function it computes
  (the combine layer `Spec.gcn`, the perceptron `Spec.mlp`). Here the source rows are gathered once and squared AFTER
  the gather; the bias vectors are reshaped to one-row matrices; the features and the hidden rows are gathered apart;
  the first weight matrix is cut into its four 64-row pieces.
-/
import proofs.«152742_j52785148068369_2_alg».proof.KernelIdeal
import proofs.«152742_j52785148068369_2_alg».proof.Proof.RefTerm
import proofs.«152742_j52785148068369_2_alg».proof.Proof.Spec

noncomputable section

namespace Cert.KerTerm

open Cert.KernelIdeal Cert.KernelIdeal.Facts₀ Cert.KernelIdeal.Facts Idealize.ShloMosaic Idealize.ShloMosaic.ValueIdx

variable [Cert.KernelIdeal.Facts]

/-- The contents of a buffer of a shape and element type, at the extended reals. -/
abbrev Arr (s : Shape) (e : EltTy) : Type := (⟨s, e⟩ : BufTy).Contents (Elt Ideal)

variable (A : Cert.RefTerm.Args Ideal)

/-- Node features: the users' rows, then the items' rows. -/
def feat : Arr S70000x64 .f32 :=
  concatenate S70000x64 0 [⟨S50000x64, A.a0⟩, ⟨S20000x64, A.a1⟩] concatenates_S50000x64_S20000x64_S70000x64_d0

/-- The edges' source indices, negative ones wrapped by the number of nodes, as a column. -/
def colIdx : Arr S2000000x1 .i32 :=
  broadcastInDim S2000000x1 ![0] bcast_S2000000_S2000000x1_0
    (select (cmpi .slt A.a3 (broadcastInDim S2000000 ![] bcast_S_S2000000 (constantI S_ 32 0#32)))
      (addi A.a3 (broadcastInDim S2000000 ![] bcast_S_S2000000 (constantI S_ 32 70000#32))) A.a3)

/-- The feature rows at the edges' sources. -/
def xcol : Arr S2000000x64 .f32 :=
  Host.gather gather_S70000x64_S2000000x1_S2000000x64_1_0_n_n_0_1_164 (feat A) (colIdx A)

/-- The edges' values laid along the 64 columns. -/
def valCols : Arr S2000000x64 .f32 :=
  broadcastInDim S2000000x64 ![0, 1] bcast_S2000000x1_S2000000x64_0_1
    (broadcastInDim S2000000x1 ![0] bcast_S2000000_S2000000x1_0 A.a4)

/-- The edges' target indices as a column. -/
def rowIdx : Arr S2000000x1 .i32 := broadcastInDim S2000000x1 ![0] bcast_S2000000_S2000000x1_0 A.a2

/-- The zero array the aggregation starts from. -/
def zeros : Arr S70000x64 .f32 := broadcastInDim S70000x64 ![] bcast_S_S70000x64 (constant (F := Ideal) S_ .f32 0x00000000#32)

/-- Aggregated features, and aggregated squared features (the square taken AFTER the gather). -/
def lx : Arr S70000x64 .f32 :=
  Host.scatterAdd (F := Ideal) (φ := .f32) scatter_S70000x64_S2000000x1_S2000000x64_1_0_0_1 zeros (rowIdx A) (mulf (F := Ideal) (φ := .f32) (valCols A) (xcol A))
def lx2 : Arr S70000x64 .f32 :=
  Host.scatterAdd (F := Ideal) (φ := .f32) scatter_S70000x64_S2000000x1_S2000000x64_1_0_0_1 zeros (rowIdx A)
    (mulf (F := Ideal) (φ := .f32) (valCols A) (mulf (F := Ideal) (φ := .f32) (xcol A) (xcol A)))

/-- The two bias vectors of the combine layer as one-row matrices. -/
def bg1row : Arr S1x64 .f32 := shapeCast S1x64 A.a6 shapeCasts_S64_S1x64
def bg2row : Arr S1x64 .f32 := shapeCast S1x64 A.a8 shapeCasts_S64_S1x64

/-- The hidden rows: what the first launch leaves in its output array. -/
def hidden : Arr S70000x64 .bf16 :=
  Cert.Spec.gcn (feat A) (lx A) (lx2 A) A.a5 A.a7 (fun j => bg1row A (ix2 (0 : Fin 1) j)) (fun j => bg2row A (ix2 (0 : Fin 1) j))

/-- A batch index vector with negative entries wrapped by the number of nodes, as a column. -/
def wrapCol (x : Arr S16384 .i32) : Arr S16384x1 .i32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 70000#32))) x)

/-- The user rows' indices, and the item rows' (offset by the number of users). -/
def userIdx : Arr S16384x1 .i32 := wrapCol A.a15
def itemIdx : Arr S16384x1 .i32 :=
  wrapCol (addi A.a16 (broadcastInDim S16384 ![] bcast_S_S16384 (constantI S_ 32 50000#32)))

/-- The four gathered blocks: user features, user hidden rows, item features, item hidden rows. -/
def uf : Arr S16384x64 .f32 := Host.gather gather_S70000x64_S16384x1_S16384x64_1_0_n_n_0_1_164 (feat A) (userIdx A)
def uh : Arr S16384x64 .bf16 := Host.gather gather_S70000x64_S16384x1_S16384x64_1_0_n_n_0_1_164 (hidden A) (userIdx A)
def vf : Arr S16384x64 .f32 := Host.gather gather_S70000x64_S16384x1_S16384x64_1_0_n_n_0_1_164 (feat A) (itemIdx A)
def vh : Arr S16384x64 .bf16 := Host.gather gather_S70000x64_S16384x1_S16384x64_1_0_n_n_0_1_164 (hidden A) (itemIdx A)

/-- The four 64-row pieces of the first weight matrix. -/
def w1a : Arr S64x64 .f32 := extractStridedSlice S64x64 ![0, 0] A.a9 slices_S256x64_S64x64_0_0
def w1b : Arr S64x64 .f32 := extractStridedSlice S64x64 ![64, 0] A.a9 slices_S256x64_S64x64_64_0
def w1c : Arr S64x64 .f32 := extractStridedSlice S64x64 ![128, 0] A.a9 slices_S256x64_S64x64_128_0
def w1d : Arr S64x64 .f32 := extractStridedSlice S64x64 ![192, 0] A.a9 slices_S256x64_S64x64_192_0

/-- The perceptron's three bias vectors as one-row matrices. -/
def b1row : Arr S1x64 .f32 := shapeCast S1x64 A.a10 shapeCasts_S64_S1x64
def b2row : Arr S1x32 .f32 := shapeCast S1x32 A.a12 shapeCasts_S32_S1x32
def b3row : Arr S1x1 .f32 := shapeCast S1x1 A.a14 shapeCasts_S1_S1x1

/-- What the second launch leaves in its output array: the perceptron's one column. -/
def col : Arr S16384x1 .f32 :=
  Cert.Spec.mlp (uf A) (uh A) (vf A) (vh A) (w1a A) (w1b A) (w1c A) (w1d A) (fun j => b1row A (ix2 (0 : Fin 1) j))
    A.a11 (fun j => b2row A (ix2 (0 : Fin 1) j)) A.a13 (b3row A (ix2 (0 : Fin 1) (0 : Fin 1)))

/-- The result: the one column read as a vector. -/
def out : Arr S16384 .f32 := shapeCast S16384 (col A) shapeCasts_S16384x1_S16384

end Cert.KerTerm

end
-- ==== Proof.KernelFold.lean ====
/-
  The value of the kernel program's boundary fold at the result buffer.

  The buffer contents at the program's five boundaries form a fold from the launch memory: a stretch of host
  operations, the combine layer's launch, a second stretch, the perceptron's launch, one closing reshape. Here the
  fold is walked down at the result buffer, one boundary at a time, each earlier boundary kept as a whole while the
  later one is read: the reshape; the perceptron's output array; the arrays the perceptron reads (what the second
  stretch of host operations leaves); the combine layer's output and input arrays (what the first stretch leaves);
  and the argument arrays as launched. What each launch leaves in its output array, as a function of the arrays it
  reads, is a hypothesis. The walk arrives at the composed term of the seventeen argument arrays.
-/
import proofs.«152742_j52785148068369_2_alg».proof.Proof.Gen.KernelIdeal.Frame
import proofs.«152742_j52785148068369_2_alg».proof.Proof.KerTerm
import proofs.«152742_j52785148068369_2_alg».proof.Proof.Spec

set_option maxRecDepth 16384

noncomputable section

namespace Cert.KernelIdeal.HandRun

open Idealize.ShloMosaic Idealize.ShloMosaic.TcCoe Idealize.ShloMosaic.ValueIdx
open Idealize.SL Idealize.SL.Sem
open Cert.KernelIdeal Cert.KernelIdeal.Gen

/-- The seventeen argument arrays as core `c` holds them at launch. -/
def argsOf (m : (ℓ : Loc nD τ sig) → Buf (Elt Ideal) ℓ) (c : Dev nD) : Cert.RefTerm.Args Ideal :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16)⟩

/-- The contents of a buffer of a shape and element type, at the extended reals. -/
abbrev Arr (s : Shape) (e : EltTy) : Type := (⟨s, e⟩ : BufTy).Contents (Elt Ideal)

variable (m : (ℓ : Loc nD τ sig) → Buf (Elt Ideal) ℓ) (ρ : Dev nD → PrngReg) (c : Dev nD)

/-! ## The first stretch of host operations, from the launch memory

What the combine layer's launch finds in each of the arrays it reads, and the argument arrays the later stages read,
still as launched. -/

theorem V1_0 : (Gen.V1 m ρ c (Pipeline.arrRef spec0 0) : Arr S70000x64 .f32) = Cert.KerTerm.feat (argsOf m c) := by
  show (StableHlo.after hostOps0 (Gen.W0 m ρ c) (Proc.devRef .tc main_v0) : Arr S70000x64 .f32) = _
  dsimp only [Gen.hostOps0]; after_results_simp <;> rfl
theorem V1_1 : (Gen.V1 m ρ c (Pipeline.arrRef spec0 1) : Arr S70000x64 .f32) = Cert.KerTerm.lx (argsOf m c) := by
  show (StableHlo.after hostOps0 (Gen.W0 m ρ c) (Proc.devRef .tc main_v13) : Arr S70000x64 .f32) = _
  dsimp only [Gen.hostOps0]; after_results_simp <;> rfl
theorem V1_2 : (Gen.V1 m ρ c (Pipeline.arrRef spec0 2) : Arr S70000x64 .f32) = Cert.KerTerm.lx2 (argsOf m c) := by
  show (StableHlo.after hostOps0 (Gen.W0 m ρ c) (Proc.devRef .tc main_v20) : Arr S70000x64 .f32) = _
  dsimp only [Gen.hostOps0]; after_results_simp <;> rfl
theorem V1_3 : (Gen.V1 m ρ c (Pipeline.arrRef spec0 3) : Arr S64x64 .f32) = (argsOf m c).a5 := by
  show (StableHlo.after hostOps0 (Gen.W0 m ρ c) (Proc.devRef .tc main_arg5) : Arr S64x64 .f32) = _
  dsimp only [Gen.hostOps0]; after_results_simp <;> rfl
theorem V1_4 : (Gen.V1 m ρ c (Pipeline.arrRef spec0 4) : Arr S1x64 .f32) = Cert.KerTerm.bg1row (argsOf m c) := by
  show (StableHlo.after hostOps0 (Gen.W0 m ρ c) (Proc.devRef .tc main_v21) : Arr S1x64 .f32) = _
  dsimp only [Gen.hostOps0]; after_results_simp <;> rfl
theorem V1_5 : (Gen.V1 m ρ c (Pipeline.arrRef spec0 5) : Arr S64x64 .f32) = (argsOf m c).a7 := by
  show (StableHlo.after hostOps0 (Gen.W0 m ρ c) (Proc.devRef .tc main_arg7) : Arr S64x64 .f32) = _
  dsimp only [Gen.hostOps0]; after_results_simp <;> rfl
theorem V1_6 : (Gen.V1 m ρ c (Pipeline.arrRef spec0 6) : Arr S1x64 .f32) = Cert.KerTerm.bg2row (argsOf m c) := by
  show (StableHlo.after hostOps0 (Gen.W0 m ρ c) (Proc.devRef .tc main_v22) : Arr S1x64 .f32) = _
  dsimp only [Gen.hostOps0]; after_results_simp <;> rfl

theorem W1_arg9 : (Gen.W1 m ρ c (Proc.devRef .tc main_arg9) : Arr S256x64 .f32) = (argsOf m c).a9 := by
  show (StableHlo.after hostOps0 (Gen.W0 m ρ c) (Proc.devRef .tc main_arg9) : Arr S256x64 .f32) = _
  dsimp only [Gen.hostOps0]; after_results_simp <;> rfl
theorem W2_arg9 : (Gen.W2 m ρ c (Proc.devRef .tc main_arg9) : Arr S256x64 .f32) = (argsOf m c).a9 :=
  (Gen.W2_of_ne m ρ c main_arg9 (by decide)).trans (W1_arg9 m ρ c)
theorem W1_arg10 : (Gen.W1 m ρ c (Proc.devRef .tc main_arg10) : Arr S64 .f32) = (argsOf m c).a10 := by
  show (StableHlo.after hostOps0 (Gen.W0 m ρ c) (Proc.devRef .tc main_arg10) : Arr S64 .f32) = _
  dsimp only [Gen.hostOps0]; after_results_simp <;> rfl
theorem W2_arg10 : (Gen.W2 m ρ c (Proc.devRef .tc main_arg10) : Arr S64 .f32) = (argsOf m c).a10 :=
  (Gen.W2_of_ne m ρ c main_arg10 (by decide)).trans (W1_arg10 m ρ c)
theorem W1_arg11 : (Gen.W1 m ρ c (Proc.devRef .tc main_arg11) : Arr S64x32 .f32) = (argsOf m c).a11 := by
  show (StableHlo.after hostOps0 (Gen.W0 m ρ c) (Proc.devRef .tc main_arg11) : Arr S64x32 .f32) = _
  dsimp only [Gen.hostOps0]; after_results_simp <;> rfl
theorem W2_arg11 : (Gen.W2 m ρ c (Proc.devRef .tc main_arg11) : Arr S64x32 .f32) = (argsOf m c).a11 :=
  (Gen.W2_of_ne m ρ c main_arg11 (by decide)).trans (W1_arg11 m ρ c)
theorem W1_arg12 : (Gen.W1 m ρ c (Proc.devRef .tc main_arg12) : Arr S32 .f32) = (argsOf m c).a12 := by
  show (StableHlo.after hostOps0 (Gen.W0 m ρ c) (Proc.devRef .tc main_arg12) : Arr S32 .f32) = _
  dsimp only [Gen.hostOps0]; after_results_simp <;> rfl
theorem W2_arg12 : (Gen.W2 m ρ c (Proc.devRef .tc main_arg12) : Arr S32 .f32) = (argsOf m c).a12 :=
  (Gen.W2_of_ne m ρ c main_arg12 (by decide)).trans (W1_arg12 m ρ c)
theorem W1_arg13 : (Gen.W1 m ρ c (Proc.devRef .tc main_arg13) : Arr S32x1 .f32) = (argsOf m c).a13 := by
  show (StableHlo.after hostOps0 (Gen.W0 m ρ c) (Proc.devRef .tc main_arg13) : Arr S32x1 .f32) = _
  dsimp only [Gen.hostOps0]; after_results_simp <;> rfl
theorem W2_arg13 : (Gen.W2 m ρ c (Proc.devRef .tc main_arg13) : Arr S32x1 .f32) = (argsOf m c).a13 :=
  (Gen.W2_of_ne m ρ c main_arg13 (by decide)).trans (W1_arg13 m ρ c)
theorem W1_arg14 : (Gen.W1 m ρ c (Proc.devRef .tc main_arg14) : Arr S1 .f32) = (argsOf m c).a14 := by
  show (StableHlo.after hostOps0 (Gen.W0 m ρ c) (Proc.devRef .tc main_arg14) : Arr S1 .f32) = _
  dsimp only [Gen.hostOps0]; after_results_simp <;> rfl
theorem W2_arg14 : (Gen.W2 m ρ c (Proc.devRef .tc main_arg14) : Arr S1 .f32) = (argsOf m c).a14 :=
  (Gen.W2_of_ne m ρ c main_arg14 (by decide)).trans (W1_arg14 m ρ c)
theorem W1_arg15 : (Gen.W1 m ρ c (Proc.devRef .tc main_arg15) : Arr S16384 .i32) = (argsOf m c).a15 := by
  show (StableHlo.after hostOps0 (Gen.W0 m ρ c) (Proc.devRef .tc main_arg15) : Arr S16384 .i32) = _
  dsimp only [Gen.hostOps0]; after_results_simp <;> rfl
theorem W2_arg15 : (Gen.W2 m ρ c (Proc.devRef .tc main_arg15) : Arr S16384 .i32) = (argsOf m c).a15 :=
  (Gen.W2_of_ne m ρ c main_arg15 (by decide)).trans (W1_arg15 m ρ c)
theorem W1_arg16 : (Gen.W1 m ρ c (Proc.devRef .tc main_arg16) : Arr S16384 .i32) = (argsOf m c).a16 := by
  show (StableHlo.after hostOps0 (Gen.W0 m ρ c) (Proc.devRef .tc main_arg16) : Arr S16384 .i32) = _
  dsimp only [Gen.hostOps0]; after_results_simp <;> rfl
theorem W2_arg16 : (Gen.W2 m ρ c (Proc.devRef .tc main_arg16) : Arr S16384 .i32) = (argsOf m c).a16 :=
  (Gen.W2_of_ne m ρ c main_arg16 (by decide)).trans (W1_arg16 m ρ c)

/-! ## The two launches, over any contents at their entry

Each launch's output array as the composed stage, from what the arrays it reads hold. -/

/-- What the combine layer's launch leaves in its output array, as a function of the arrays it reads. -/
abbrev Launch0 : Prop :=
  ∀ (V : (c : Dev nD) → (b : Ref sig .tc) → Buf (Elt Ideal) ((c : Thread nD τ).loc b)) (c : Dev nD),
          (Gen.dat0 (F := Ideal) V c).arrAt 7 cfg0.N
            = Cert.Spec.gcn (V c (Pipeline.arrRef spec0 0)) (V c (Pipeline.arrRef spec0 1)) (V c (Pipeline.arrRef spec0 2))
                (V c (Pipeline.arrRef spec0 3)) (V c (Pipeline.arrRef spec0 5))
                (fun j => V c (Pipeline.arrRef spec0 4) (ValueIdx.ix2 (0 : Fin 1) j))
                (fun j => V c (Pipeline.arrRef spec0 6) (ValueIdx.ix2 (0 : Fin 1) j))

/-- What the perceptron's launch leaves in its output array, as a function of the arrays it reads. -/
abbrev Launch1 : Prop :=
  ∀ (V : (c : Dev nD) → (b : Ref sig .tc) → Buf (Elt Ideal) ((c : Thread nD τ).loc b)) (c : Dev nD),
          (Gen.dat1 (F := Ideal) V c).arrAt 13 cfg1.N
            = Cert.Spec.mlp (V c (Pipeline.arrRef spec1 0)) (V c (Pipeline.arrRef spec1 1)) (V c (Pipeline.arrRef spec1 2)) (V c (Pipeline.arrRef spec1 3))
                (V c (Pipeline.arrRef spec1 4)) (V c (Pipeline.arrRef spec1 5)) (V c (Pipeline.arrRef spec1 6)) (V c (Pipeline.arrRef spec1 7))
                (fun j => V c (Pipeline.arrRef spec1 8) (ValueIdx.ix2 (0 : Fin 1) j)) (V c (Pipeline.arrRef spec1 9))
                (fun j => V c (Pipeline.arrRef spec1 10) (ValueIdx.ix2 (0 : Fin 1) j)) (V c (Pipeline.arrRef spec1 11))
                (V c (Pipeline.arrRef spec1 12) (ValueIdx.ix2 (0 : Fin 1) (0 : Fin 1)))

set_option maxHeartbeats 2000000 in
theorem launch0_hidden (h0 : Launch0) (V : (c : Dev nD) → (b : Ref sig .tc) → Buf (Elt Ideal) ((c : Thread nD τ).loc b)) (c : Dev nD) (A : Cert.RefTerm.Args Ideal)
    (e0 : (V c (Pipeline.arrRef spec0 0) : Arr S70000x64 .f32) = Cert.KerTerm.feat A)
    (e1 : (V c (Pipeline.arrRef spec0 1) : Arr S70000x64 .f32) = Cert.KerTerm.lx A)
    (e2 : (V c (Pipeline.arrRef spec0 2) : Arr S70000x64 .f32) = Cert.KerTerm.lx2 A)
    (e3 : (V c (Pipeline.arrRef spec0 3) : Arr S64x64 .f32) = A.a5)
    (e4 : (V c (Pipeline.arrRef spec0 4) : Arr S1x64 .f32) = Cert.KerTerm.bg1row A)
    (e5 : (V c (Pipeline.arrRef spec0 5) : Arr S64x64 .f32) = A.a7)
    (e6 : (V c (Pipeline.arrRef spec0 6) : Arr S1x64 .f32) = Cert.KerTerm.bg2row A) :
    ((Gen.dat0 (F := Ideal) V c).arrAt 7 cfg0.N : Arr S70000x64 .bf16) = Cert.KerTerm.hidden A := by
  rw [h0 V c, e0, e1, e2, e3, e4, e5, e6]; rfl

set_option maxHeartbeats 4000000 in
theorem launch1_col (h1 : Launch1) (V : (c : Dev nD) → (b : Ref sig .tc) → Buf (Elt Ideal) ((c : Thread nD τ).loc b)) (c : Dev nD) (A : Cert.RefTerm.Args Ideal)
    (e0 : (V c (Pipeline.arrRef spec1 0) : Arr S16384x64 .f32) = Cert.KerTerm.uf A)
    (e1 : (V c (Pipeline.arrRef spec1 1) : Arr S16384x64 .bf16) = Cert.KerTerm.uh A)
    (e2 : (V c (Pipeline.arrRef spec1 2) : Arr S16384x64 .f32) = Cert.KerTerm.vf A)
    (e3 : (V c (Pipeline.arrRef spec1 3) : Arr S16384x64 .bf16) = Cert.KerTerm.vh A)
    (e4 : (V c (Pipeline.arrRef spec1 4) : Arr S64x64 .f32) = Cert.KerTerm.w1a A)
    (e5 : (V c (Pipeline.arrRef spec1 5) : Arr S64x64 .f32) = Cert.KerTerm.w1b A)
    (e6 : (V c (Pipeline.arrRef spec1 6) : Arr S64x64 .f32) = Cert.KerTerm.w1c A)
    (e7 : (V c (Pipeline.arrRef spec1 7) : Arr S64x64 .f32) = Cert.KerTerm.w1d A)
    (e8 : (V c (Pipeline.arrRef spec1 8) : Arr S1x64 .f32) = Cert.KerTerm.b1row A)
    (e9 : (V c (Pipeline.arrRef spec1 9) : Arr S64x32 .f32) = A.a11)
    (e10 : (V c (Pipeline.arrRef spec1 10) : Arr S1x32 .f32) = Cert.KerTerm.b2row A)
    (e11 : (V c (Pipeline.arrRef spec1 11) : Arr S32x1 .f32) = A.a13)
    (e12 : (V c (Pipeline.arrRef spec1 12) : Arr S1x1 .f32) = Cert.KerTerm.b3row A) :
    ((Gen.dat1 (F := Ideal) V c).arrAt 13 cfg1.N : Arr S16384x1 .f32) = Cert.KerTerm.col A := by
  rw [h1 V c, e0, e1, e2, e3, e4, e5, e6, e7, e8, e9, e10, e11, e12]; rfl

/-! ## The combine layer's launch

Its first input array is unchanged by it; its output array is the hidden rows. -/

theorem W2_v0 : (Gen.W2 m ρ c (Proc.devRef .tc main_v0) : Arr S70000x64 .f32) = Cert.KerTerm.feat (argsOf m c) :=
  (Gen.W2_arr m ρ c 0).trans (((Gen.dat0 (Gen.V1 m ρ) c).arrAt_in 0 rfl cfg0.N).trans
    ((Gen.A_eq0 (Gen.V1 m ρ) c 0).trans (V1_0 m ρ c)))

theorem W2_v23 (h0 : Launch0) : (Gen.W2 m ρ c (Proc.devRef .tc main_v23) : Arr S70000x64 .bf16) = Cert.KerTerm.hidden (argsOf m c) :=
  (Gen.W2_arr m ρ c 7).trans (launch0_hidden h0 (Gen.V1 m ρ) c (argsOf m c)
    (V1_0 m ρ c) (V1_1 m ρ c) (V1_2 m ρ c) (V1_3 m ρ c) (V1_4 m ρ c) (V1_5 m ρ c) (V1_6 m ρ c))

/-! ## The second stretch of host operations, over any contents at its start

Each array the perceptron's launch reads, from what the stretch's own operands hold. -/

section Stretch1

variable (W : Valuation τ sig (Elt Ideal)) (A : Cert.RefTerm.Args Ideal)

theorem ops1_uf (e0 : (W (Proc.devRef .tc main_v0) : Arr S70000x64 .f32) = Cert.KerTerm.feat A)
    (e15 : (W (Proc.devRef .tc main_arg15) : Arr S16384 .i32) = A.a15) :
    (StableHlo.after hostOps1 W (Proc.devRef .tc main_v30) : Arr S16384x64 .f32) = Cert.KerTerm.uf A := by
  dsimp only [Gen.hostOps1]; after_results_simp; rw [e0, e15]; rfl
theorem ops1_uh (e23 : (W (Proc.devRef .tc main_v23) : Arr S70000x64 .bf16) = Cert.KerTerm.hidden A)
    (e15 : (W (Proc.devRef .tc main_arg15) : Arr S16384 .i32) = A.a15) :
    (StableHlo.after hostOps1 W (Proc.devRef .tc main_v37) : Arr S16384x64 .bf16) = Cert.KerTerm.uh A := by
  dsimp only [Gen.hostOps1]; after_results_simp; rw [e23, e15]; rfl
theorem ops1_vf (e0 : (W (Proc.devRef .tc main_v0) : Arr S70000x64 .f32) = Cert.KerTerm.feat A)
    (e16 : (W (Proc.devRef .tc main_arg16) : Arr S16384 .i32) = A.a16) :
    (StableHlo.after hostOps1 W (Proc.devRef .tc main_v46) : Arr S16384x64 .f32) = Cert.KerTerm.vf A := by
  dsimp only [Gen.hostOps1]; after_results_simp; rw [e0, e16]; rfl
theorem ops1_vh (e23 : (W (Proc.devRef .tc main_v23) : Arr S70000x64 .bf16) = Cert.KerTerm.hidden A)
    (e16 : (W (Proc.devRef .tc main_arg16) : Arr S16384 .i32) = A.a16) :
    (StableHlo.after hostOps1 W (Proc.devRef .tc main_v55) : Arr S16384x64 .bf16) = Cert.KerTerm.vh A := by
  dsimp only [Gen.hostOps1]; after_results_simp; rw [e23, e16]; rfl
theorem ops1_w1a (e9 : (W (Proc.devRef .tc main_arg9) : Arr S256x64 .f32) = A.a9) :
    (StableHlo.after hostOps1 W (Proc.devRef .tc main_v56) : Arr S64x64 .f32) = Cert.KerTerm.w1a A := by
  dsimp only [Gen.hostOps1]; after_results_simp; rw [e9]; rfl
theorem ops1_w1b (e9 : (W (Proc.devRef .tc main_arg9) : Arr S256x64 .f32) = A.a9) :
    (StableHlo.after hostOps1 W (Proc.devRef .tc main_v57) : Arr S64x64 .f32) = Cert.KerTerm.w1b A := by
  dsimp only [Gen.hostOps1]; after_results_simp; rw [e9]; rfl
theorem ops1_w1c (e9 : (W (Proc.devRef .tc main_arg9) : Arr S256x64 .f32) = A.a9) :
    (StableHlo.after hostOps1 W (Proc.devRef .tc main_v58) : Arr S64x64 .f32) = Cert.KerTerm.w1c A := by
  dsimp only [Gen.hostOps1]; after_results_simp; rw [e9]; rfl
theorem ops1_w1d (e9 : (W (Proc.devRef .tc main_arg9) : Arr S256x64 .f32) = A.a9) :
    (StableHlo.after hostOps1 W (Proc.devRef .tc main_v59) : Arr S64x64 .f32) = Cert.KerTerm.w1d A := by
  dsimp only [Gen.hostOps1]; after_results_simp; rw [e9]; rfl
theorem ops1_b1row (e10 : (W (Proc.devRef .tc main_arg10) : Arr S64 .f32) = A.a10) :
    (StableHlo.after hostOps1 W (Proc.devRef .tc main_v60) : Arr S1x64 .f32) = Cert.KerTerm.b1row A := by
  dsimp only [Gen.hostOps1]; after_results_simp; rw [e10]; rfl
theorem ops1_b2row (e12 : (W (Proc.devRef .tc main_arg12) : Arr S32 .f32) = A.a12) :
    (StableHlo.after hostOps1 W (Proc.devRef .tc main_v61) : Arr S1x32 .f32) = Cert.KerTerm.b2row A := by
  dsimp only [Gen.hostOps1]; after_results_simp; rw [e12]; rfl
theorem ops1_b3row (e14 : (W (Proc.devRef .tc main_arg14) : Arr S1 .f32) = A.a14) :
    (StableHlo.after hostOps1 W (Proc.devRef .tc main_v62) : Arr S1x1 .f32) = Cert.KerTerm.b3row A := by
  dsimp only [Gen.hostOps1]; after_results_simp; rw [e14]; rfl
theorem ops1_arg11 : StableHlo.after hostOps1 W (Proc.devRef .tc main_arg11) = W (Proc.devRef .tc main_arg11) := by
  dsimp only [Gen.hostOps1]; after_results_simp
theorem ops1_arg13 : StableHlo.after hostOps1 W (Proc.devRef .tc main_arg13) = W (Proc.devRef .tc main_arg13) := by
  dsimp only [Gen.hostOps1]; after_results_simp

end Stretch1

/-! ## What the perceptron's launch finds in each of the arrays it reads -/

theorem V3_0 : (Gen.V3 m ρ c (Pipeline.arrRef spec1 0) : Arr S16384x64 .f32) = Cert.KerTerm.uf (argsOf m c) :=
  ops1_uf (Gen.W2 m ρ c) (argsOf m c) (W2_v0 m ρ c) (W2_arg15 m ρ c)
theorem V3_1 (h0 : Launch0) : (Gen.V3 m ρ c (Pipeline.arrRef spec1 1) : Arr S16384x64 .bf16) = Cert.KerTerm.uh (argsOf m c) :=
  ops1_uh (Gen.W2 m ρ c) (argsOf m c) (W2_v23 m ρ c h0) (W2_arg15 m ρ c)
theorem V3_2 : (Gen.V3 m ρ c (Pipeline.arrRef spec1 2) : Arr S16384x64 .f32) = Cert.KerTerm.vf (argsOf m c) :=
  ops1_vf (Gen.W2 m ρ c) (argsOf m c) (W2_v0 m ρ c) (W2_arg16 m ρ c)
theorem V3_3 (h0 : Launch0) : (Gen.V3 m ρ c (Pipeline.arrRef spec1 3) : Arr S16384x64 .bf16) = Cert.KerTerm.vh (argsOf m c) :=
  ops1_vh (Gen.W2 m ρ c) (argsOf m c) (W2_v23 m ρ c h0) (W2_arg16 m ρ c)
theorem V3_4 : (Gen.V3 m ρ c (Pipeline.arrRef spec1 4) : Arr S64x64 .f32) = Cert.KerTerm.w1a (argsOf m c) :=
  ops1_w1a (Gen.W2 m ρ c) (argsOf m c) (W2_arg9 m ρ c)
theorem V3_5 : (Gen.V3 m ρ c (Pipeline.arrRef spec1 5) : Arr S64x64 .f32) = Cert.KerTerm.w1b (argsOf m c) :=
  ops1_w1b (Gen.W2 m ρ c) (argsOf m c) (W2_arg9 m ρ c)
theorem V3_6 : (Gen.V3 m ρ c (Pipeline.arrRef spec1 6) : Arr S64x64 .f32) = Cert.KerTerm.w1c (argsOf m c) :=
  ops1_w1c (Gen.W2 m ρ c) (argsOf m c) (W2_arg9 m ρ c)
theorem V3_7 : (Gen.V3 m ρ c (Pipeline.arrRef spec1 7) : Arr S64x64 .f32) = Cert.KerTerm.w1d (argsOf m c) :=
  ops1_w1d (Gen.W2 m ρ c) (argsOf m c) (W2_arg9 m ρ c)
theorem V3_8 : (Gen.V3 m ρ c (Pipeline.arrRef spec1 8) : Arr S1x64 .f32) = Cert.KerTerm.b1row (argsOf m c) :=
  ops1_b1row (Gen.W2 m ρ c) (argsOf m c) (W2_arg10 m ρ c)
theorem V3_10 : (Gen.V3 m ρ c (Pipeline.arrRef spec1 10) : Arr S1x32 .f32) = Cert.KerTerm.b2row (argsOf m c) :=
  ops1_b2row (Gen.W2 m ρ c) (argsOf m c) (W2_arg12 m ρ c)
theorem V3_12 : (Gen.V3 m ρ c (Pipeline.arrRef spec1 12) : Arr S1x1 .f32) = Cert.KerTerm.b3row (argsOf m c) :=
  ops1_b3row (Gen.W2 m ρ c) (argsOf m c) (W2_arg14 m ρ c)
theorem V3_9 : (Gen.V3 m ρ c (Pipeline.arrRef spec1 9) : Arr S64x32 .f32) = (argsOf m c).a11 :=
  (ops1_arg11 (Gen.W2 m ρ c)).trans (W2_arg11 m ρ c)
theorem V3_11 : (Gen.V3 m ρ c (Pipeline.arrRef spec1 11) : Arr S32x1 .f32) = (argsOf m c).a13 :=
  (ops1_arg13 (Gen.W2 m ρ c)).trans (W2_arg13 m ρ c)

/-! ## The perceptron's launch, the closing reshape, and the result -/

theorem W4_v63 (h0 : Launch0) (h1 : Launch1) :
    (Gen.W4 m ρ c (Proc.devRef .tc main_v63) : Arr S16384x1 .f32) = Cert.KerTerm.col (argsOf m c) :=
  (Gen.W4_arr m ρ c 13).trans (launch1_col h1 (Gen.V3 m ρ) c (argsOf m c)
    (V3_0 m ρ c) (V3_1 m ρ c h0) (V3_2 m ρ c) (V3_3 m ρ c h0) (V3_4 m ρ c) (V3_5 m ρ c) (V3_6 m ρ c) (V3_7 m ρ c) (V3_8 m ρ c)
    (V3_9 m ρ c) (V3_10 m ρ c) (V3_11 m ρ c) (V3_12 m ρ c))

theorem ops2_out (W : Valuation τ sig (Elt Ideal)) (A : Cert.RefTerm.Args Ideal)
    (e63 : (W (Proc.devRef .tc main_v63) : Arr S16384x1 .f32) = Cert.KerTerm.col A) :
    (StableHlo.after hostOps2 W (Proc.devRef .tc main_v64) : Arr S16384 .f32) = Cert.KerTerm.out A := by
  dsimp only [Gen.hostOps2]; after_results_simp; rw [e63]; rfl

/-- The fold's last stage at the result buffer is the composed term of the seventeen argument arrays, given what
    each launch leaves in its output array. -/
theorem W5_value
      (h0 : ∀ (V : (c : Dev nD) → (b : Ref sig .tc) → Buf (Elt Ideal) ((c : Thread nD τ).loc b)) (c : Dev nD),
          (Gen.dat0 (F := Ideal) V c).arrAt 7 cfg0.N
            = Cert.Spec.gcn (V c (Pipeline.arrRef spec0 0)) (V c (Pipeline.arrRef spec0 1)) (V c (Pipeline.arrRef spec0 2))
                (V c (Pipeline.arrRef spec0 3)) (V c (Pipeline.arrRef spec0 5))
                (fun j => V c (Pipeline.arrRef spec0 4) (ValueIdx.ix2 (0 : Fin 1) j))
                (fun j => V c (Pipeline.arrRef spec0 6) (ValueIdx.ix2 (0 : Fin 1) j)))
      (h1 : ∀ (V : (c : Dev nD) → (b : Ref sig .tc) → Buf (Elt Ideal) ((c : Thread nD τ).loc b)) (c : Dev nD),
          (Gen.dat1 (F := Ideal) V c).arrAt 13 cfg1.N
            = Cert.Spec.mlp (V c (Pipeline.arrRef spec1 0)) (V c (Pipeline.arrRef spec1 1)) (V c (Pipeline.arrRef spec1 2)) (V c (Pipeline.arrRef spec1 3))
                (V c (Pipeline.arrRef spec1 4)) (V c (Pipeline.arrRef spec1 5)) (V c (Pipeline.arrRef spec1 6)) (V c (Pipeline.arrRef spec1 7))
                (fun j => V c (Pipeline.arrRef spec1 8) (ValueIdx.ix2 (0 : Fin 1) j)) (V c (Pipeline.arrRef spec1 9))
                (fun j => V c (Pipeline.arrRef spec1 10) (ValueIdx.ix2 (0 : Fin 1) j)) (V c (Pipeline.arrRef spec1 11))
                (V c (Pipeline.arrRef spec1 12) (ValueIdx.ix2 (0 : Fin 1) (0 : Fin 1))))
      (m : (ℓ : Loc nD τ sig) → Buf (Elt Ideal) ℓ) (ρ : Dev nD → PrngReg) (c : Dev nD) :
      Gen.W5 m ρ c (Proc.devRef .tc main_v64) = Cert.KerTerm.out (argsOf m c) :=
  ops2_out (Gen.W4 m ρ c) (argsOf m c) (W4_v63 m ρ c h0 h1)

end Cert.KernelIdeal.HandRun

end
-- ==== Proof.KernelRun.lean ====
/-
  The kernel program's run with its result named, and then with its result's value.

  The program is a stretch of host operations, the combine layer's launch, a second stretch of host operations, the
  perceptron's launch, and one closing reshape. The buffer contents at the five boundaries form a fold from the launch
  memory. First the run is stated with the result buffer's final contents named as the last stage of that fold, beside
  the seventeen argument buffers ending as launched. Then the value of that last stage at the result buffer — the
  composed term of the seventeen argument arrays, given what each launch leaves in its output array as a function of
  the arrays it reads — is put in its place.
-/
import proofs.«152742_j52785148068369_2_alg».proof.Proof.Gen.KernelIdeal.Frame
import proofs.«152742_j52785148068369_2_alg».proof.Proof.KernelFold
import proofs.«152742_j52785148068369_2_alg».proof.Proof.KerTerm
import proofs.«152742_j52785148068369_2_alg».proof.Proof.Spec

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-! # Part 1: the run, with the result buffer's final contents named -/

set_option backward.isDefEq.respectTransparency.types false in
/-- From any memory with zero counters, every weakly fair execution of the program on the TensorCores terminates,
    nothing faulting, and in every final state the result buffer holds the last stage of the boundary fold at it, and
    each of the seventeen argument buffers holds what it held at launch. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v64) = Gen.W5 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v64 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c)⟩)

/-! # The run, with the result's value

The named result of Part 1 is the composed term of the seventeen argument arrays, by the walk of the boundary fold,
given what each launch leaves in its output array. -/

/-- From any memory with zero counters, every weakly fair execution of the program on the TensorCores terminates,
    nothing faulting, and in every final state the result buffer holds the composed term of the argument arrays as
    launched, and each of the seventeen argument buffers holds what it held at launch. -/
theorem run
      (h0 : ∀ (V : (c : Dev nD) → (b : Ref sig .tc) → Buf (Elt Ideal) ((c : Thread nD τ).loc b)) (c : Dev nD),
          (Gen.dat0 (F := Ideal) V c).arrAt 7 cfg0.N
            = Cert.Spec.gcn (V c (Pipeline.arrRef spec0 0)) (V c (Pipeline.arrRef spec0 1)) (V c (Pipeline.arrRef spec0 2))
                (V c (Pipeline.arrRef spec0 3)) (V c (Pipeline.arrRef spec0 5))
                (fun j => V c (Pipeline.arrRef spec0 4) (ValueIdx.ix2 (0 : Fin 1) j))
                (fun j => V c (Pipeline.arrRef spec0 6) (ValueIdx.ix2 (0 : Fin 1) j)))
      (h1 : ∀ (V : (c : Dev nD) → (b : Ref sig .tc) → Buf (Elt Ideal) ((c : Thread nD τ).loc b)) (c : Dev nD),
          (Gen.dat1 (F := Ideal) V c).arrAt 13 cfg1.N
            = Cert.Spec.mlp (V c (Pipeline.arrRef spec1 0)) (V c (Pipeline.arrRef spec1 1)) (V c (Pipeline.arrRef spec1 2)) (V c (Pipeline.arrRef spec1 3))
                (V c (Pipeline.arrRef spec1 4)) (V c (Pipeline.arrRef spec1 5)) (V c (Pipeline.arrRef spec1 6)) (V c (Pipeline.arrRef spec1 7))
                (fun j => V c (Pipeline.arrRef spec1 8) (ValueIdx.ix2 (0 : Fin 1) j)) (V c (Pipeline.arrRef spec1 9))
                (fun j => V c (Pipeline.arrRef spec1 10) (ValueIdx.ix2 (0 : Fin 1) j)) (V c (Pipeline.arrRef spec1 11))
                (V c (Pipeline.arrRef spec1 12) (ValueIdx.ix2 (0 : Fin 1) (0 : Fin 1))))
      (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v64) = Cert.KerTerm.out (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (W5_value h0 h1 m ρ c), (h c).2⟩) (run_named m ρ)

end Cert.KernelIdeal.HandRun

end
-- ==== Proof.RefRun.lean ====
/-
  The reference program's run.

  The program is a straight line: every statement of its two windows is one host operation, and each of its three
  calls (the leaky rectifier, which itself calls the three-way choice, and the two rectifiers) is the callee's body
  with the call's operands and the call's own buffers put for its parameters.  So the program is ONE list of 94
  operations, each writing a buffer of its own.

  A straight line run from any memory with zero counters terminates, and leaves in every buffer the fold of the
  operations' results over the launch contents.  Read at the result buffer, the fold is the operations' functions
  composed in the program's order: the composed term of the seventeen argument arrays, stage by stage.  Read at an
  argument buffer, which no operation writes, it is what the buffer held at launch.
-/
import proofs.«152742_j52785148068369_2_alg».proof.Proof.Gen.ReferenceIdeal
import proofs.«152742_j52785148068369_2_alg».proof.Proof.RefTerm
import Idealize.ShloMosaic.Lib.StableHlo.Run

noncomputable section

namespace Cert.ReferenceIdeal.HandRun

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F]

/-- The program's 94 operations, in order: the statements of its two windows, each call replaced by its callee's
    operations over the call's operands and the call's own buffers. -/
abbrev ops : List (HloOp τ sig (Elt F)) :=
  [ StableHlo.binary main_arg0 main_arg1 main_v0 ((fun a b => concatenate S70000x64 0 [⟨S50000x64, a⟩, ⟨S20000x64, b⟩] concatenates_S50000x64_S20000x64_S70000x64_d0) : (⟨S50000x64, .f32⟩ : BufTy).Contents (Elt F) → (⟨S20000x64, .f32⟩ : BufTy).Contents (Elt F) → (⟨S70000x64, .f32⟩ : BufTy).Contents (Elt F)),
    StableHlo.unary main_arg4 main_v1 (broadcastInDim S2000000x1 ![0] bcast_S2000000_S2000000x1_0 : (⟨S2000000, .f32⟩ : BufTy).Contents (Elt F) → (⟨S2000000x1, .f32⟩ : BufTy).Contents (Elt F)),
    StableHlo.nullary main_c (constantI S_ 32 0#32),
    StableHlo.unary main_c main_v2 (broadcastInDim S2000000 ![] bcast_S_S2000000 : (⟨S_, .i32⟩ : BufTy).Contents (Elt F) → (⟨S2000000, .i32⟩ : BufTy).Contents (Elt F)),
    StableHlo.binary main_arg3 main_v2 main_v3 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 70000#32),
    StableHlo.unary main_c_0 main_v4 (broadcastInDim S2000000 ![] bcast_S_S2000000 : (⟨S_, .i32⟩ : BufTy).Contents (Elt F) → (⟨S2000000, .i32⟩ : BufTy).Contents (Elt F)),
    StableHlo.binary main_arg3 main_v4 main_v5 (addi : (⟨S2000000, .i32⟩ : BufTy).Contents (Elt F) → (⟨S2000000, .i32⟩ : BufTy).Contents (Elt F) → (⟨S2000000, .i32⟩ : BufTy).Contents (Elt F)),
    StableHlo.ternary main_v3 main_v5 main_arg3 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v6 main_v7 (broadcastInDim S2000000x1 ![0] bcast_S2000000_S2000000x1_0 : (⟨S2000000, .i32⟩ : BufTy).Contents (Elt F) → (⟨S2000000x1, .i32⟩ : BufTy).Contents (Elt F)),
    StableHlo.binary main_v0 main_v7 main_v8 ((fun x i => Host.gather gather_S70000x64_S2000000x1_S2000000x64_1_0_n_n_0_1_164 x i) : (⟨S70000x64, .f32⟩ : BufTy).Contents (Elt F) → (⟨S2000000x1, .i32⟩ : BufTy).Contents (Elt F) → (⟨S2000000x64, .f32⟩ : BufTy).Contents (Elt F)),
    StableHlo.unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v11 (broadcastInDim S70000x64 ![] bcast_S_S70000x64 : (⟨S_, .f32⟩ : BufTy).Contents (Elt F) → (⟨S70000x64, .f32⟩ : BufTy).Contents (Elt F)),
    StableHlo.unary main_arg2 main_v12 (broadcastInDim S2000000x1 ![0] bcast_S2000000_S2000000x1_0 : (⟨S2000000, .i32⟩ : BufTy).Contents (Elt F) → (⟨S2000000x1, .i32⟩ : BufTy).Contents (Elt F)),
    StableHlo.ternary main_v11 main_v12 main_v10 main_v13 ((fun x i u => Host.scatterAdd scatter_S70000x64_S2000000x1_S2000000x64_1_0_0_1 x i u) : (⟨S70000x64, .f32⟩ : BufTy).Contents (Elt F) → (⟨S2000000x1, .i32⟩ : BufTy).Contents (Elt F) → (⟨S2000000x64, .f32⟩ : BufTy).Contents (Elt F) → (⟨S70000x64, .f32⟩ : BufTy).Contents (Elt F)),
    StableHlo.binary main_v0 main_v0 main_v14 (mulf : (⟨S70000x64, .f32⟩ : BufTy).Contents (Elt F) → (⟨S70000x64, .f32⟩ : BufTy).Contents (Elt F) → (⟨S70000x64, .f32⟩ : BufTy).Contents (Elt F)),
    StableHlo.unary main_arg4 main_v15 (broadcastInDim S2000000x1 ![0] bcast_S2000000_S2000000x1_0 : (⟨S2000000, .f32⟩ : BufTy).Contents (Elt F) → (⟨S2000000x1, .f32⟩ : BufTy).Contents (Elt F)),
    StableHlo.nullary main_c_1 (constantI S_ 32 0#32),
    StableHlo.unary main_c_1 main_v16 (broadcastInDim S2000000 ![] bcast_S_S2000000 : (⟨S_, .i32⟩ : BufTy).Contents (Elt F) → (⟨S2000000, .i32⟩ : BufTy).Contents (Elt F)),
    StableHlo.binary main_arg3 main_v16 main_v17 (cmpi .slt : (⟨S2000000, .i32⟩ : BufTy).Contents (Elt F) → (⟨S2000000, .i32⟩ : BufTy).Contents (Elt F) → (⟨S2000000, .i1⟩ : BufTy).Contents (Elt F)),
    StableHlo.nullary main_c_2 (constantI S_ 32 70000#32),
    StableHlo.unary main_c_2 main_v18 (broadcastInDim S2000000 ![] bcast_S_S2000000 : (⟨S_, .i32⟩ : BufTy).Contents (Elt F) → (⟨S2000000, .i32⟩ : BufTy).Contents (Elt F)),
    StableHlo.binary main_arg3 main_v18 main_v19 (addi : (⟨S2000000, .i32⟩ : BufTy).Contents (Elt F) → (⟨S2000000, .i32⟩ : BufTy).Contents (Elt F) → (⟨S2000000, .i32⟩ : BufTy).Contents (Elt F)),
    StableHlo.ternary main_v17 main_v19 main_arg3 main_v20 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v20 main_v21 (broadcastInDim S2000000x1 ![0] bcast_S2000000_S2000000x1_0 : (⟨S2000000, .i32⟩ : BufTy).Contents (Elt F) → (⟨S2000000x1, .i32⟩ : BufTy).Contents (Elt F)),
    StableHlo.binary main_v14 main_v21 main_v22 ((fun x i => Host.gather gather_S70000x64_S2000000x1_S2000000x64_1_0_n_n_0_1_164 x i) : (⟨S70000x64, .f32⟩ : BufTy).Contents (Elt F) → (⟨S2000000x1, .i32⟩ : BufTy).Contents (Elt F) → (⟨S2000000x64, .f32⟩ : BufTy).Contents (Elt F)),
    StableHlo.unary main_v15 main_v23 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v23 main_v22 main_v24 (mulf : (⟨S2000000x64, .f32⟩ : BufTy).Contents (Elt F) → (⟨S2000000x64, .f32⟩ : BufTy).Contents (Elt F) → (⟨S2000000x64, .f32⟩ : BufTy).Contents (Elt F)),
    StableHlo.nullary main_cst_3 (constant S_ .f32 0x00000000#32),
    StableHlo.unary main_cst_3 main_v25 (broadcastInDim S70000x64 ![] bcast_S_S70000x64 : (⟨S_, .f32⟩ : BufTy).Contents (Elt F) → (⟨S70000x64, .f32⟩ : BufTy).Contents (Elt F)),
    StableHlo.unary main_arg2 main_v26 (broadcastInDim S2000000x1 ![0] bcast_S2000000_S2000000x1_0 : (⟨S2000000, .i32⟩ : BufTy).Contents (Elt F) → (⟨S2000000x1, .i32⟩ : BufTy).Contents (Elt F)),
    StableHlo.ternary main_v25 main_v26 main_v24 main_v27 ((fun x i u => Host.scatterAdd scatter_S70000x64_S2000000x1_S2000000x64_1_0_0_1 x i u) : (⟨S70000x64, .f32⟩ : BufTy).Contents (Elt F) → (⟨S2000000x1, .i32⟩ : BufTy).Contents (Elt F) → (⟨S2000000x64, .f32⟩ : BufTy).Contents (Elt F) → (⟨S70000x64, .f32⟩ : BufTy).Contents (Elt F)),
    StableHlo.binary main_v13 main_v0 main_v28 (addf : (⟨S70000x64, .f32⟩ : BufTy).Contents (Elt F) → (⟨S70000x64, .f32⟩ : BufTy).Contents (Elt F) → (⟨S70000x64, .f32⟩ : BufTy).Contents (Elt F)),
    StableHlo.binary main_v28 main_arg5 main_v29 ((fun l r => Host.dotGeneral dot_S70000x64_S64x64_S70000x64_1_0_0_1_n_n none l r) : (⟨S70000x64, .f32⟩ : BufTy).Contents (Elt F) → (⟨S64x64, .f32⟩ : BufTy).Contents (Elt F) → (⟨S70000x64, .f32⟩ : BufTy).Contents (Elt F)),
    StableHlo.unary main_arg6 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S70000x64 ![0, 1] bcast_S1x64_S70000x64_0_1 : (⟨S1x64, .f32⟩ : BufTy).Contents (Elt F) → (⟨S70000x64, .f32⟩ : BufTy).Contents (Elt F)),
    StableHlo.binary main_v29 main_v31 main_v32 (addf : (⟨S70000x64, .f32⟩ : BufTy).Contents (Elt F) → (⟨S70000x64, .f32⟩ : BufTy).Contents (Elt F) → (⟨S70000x64, .f32⟩ : BufTy).Contents (Elt F)),
    StableHlo.binary main_v27 main_arg7 main_v33 ((fun l r => Host.dotGeneral dot_S70000x64_S64x64_S70000x64_1_0_0_1_n_n none l r) : (⟨S70000x64, .f32⟩ : BufTy).Contents (Elt F) → (⟨S64x64, .f32⟩ : BufTy).Contents (Elt F) → (⟨S70000x64, .f32⟩ : BufTy).Contents (Elt F)),
    StableHlo.unary main_arg8 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S70000x64 ![0, 1] bcast_S1x64_S70000x64_0_1 : (⟨S1x64, .f32⟩ : BufTy).Contents (Elt F) → (⟨S70000x64, .f32⟩ : BufTy).Contents (Elt F)),
    StableHlo.binary main_v33 main_v35 main_v36 (addf : (⟨S70000x64, .f32⟩ : BufTy).Contents (Elt F) → (⟨S70000x64, .f32⟩ : BufTy).Contents (Elt F) → (⟨S70000x64, .f32⟩ : BufTy).Contents (Elt F)),
    StableHlo.binary main_v32 main_v36 main_v37 (addf : (⟨S70000x64, .f32⟩ : BufTy).Contents (Elt F) → (⟨S70000x64, .f32⟩ : BufTy).Contents (Elt F) → (⟨S70000x64, .f32⟩ : BufTy).Contents (Elt F)),
    StableHlo.nullary main_cst_4 (constant S_ .f32 0x3C23D70A#32),
    StableHlo.TRef.nullary main_call0.cst (constant S_ .f32 0x00000000#32),
    StableHlo.TRef.unary main_call0.cst main_call0.v0 (broadcastInDim S70000x64 ![] bcast_S_S70000x64),
    StableHlo.TRef.binary (.of main_v37 : StableHlo.TRef sig ⟨S70000x64, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S70000x64 ![] bcast_S_S70000x64),
    StableHlo.TRef.binary main_call0.v3 (.of main_v37 : StableHlo.TRef sig ⟨S70000x64, .f32⟩) main_call0.v4 mulf,
    StableHlo.TRef.ternary main_call0.v1 (.of main_v37 : StableHlo.TRef sig ⟨S70000x64, .f32⟩) main_call0.v4 main_call0.call0.v0 select,
    StableHlo.binary main_v0 main_v38 main_v39 ((fun a b => concatenate S70000x128 1 [⟨S70000x64, a⟩, ⟨S70000x64, b⟩] concatenates_S70000x64_S70000x64_S70000x128_d1) : (⟨S70000x64, .f32⟩ : BufTy).Contents (Elt F) → (⟨S70000x64, .f32⟩ : BufTy).Contents (Elt F) → (⟨S70000x128, .f32⟩ : BufTy).Contents (Elt F)),
    StableHlo.nullary main_c_5 (constantI S_ 32 0#32),
    StableHlo.unary main_c_5 main_v40 (broadcastInDim S16384 ![] bcast_S_S16384 : (⟨S_, .i32⟩ : BufTy).Contents (Elt F) → (⟨S16384, .i32⟩ : BufTy).Contents (Elt F)),
    StableHlo.binary main_arg15 main_v40 main_v41 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 70000#32),
    StableHlo.unary main_c_6 main_v42 (broadcastInDim S16384 ![] bcast_S_S16384 : (⟨S_, .i32⟩ : BufTy).Contents (Elt F) → (⟨S16384, .i32⟩ : BufTy).Contents (Elt F)),
    StableHlo.binary main_arg15 main_v42 main_v43 (addi : (⟨S16384, .i32⟩ : BufTy).Contents (Elt F) → (⟨S16384, .i32⟩ : BufTy).Contents (Elt F) → (⟨S16384, .i32⟩ : BufTy).Contents (Elt F)),
    StableHlo.ternary main_v41 main_v43 main_arg15 main_v44 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v44 main_v45 (broadcastInDim S16384x1 ![0] bcast_S16384_S16384x1_0 : (⟨S16384, .i32⟩ : BufTy).Contents (Elt F) → (⟨S16384x1, .i32⟩ : BufTy).Contents (Elt F)),
    StableHlo.binary main_v39 main_v45 main_v46 ((fun x i => Host.gather gather_S70000x128_S16384x1_S16384x128_1_0_n_n_0_1_1128 x i) : (⟨S70000x128, .f32⟩ : BufTy).Contents (Elt F) → (⟨S16384x1, .i32⟩ : BufTy).Contents (Elt F) → (⟨S16384x128, .f32⟩ : BufTy).Contents (Elt F)),
    StableHlo.nullary main_c_7 (constantI S_ 32 50000#32),
    StableHlo.unary main_c_7 main_v47 (broadcastInDim S16384 ![] bcast_S_S16384 : (⟨S_, .i32⟩ : BufTy).Contents (Elt F) → (⟨S16384, .i32⟩ : BufTy).Contents (Elt F)),
    StableHlo.binary main_arg16 main_v47 main_v48 (addi : (⟨S16384, .i32⟩ : BufTy).Contents (Elt F) → (⟨S16384, .i32⟩ : BufTy).Contents (Elt F) → (⟨S16384, .i32⟩ : BufTy).Contents (Elt F)),
    StableHlo.nullary main_c_8 (constantI S_ 32 0#32),
    StableHlo.unary main_c_8 main_v49 (broadcastInDim S16384 ![] bcast_S_S16384 : (⟨S_, .i32⟩ : BufTy).Contents (Elt F) → (⟨S16384, .i32⟩ : BufTy).Contents (Elt F)),
    StableHlo.binary main_v48 main_v49 main_v50 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 70000#32),
    StableHlo.unary main_c_9 main_v51 (broadcastInDim S16384 ![] bcast_S_S16384 : (⟨S_, .i32⟩ : BufTy).Contents (Elt F) → (⟨S16384, .i32⟩ : BufTy).Contents (Elt F)),
    StableHlo.binary main_v48 main_v51 main_v52 (addi : (⟨S16384, .i32⟩ : BufTy).Contents (Elt F) → (⟨S16384, .i32⟩ : BufTy).Contents (Elt F) → (⟨S16384, .i32⟩ : BufTy).Contents (Elt F)),
    StableHlo.ternary main_v50 main_v52 main_v48 main_v53 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v53 main_v54 (broadcastInDim S16384x1 ![0] bcast_S16384_S16384x1_0 : (⟨S16384, .i32⟩ : BufTy).Contents (Elt F) → (⟨S16384x1, .i32⟩ : BufTy).Contents (Elt F)),
    StableHlo.binary main_v39 main_v54 main_v55 ((fun x i => Host.gather gather_S70000x128_S16384x1_S16384x128_1_0_n_n_0_1_1128 x i) : (⟨S70000x128, .f32⟩ : BufTy).Contents (Elt F) → (⟨S16384x1, .i32⟩ : BufTy).Contents (Elt F) → (⟨S16384x128, .f32⟩ : BufTy).Contents (Elt F)),
    StableHlo.binary main_v46 main_v55 main_v56 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    StableHlo.binary main_v56 main_arg9 main_v57 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)),
    StableHlo.unary main_arg10 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S16384x64 ![0, 1] bcast_S1x64_S16384x64_0_1 : (⟨S1x64, .f32⟩ : BufTy).Contents (Elt F) → (⟨S16384x64, .f32⟩ : BufTy).Contents (Elt F)),
    StableHlo.binary main_v57 main_v59 main_v60 (addf : (⟨S16384x64, .f32⟩ : BufTy).Contents (Elt F) → (⟨S16384x64, .f32⟩ : BufTy).Contents (Elt F) → (⟨S16384x64, .f32⟩ : BufTy).Contents (Elt F)),
    StableHlo.TRef.nullary main_call1.cst (constant S_ .f32 0x00000000#32),
    StableHlo.TRef.unary main_call1.cst main_call1.v0 (broadcastInDim S16384x64 ![] bcast_S_S16384x64),
    StableHlo.TRef.binary (.of main_v60 : StableHlo.TRef sig ⟨S16384x64, .f32⟩) main_call1.v0 main_call1.v1 maximumf,
    StableHlo.binary main_v61 main_arg11 main_v62 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    StableHlo.unary main_arg12 main_v63 (broadcastInDim S1x32 ![1] bcast_S32_S1x32_1 : (⟨S32, .f32⟩ : BufTy).Contents (Elt F) → (⟨S1x32, .f32⟩ : BufTy).Contents (Elt F)),
    StableHlo.unary main_v63 main_v64 (broadcastInDim S16384x32 ![0, 1] bcast_S1x32_S16384x32_0_1 : (⟨S1x32, .f32⟩ : BufTy).Contents (Elt F) → (⟨S16384x32, .f32⟩ : BufTy).Contents (Elt F)),
    StableHlo.binary main_v62 main_v64 main_v65 (addf : (⟨S16384x32, .f32⟩ : BufTy).Contents (Elt F) → (⟨S16384x32, .f32⟩ : BufTy).Contents (Elt F) → (⟨S16384x32, .f32⟩ : BufTy).Contents (Elt F)),
    StableHlo.TRef.nullary main_call2.cst (constant S_ .f32 0x00000000#32),
    StableHlo.TRef.unary main_call2.cst main_call2.v0 (broadcastInDim S16384x32 ![] bcast_S_S16384x32),
    StableHlo.TRef.binary (.of main_v65 : StableHlo.TRef sig ⟨S16384x32, .f32⟩) main_call2.v0 main_call2.v1 maximumf,
    StableHlo.binary main_v66 main_arg13 main_v67 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
    StableHlo.unary main_arg14 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S16384x1 ![0, 1] bcast_S1x1_S16384x1_0_1 : (⟨S1x1, .f32⟩ : BufTy).Contents (Elt F) → (⟨S16384x1, .f32⟩ : BufTy).Contents (Elt F)),
    StableHlo.binary main_v67 main_v69 main_v70 (addf : (⟨S16384x1, .f32⟩ : BufTy).Contents (Elt F) → (⟨S16384x1, .f32⟩ : BufTy).Contents (Elt F) → (⟨S16384x1, .f32⟩ : BufTy).Contents (Elt F)),
    StableHlo.reshape main_v70 main_v71 rfl shapeCasts_S16384x1_S16384 ]

-- ninety-four binds re-associated: the rewrite under the chain recurses once per statement
set_option maxRecDepth 8192 in
set_option maxHeartbeats 4000000 in
/-- The program is that straight line: the windows and the callees' bodies unfolded at their calls, both sides are
    one chain of single operations once sequencing is re-associated. -/
theorem main_eq (c : Dev nD) : main (F := F) c = seq ops := by
  simp only [main, main_part0, main_part1, fn_leaky_relu.body, fn_where.body, fn_relu.body, fn_relu_0.body, seq,
    bind_assoc, pure_bind]

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

/-- The seventeen argument arrays a valuation holds. -/
abbrev argsAt (V : Valuation τ sig (Elt F)) : Cert.RefTerm.Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16)⟩

/-! ## The line in four stretches

The fold over a line cut in two is the second part's fold over what the first leaves.  The line is cut after the
two aggregations, after the hidden rows, and before the gathered rows are laid side by side.  Each stretch's results
are a function of the few earlier buffers it reads, whatever the other buffers hold; every buffer a later stretch
reads that a stretch does not write passes through it unchanged. -/

/-- Operations 1 … 34 of the line. -/
abbrev s1 : List (HloOp τ sig (Elt F)) :=
  [ StableHlo.binary main_arg0 main_arg1 main_v0 ((fun a b => concatenate S70000x64 0 [⟨S50000x64, a⟩, ⟨S20000x64, b⟩] concatenates_S50000x64_S20000x64_S70000x64_d0) : (⟨S50000x64, .f32⟩ : BufTy).Contents (Elt F) → (⟨S20000x64, .f32⟩ : BufTy).Contents (Elt F) → (⟨S70000x64, .f32⟩ : BufTy).Contents (Elt F)),
    StableHlo.unary main_arg4 main_v1 (broadcastInDim S2000000x1 ![0] bcast_S2000000_S2000000x1_0 : (⟨S2000000, .f32⟩ : BufTy).Contents (Elt F) → (⟨S2000000x1, .f32⟩ : BufTy).Contents (Elt F)),
    StableHlo.nullary main_c (constantI S_ 32 0#32),
    StableHlo.unary main_c main_v2 (broadcastInDim S2000000 ![] bcast_S_S2000000 : (⟨S_, .i32⟩ : BufTy).Contents (Elt F) → (⟨S2000000, .i32⟩ : BufTy).Contents (Elt F)),
    StableHlo.binary main_arg3 main_v2 main_v3 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 70000#32),
    StableHlo.unary main_c_0 main_v4 (broadcastInDim S2000000 ![] bcast_S_S2000000 : (⟨S_, .i32⟩ : BufTy).Contents (Elt F) → (⟨S2000000, .i32⟩ : BufTy).Contents (Elt F)),
    StableHlo.binary main_arg3 main_v4 main_v5 (addi : (⟨S2000000, .i32⟩ : BufTy).Contents (Elt F) → (⟨S2000000, .i32⟩ : BufTy).Contents (Elt F) → (⟨S2000000, .i32⟩ : BufTy).Contents (Elt F)),
    StableHlo.ternary main_v3 main_v5 main_arg3 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v6 main_v7 (broadcastInDim S2000000x1 ![0] bcast_S2000000_S2000000x1_0 : (⟨S2000000, .i32⟩ : BufTy).Contents (Elt F) → (⟨S2000000x1, .i32⟩ : BufTy).Contents (Elt F)),
    StableHlo.binary main_v0 main_v7 main_v8 ((fun x i => Host.gather gather_S70000x64_S2000000x1_S2000000x64_1_0_n_n_0_1_164 x i) : (⟨S70000x64, .f32⟩ : BufTy).Contents (Elt F) → (⟨S2000000x1, .i32⟩ : BufTy).Contents (Elt F) → (⟨S2000000x64, .f32⟩ : BufTy).Contents (Elt F)),
    StableHlo.unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v11 (broadcastInDim S70000x64 ![] bcast_S_S70000x64 : (⟨S_, .f32⟩ : BufTy).Contents (Elt F) → (⟨S70000x64, .f32⟩ : BufTy).Contents (Elt F)),
    StableHlo.unary main_arg2 main_v12 (broadcastInDim S2000000x1 ![0] bcast_S2000000_S2000000x1_0 : (⟨S2000000, .i32⟩ : BufTy).Contents (Elt F) → (⟨S2000000x1, .i32⟩ : BufTy).Contents (Elt F)),
    StableHlo.ternary main_v11 main_v12 main_v10 main_v13 ((fun x i u => Host.scatterAdd scatter_S70000x64_S2000000x1_S2000000x64_1_0_0_1 x i u) : (⟨S70000x64, .f32⟩ : BufTy).Contents (Elt F) → (⟨S2000000x1, .i32⟩ : BufTy).Contents (Elt F) → (⟨S2000000x64, .f32⟩ : BufTy).Contents (Elt F) → (⟨S70000x64, .f32⟩ : BufTy).Contents (Elt F)),
    StableHlo.binary main_v0 main_v0 main_v14 (mulf : (⟨S70000x64, .f32⟩ : BufTy).Contents (Elt F) → (⟨S70000x64, .f32⟩ : BufTy).Contents (Elt F) → (⟨S70000x64, .f32⟩ : BufTy).Contents (Elt F)),
    StableHlo.unary main_arg4 main_v15 (broadcastInDim S2000000x1 ![0] bcast_S2000000_S2000000x1_0 : (⟨S2000000, .f32⟩ : BufTy).Contents (Elt F) → (⟨S2000000x1, .f32⟩ : BufTy).Contents (Elt F)),
    StableHlo.nullary main_c_1 (constantI S_ 32 0#32),
    StableHlo.unary main_c_1 main_v16 (broadcastInDim S2000000 ![] bcast_S_S2000000 : (⟨S_, .i32⟩ : BufTy).Contents (Elt F) → (⟨S2000000, .i32⟩ : BufTy).Contents (Elt F)),
    StableHlo.binary main_arg3 main_v16 main_v17 (cmpi .slt : (⟨S2000000, .i32⟩ : BufTy).Contents (Elt F) → (⟨S2000000, .i32⟩ : BufTy).Contents (Elt F) → (⟨S2000000, .i1⟩ : BufTy).Contents (Elt F)),
    StableHlo.nullary main_c_2 (constantI S_ 32 70000#32),
    StableHlo.unary main_c_2 main_v18 (broadcastInDim S2000000 ![] bcast_S_S2000000 : (⟨S_, .i32⟩ : BufTy).Contents (Elt F) → (⟨S2000000, .i32⟩ : BufTy).Contents (Elt F)),
    StableHlo.binary main_arg3 main_v18 main_v19 (addi : (⟨S2000000, .i32⟩ : BufTy).Contents (Elt F) → (⟨S2000000, .i32⟩ : BufTy).Contents (Elt F) → (⟨S2000000, .i32⟩ : BufTy).Contents (Elt F)),
    StableHlo.ternary main_v17 main_v19 main_arg3 main_v20 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v20 main_v21 (broadcastInDim S2000000x1 ![0] bcast_S2000000_S2000000x1_0 : (⟨S2000000, .i32⟩ : BufTy).Contents (Elt F) → (⟨S2000000x1, .i32⟩ : BufTy).Contents (Elt F)),
    StableHlo.binary main_v14 main_v21 main_v22 ((fun x i => Host.gather gather_S70000x64_S2000000x1_S2000000x64_1_0_n_n_0_1_164 x i) : (⟨S70000x64, .f32⟩ : BufTy).Contents (Elt F) → (⟨S2000000x1, .i32⟩ : BufTy).Contents (Elt F) → (⟨S2000000x64, .f32⟩ : BufTy).Contents (Elt F)),
    StableHlo.unary main_v15 main_v23 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v23 main_v22 main_v24 (mulf : (⟨S2000000x64, .f32⟩ : BufTy).Contents (Elt F) → (⟨S2000000x64, .f32⟩ : BufTy).Contents (Elt F) → (⟨S2000000x64, .f32⟩ : BufTy).Contents (Elt F)),
    StableHlo.nullary main_cst_3 (constant S_ .f32 0x00000000#32),
    StableHlo.unary main_cst_3 main_v25 (broadcastInDim S70000x64 ![] bcast_S_S70000x64 : (⟨S_, .f32⟩ : BufTy).Contents (Elt F) → (⟨S70000x64, .f32⟩ : BufTy).Contents (Elt F)),
    StableHlo.unary main_arg2 main_v26 (broadcastInDim S2000000x1 ![0] bcast_S2000000_S2000000x1_0 : (⟨S2000000, .i32⟩ : BufTy).Contents (Elt F) → (⟨S2000000x1, .i32⟩ : BufTy).Contents (Elt F)),
    StableHlo.ternary main_v25 main_v26 main_v24 main_v27 ((fun x i u => Host.scatterAdd scatter_S70000x64_S2000000x1_S2000000x64_1_0_0_1 x i u) : (⟨S70000x64, .f32⟩ : BufTy).Contents (Elt F) → (⟨S2000000x1, .i32⟩ : BufTy).Contents (Elt F) → (⟨S2000000x64, .f32⟩ : BufTy).Contents (Elt F) → (⟨S70000x64, .f32⟩ : BufTy).Contents (Elt F)) ]

/-- Operations 35 … 52 of the line. -/
abbrev s2 : List (HloOp τ sig (Elt F)) :=
  [ StableHlo.binary main_v13 main_v0 main_v28 (addf : (⟨S70000x64, .f32⟩ : BufTy).Contents (Elt F) → (⟨S70000x64, .f32⟩ : BufTy).Contents (Elt F) → (⟨S70000x64, .f32⟩ : BufTy).Contents (Elt F)),
    StableHlo.binary main_v28 main_arg5 main_v29 ((fun l r => Host.dotGeneral dot_S70000x64_S64x64_S70000x64_1_0_0_1_n_n none l r) : (⟨S70000x64, .f32⟩ : BufTy).Contents (Elt F) → (⟨S64x64, .f32⟩ : BufTy).Contents (Elt F) → (⟨S70000x64, .f32⟩ : BufTy).Contents (Elt F)),
    StableHlo.unary main_arg6 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S70000x64 ![0, 1] bcast_S1x64_S70000x64_0_1 : (⟨S1x64, .f32⟩ : BufTy).Contents (Elt F) → (⟨S70000x64, .f32⟩ : BufTy).Contents (Elt F)),
    StableHlo.binary main_v29 main_v31 main_v32 (addf : (⟨S70000x64, .f32⟩ : BufTy).Contents (Elt F) → (⟨S70000x64, .f32⟩ : BufTy).Contents (Elt F) → (⟨S70000x64, .f32⟩ : BufTy).Contents (Elt F)),
    StableHlo.binary main_v27 main_arg7 main_v33 ((fun l r => Host.dotGeneral dot_S70000x64_S64x64_S70000x64_1_0_0_1_n_n none l r) : (⟨S70000x64, .f32⟩ : BufTy).Contents (Elt F) → (⟨S64x64, .f32⟩ : BufTy).Contents (Elt F) → (⟨S70000x64, .f32⟩ : BufTy).Contents (Elt F)),
    StableHlo.unary main_arg8 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S70000x64 ![0, 1] bcast_S1x64_S70000x64_0_1 : (⟨S1x64, .f32⟩ : BufTy).Contents (Elt F) → (⟨S70000x64, .f32⟩ : BufTy).Contents (Elt F)),
    StableHlo.binary main_v33 main_v35 main_v36 (addf : (⟨S70000x64, .f32⟩ : BufTy).Contents (Elt F) → (⟨S70000x64, .f32⟩ : BufTy).Contents (Elt F) → (⟨S70000x64, .f32⟩ : BufTy).Contents (Elt F)),
    StableHlo.binary main_v32 main_v36 main_v37 (addf : (⟨S70000x64, .f32⟩ : BufTy).Contents (Elt F) → (⟨S70000x64, .f32⟩ : BufTy).Contents (Elt F) → (⟨S70000x64, .f32⟩ : BufTy).Contents (Elt F)),
    StableHlo.nullary main_cst_4 (constant S_ .f32 0x3C23D70A#32),
    StableHlo.TRef.nullary main_call0.cst (constant S_ .f32 0x00000000#32),
    StableHlo.TRef.unary main_call0.cst main_call0.v0 (broadcastInDim S70000x64 ![] bcast_S_S70000x64),
    StableHlo.TRef.binary (.of main_v37 : StableHlo.TRef sig ⟨S70000x64, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S70000x64 ![] bcast_S_S70000x64),
    StableHlo.TRef.binary main_call0.v3 (.of main_v37 : StableHlo.TRef sig ⟨S70000x64, .f32⟩) main_call0.v4 mulf,
    StableHlo.TRef.ternary main_call0.v1 (.of main_v37 : StableHlo.TRef sig ⟨S70000x64, .f32⟩) main_call0.v4 main_call0.call0.v0 select ]

/-- Operations 53 … 74 of the line. -/
abbrev s3 : List (HloOp τ sig (Elt F)) :=
  [ StableHlo.binary main_v0 main_v38 main_v39 ((fun a b => concatenate S70000x128 1 [⟨S70000x64, a⟩, ⟨S70000x64, b⟩] concatenates_S70000x64_S70000x64_S70000x128_d1) : (⟨S70000x64, .f32⟩ : BufTy).Contents (Elt F) → (⟨S70000x64, .f32⟩ : BufTy).Contents (Elt F) → (⟨S70000x128, .f32⟩ : BufTy).Contents (Elt F)),
    StableHlo.nullary main_c_5 (constantI S_ 32 0#32),
    StableHlo.unary main_c_5 main_v40 (broadcastInDim S16384 ![] bcast_S_S16384 : (⟨S_, .i32⟩ : BufTy).Contents (Elt F) → (⟨S16384, .i32⟩ : BufTy).Contents (Elt F)),
    StableHlo.binary main_arg15 main_v40 main_v41 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 70000#32),
    StableHlo.unary main_c_6 main_v42 (broadcastInDim S16384 ![] bcast_S_S16384 : (⟨S_, .i32⟩ : BufTy).Contents (Elt F) → (⟨S16384, .i32⟩ : BufTy).Contents (Elt F)),
    StableHlo.binary main_arg15 main_v42 main_v43 (addi : (⟨S16384, .i32⟩ : BufTy).Contents (Elt F) → (⟨S16384, .i32⟩ : BufTy).Contents (Elt F) → (⟨S16384, .i32⟩ : BufTy).Contents (Elt F)),
    StableHlo.ternary main_v41 main_v43 main_arg15 main_v44 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v44 main_v45 (broadcastInDim S16384x1 ![0] bcast_S16384_S16384x1_0 : (⟨S16384, .i32⟩ : BufTy).Contents (Elt F) → (⟨S16384x1, .i32⟩ : BufTy).Contents (Elt F)),
    StableHlo.binary main_v39 main_v45 main_v46 ((fun x i => Host.gather gather_S70000x128_S16384x1_S16384x128_1_0_n_n_0_1_1128 x i) : (⟨S70000x128, .f32⟩ : BufTy).Contents (Elt F) → (⟨S16384x1, .i32⟩ : BufTy).Contents (Elt F) → (⟨S16384x128, .f32⟩ : BufTy).Contents (Elt F)),
    StableHlo.nullary main_c_7 (constantI S_ 32 50000#32),
    StableHlo.unary main_c_7 main_v47 (broadcastInDim S16384 ![] bcast_S_S16384 : (⟨S_, .i32⟩ : BufTy).Contents (Elt F) → (⟨S16384, .i32⟩ : BufTy).Contents (Elt F)),
    StableHlo.binary main_arg16 main_v47 main_v48 (addi : (⟨S16384, .i32⟩ : BufTy).Contents (Elt F) → (⟨S16384, .i32⟩ : BufTy).Contents (Elt F) → (⟨S16384, .i32⟩ : BufTy).Contents (Elt F)),
    StableHlo.nullary main_c_8 (constantI S_ 32 0#32),
    StableHlo.unary main_c_8 main_v49 (broadcastInDim S16384 ![] bcast_S_S16384 : (⟨S_, .i32⟩ : BufTy).Contents (Elt F) → (⟨S16384, .i32⟩ : BufTy).Contents (Elt F)),
    StableHlo.binary main_v48 main_v49 main_v50 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 70000#32),
    StableHlo.unary main_c_9 main_v51 (broadcastInDim S16384 ![] bcast_S_S16384 : (⟨S_, .i32⟩ : BufTy).Contents (Elt F) → (⟨S16384, .i32⟩ : BufTy).Contents (Elt F)),
    StableHlo.binary main_v48 main_v51 main_v52 (addi : (⟨S16384, .i32⟩ : BufTy).Contents (Elt F) → (⟨S16384, .i32⟩ : BufTy).Contents (Elt F) → (⟨S16384, .i32⟩ : BufTy).Contents (Elt F)),
    StableHlo.ternary main_v50 main_v52 main_v48 main_v53 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v53 main_v54 (broadcastInDim S16384x1 ![0] bcast_S16384_S16384x1_0 : (⟨S16384, .i32⟩ : BufTy).Contents (Elt F) → (⟨S16384x1, .i32⟩ : BufTy).Contents (Elt F)),
    StableHlo.binary main_v39 main_v54 main_v55 ((fun x i => Host.gather gather_S70000x128_S16384x1_S16384x128_1_0_n_n_0_1_1128 x i) : (⟨S70000x128, .f32⟩ : BufTy).Contents (Elt F) → (⟨S16384x1, .i32⟩ : BufTy).Contents (Elt F) → (⟨S16384x128, .f32⟩ : BufTy).Contents (Elt F)) ]

/-- Operations 75 … 94 of the line. -/
abbrev s4 : List (HloOp τ sig (Elt F)) :=
  [ StableHlo.binary main_v46 main_v55 main_v56 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    StableHlo.binary main_v56 main_arg9 main_v57 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)),
    StableHlo.unary main_arg10 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S16384x64 ![0, 1] bcast_S1x64_S16384x64_0_1 : (⟨S1x64, .f32⟩ : BufTy).Contents (Elt F) → (⟨S16384x64, .f32⟩ : BufTy).Contents (Elt F)),
    StableHlo.binary main_v57 main_v59 main_v60 (addf : (⟨S16384x64, .f32⟩ : BufTy).Contents (Elt F) → (⟨S16384x64, .f32⟩ : BufTy).Contents (Elt F) → (⟨S16384x64, .f32⟩ : BufTy).Contents (Elt F)),
    StableHlo.TRef.nullary main_call1.cst (constant S_ .f32 0x00000000#32),
    StableHlo.TRef.unary main_call1.cst main_call1.v0 (broadcastInDim S16384x64 ![] bcast_S_S16384x64),
    StableHlo.TRef.binary (.of main_v60 : StableHlo.TRef sig ⟨S16384x64, .f32⟩) main_call1.v0 main_call1.v1 maximumf,
    StableHlo.binary main_v61 main_arg11 main_v62 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    StableHlo.unary main_arg12 main_v63 (broadcastInDim S1x32 ![1] bcast_S32_S1x32_1 : (⟨S32, .f32⟩ : BufTy).Contents (Elt F) → (⟨S1x32, .f32⟩ : BufTy).Contents (Elt F)),
    StableHlo.unary main_v63 main_v64 (broadcastInDim S16384x32 ![0, 1] bcast_S1x32_S16384x32_0_1 : (⟨S1x32, .f32⟩ : BufTy).Contents (Elt F) → (⟨S16384x32, .f32⟩ : BufTy).Contents (Elt F)),
    StableHlo.binary main_v62 main_v64 main_v65 (addf : (⟨S16384x32, .f32⟩ : BufTy).Contents (Elt F) → (⟨S16384x32, .f32⟩ : BufTy).Contents (Elt F) → (⟨S16384x32, .f32⟩ : BufTy).Contents (Elt F)),
    StableHlo.TRef.nullary main_call2.cst (constant S_ .f32 0x00000000#32),
    StableHlo.TRef.unary main_call2.cst main_call2.v0 (broadcastInDim S16384x32 ![] bcast_S_S16384x32),
    StableHlo.TRef.binary (.of main_v65 : StableHlo.TRef sig ⟨S16384x32, .f32⟩) main_call2.v0 main_call2.v1 maximumf,
    StableHlo.binary main_v66 main_arg13 main_v67 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
    StableHlo.unary main_arg14 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S16384x1 ![0, 1] bcast_S1x1_S16384x1_0_1 : (⟨S1x1, .f32⟩ : BufTy).Contents (Elt F) → (⟨S16384x1, .f32⟩ : BufTy).Contents (Elt F)),
    StableHlo.binary main_v67 main_v69 main_v70 (addf : (⟨S16384x1, .f32⟩ : BufTy).Contents (Elt F) → (⟨S16384x1, .f32⟩ : BufTy).Contents (Elt F) → (⟨S16384x1, .f32⟩ : BufTy).Contents (Elt F)),
    StableHlo.reshape main_v70 main_v71 rfl shapeCasts_S16384x1_S16384 ]

/-- The line is the four stretches, in order. -/
theorem ops_eq : (ops : List (HloOp τ sig (Elt F))) = s1 ++ s2 ++ s3 ++ s4 := rfl

/-- Two lines run one after the other: the second folds over what the first leaves. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The hidden rows as a function of the features, the two aggregations and the combine layer's weights. -/
def hiddenOf (ft lxv lx2v : Cert.RefTerm.Arr F S70000x64 .f32) (w1 : Cert.RefTerm.Arr F S64x64 .f32)
    (b1 : Cert.RefTerm.Arr F S64 .f32) (w2 : Cert.RefTerm.Arr F S64x64 .f32) (b2 : Cert.RefTerm.Arr F S64 .f32) :
    Cert.RefTerm.Arr F S70000x64 .f32 :=
  Cert.RefTerm.leakyArr
    (addf (addf (Host.dotGeneral dot_S70000x64_S64x64_S70000x64_1_0_0_1_n_n none (addf lxv ft) w1) (Cert.RefTerm.biasRows b1))
          (addf (Host.dotGeneral dot_S70000x64_S64x64_S70000x64_1_0_0_1_n_n none lx2v w2) (Cert.RefTerm.biasRows b2)))

/-- The rows of the features and the hidden rows side by side, at a batch index vector (negative entries wrapped). -/
def rowsOf (ft hd : Cert.RefTerm.Arr F S70000x64 .f32) (idx : Cert.RefTerm.Arr F S16384 .i32) :
    Cert.RefTerm.Arr F S16384x128 .f32 :=
  Host.gather gather_S70000x128_S16384x1_S16384x128_1_0_n_n_0_1_1128
    (concatenate S70000x128 1 [⟨S70000x64, ft⟩, ⟨S70000x64, hd⟩] concatenates_S70000x64_S70000x64_S70000x128_d1) (Cert.RefTerm.wrapCol idx)

/-- The three dense layers and the column read as a vector, as a function of the gathered rows and the weights. -/
def outOf (e : Cert.RefTerm.Arr F S16384x256 .f32) (w1 : Cert.RefTerm.Arr F S256x64 .f32) (b1 : Cert.RefTerm.Arr F S64 .f32)
    (w2 : Cert.RefTerm.Arr F S64x32 .f32) (b2 : Cert.RefTerm.Arr F S32 .f32) (w3 : Cert.RefTerm.Arr F S32x1 .f32)
    (b3 : Cert.RefTerm.Arr F S1 .f32) : Cert.RefTerm.Arr F S16384 .f32 :=
  shapeCast S16384
    (addf (Host.dotGeneral dot_S16384x32_S32x1_S16384x1_1_0_0_1_n_n none
        (maximumf (addf (Host.dotGeneral dot_S16384x64_S64x32_S16384x32_1_0_0_1_n_n none
            (maximumf (addf (Host.dotGeneral dot_S16384x256_S256x64_S16384x64_1_0_0_1_n_n none e w1)
                (broadcastInDim S16384x64 ![0, 1] bcast_S1x64_S16384x64_0_1 (broadcastInDim S1x64 ![1] bcast_S64_S1x64_1 b1)))
              (broadcastInDim S16384x64 ![] bcast_S_S16384x64 (constant S_ .f32 0x00000000#32))) w2)
            (broadcastInDim S16384x32 ![0, 1] bcast_S1x32_S16384x32_0_1 (broadcastInDim S1x32 ![1] bcast_S32_S1x32_1 b2)))
          (broadcastInDim S16384x32 ![] bcast_S_S16384x32 (constant S_ .f32 0x00000000#32))) w3)
      (broadcastInDim S16384x1 ![0, 1] bcast_S1x1_S16384x1_0_1 (broadcastInDim S1x1 ![1] bcast_S1_S1x1_1 b3)))
    shapeCasts_S16384x1_S16384

/-- The composed term's stages are those functions of the earlier stages. -/
theorem hidden_eq (A : Cert.RefTerm.Args F) : Cert.RefTerm.hidden A
    = hiddenOf (Cert.RefTerm.feat A) (Cert.RefTerm.lx A) (Cert.RefTerm.lx2 A) A.a5 A.a6 A.a7 A.a8 := rfl
theorem embed_eq (A : Cert.RefTerm.Args F) : Cert.RefTerm.embed A
    = concatenate S16384x256 1
        [⟨S16384x128, rowsOf (Cert.RefTerm.feat A) (Cert.RefTerm.hidden A) A.a15⟩,
         ⟨S16384x128, rowsOf (Cert.RefTerm.feat A) (Cert.RefTerm.hidden A) (addi A.a16 (broadcastInDim S16384 ![] bcast_S_S16384 (constantI S_ 32 50000#32)))⟩]
        concatenates_S16384x128_S16384x128_S16384x256_d1 := rfl
theorem out_eq_outOf (A : Cert.RefTerm.Args F) : Cert.RefTerm.out A
    = outOf (Cert.RefTerm.embed A) A.a9 A.a10 A.a11 A.a12 A.a13 A.a14 := rfl

/-- Hence the composed term is the stretches' functions, one inside the other. -/
theorem compose_eq (A : Cert.RefTerm.Args F) :
    outOf (concatenate S16384x256 1
        [⟨S16384x128, rowsOf (Cert.RefTerm.feat A)
            (hiddenOf (Cert.RefTerm.feat A) (Cert.RefTerm.lx A) (Cert.RefTerm.lx2 A) A.a5 A.a6 A.a7 A.a8) A.a15⟩,
         ⟨S16384x128, rowsOf (Cert.RefTerm.feat A)
            (hiddenOf (Cert.RefTerm.feat A) (Cert.RefTerm.lx A) (Cert.RefTerm.lx2 A) A.a5 A.a6 A.a7 A.a8)
            (addi A.a16 (broadcastInDim S16384 ![] bcast_S_S16384 (constantI S_ 32 50000#32)))⟩]
        concatenates_S16384x128_S16384x128_S16384x256_d1) A.a9 A.a10 A.a11 A.a12 A.a13 A.a14
      = Cert.RefTerm.out A := by
  rw [out_eq_outOf, embed_eq, hidden_eq]

/-! ### First stretch: the features and the two aggregations -/

set_option maxRecDepth 16384 in
set_option maxHeartbeats 1000000 in
theorem s1_v0 (W : Valuation τ sig (Elt F)) :
    after s1 W (Proc.devRef .tc main_v0) = Cert.RefTerm.feat (argsAt W) := by
  after_results_simp
  rfl
set_option maxRecDepth 16384 in
set_option maxHeartbeats 1000000 in
theorem s1_v13 (W : Valuation τ sig (Elt F)) :
    after s1 W (Proc.devRef .tc main_v13) = Cert.RefTerm.lx (argsAt W) := by
  after_results_simp
  rfl
set_option maxRecDepth 16384 in
set_option maxHeartbeats 1000000 in
theorem s1_v27 (W : Valuation τ sig (Elt F)) :
    after s1 W (Proc.devRef .tc main_v27) = Cert.RefTerm.lx2 (argsAt W) := by
  after_results_simp
  rfl
theorem s1_arg5 (W : Valuation τ sig (Elt F)) :
    after s1 W (Proc.devRef .tc main_arg5) = W (Proc.devRef .tc main_arg5) := by after_results_simp
theorem s1_arg6 (W : Valuation τ sig (Elt F)) :
    after s1 W (Proc.devRef .tc main_arg6) = W (Proc.devRef .tc main_arg6) := by after_results_simp
theorem s1_arg7 (W : Valuation τ sig (Elt F)) :
    after s1 W (Proc.devRef .tc main_arg7) = W (Proc.devRef .tc main_arg7) := by after_results_simp
theorem s1_arg8 (W : Valuation τ sig (Elt F)) :
    after s1 W (Proc.devRef .tc main_arg8) = W (Proc.devRef .tc main_arg8) := by after_results_simp
theorem s1_arg9 (W : Valuation τ sig (Elt F)) :
    after s1 W (Proc.devRef .tc main_arg9) = W (Proc.devRef .tc main_arg9) := by after_results_simp
theorem s1_arg10 (W : Valuation τ sig (Elt F)) :
    after s1 W (Proc.devRef .tc main_arg10) = W (Proc.devRef .tc main_arg10) := by after_results_simp
theorem s1_arg11 (W : Valuation τ sig (Elt F)) :
    after s1 W (Proc.devRef .tc main_arg11) = W (Proc.devRef .tc main_arg11) := by after_results_simp
theorem s1_arg12 (W : Valuation τ sig (Elt F)) :
    after s1 W (Proc.devRef .tc main_arg12) = W (Proc.devRef .tc main_arg12) := by after_results_simp
theorem s1_arg13 (W : Valuation τ sig (Elt F)) :
    after s1 W (Proc.devRef .tc main_arg13) = W (Proc.devRef .tc main_arg13) := by after_results_simp
theorem s1_arg14 (W : Valuation τ sig (Elt F)) :
    after s1 W (Proc.devRef .tc main_arg14) = W (Proc.devRef .tc main_arg14) := by after_results_simp
theorem s1_arg15 (W : Valuation τ sig (Elt F)) :
    after s1 W (Proc.devRef .tc main_arg15) = W (Proc.devRef .tc main_arg15) := by after_results_simp
theorem s1_arg16 (W : Valuation τ sig (Elt F)) :
    after s1 W (Proc.devRef .tc main_arg16) = W (Proc.devRef .tc main_arg16) := by after_results_simp

/-! ### Second stretch: the combine layer and its rectifier -/

set_option maxRecDepth 16384 in
set_option maxHeartbeats 1000000 in
theorem s2_v38 (W : Valuation τ sig (Elt F)) :
    after s2 W (Proc.devRef .tc main_v38)
      = hiddenOf (W (Proc.devRef .tc main_v0)) (W (Proc.devRef .tc main_v13)) (W (Proc.devRef .tc main_v27))
          (W (Proc.devRef .tc main_arg5)) (W (Proc.devRef .tc main_arg6)) (W (Proc.devRef .tc main_arg7)) (W (Proc.devRef .tc main_arg8)) := by
  after_results_simp
  try simp only [cast_eq]
  rfl
theorem s2_v0 (W : Valuation τ sig (Elt F)) :
    after s2 W (Proc.devRef .tc main_v0) = W (Proc.devRef .tc main_v0) := by after_results_simp
theorem s2_arg9 (W : Valuation τ sig (Elt F)) :
    after s2 W (Proc.devRef .tc main_arg9) = W (Proc.devRef .tc main_arg9) := by after_results_simp
theorem s2_arg10 (W : Valuation τ sig (Elt F)) :
    after s2 W (Proc.devRef .tc main_arg10) = W (Proc.devRef .tc main_arg10) := by after_results_simp
theorem s2_arg11 (W : Valuation τ sig (Elt F)) :
    after s2 W (Proc.devRef .tc main_arg11) = W (Proc.devRef .tc main_arg11) := by after_results_simp
theorem s2_arg12 (W : Valuation τ sig (Elt F)) :
    after s2 W (Proc.devRef .tc main_arg12) = W (Proc.devRef .tc main_arg12) := by after_results_simp
theorem s2_arg13 (W : Valuation τ sig (Elt F)) :
    after s2 W (Proc.devRef .tc main_arg13) = W (Proc.devRef .tc main_arg13) := by after_results_simp
theorem s2_arg14 (W : Valuation τ sig (Elt F)) :
    after s2 W (Proc.devRef .tc main_arg14) = W (Proc.devRef .tc main_arg14) := by after_results_simp
theorem s2_arg15 (W : Valuation τ sig (Elt F)) :
    after s2 W (Proc.devRef .tc main_arg15) = W (Proc.devRef .tc main_arg15) := by after_results_simp
theorem s2_arg16 (W : Valuation τ sig (Elt F)) :
    after s2 W (Proc.devRef .tc main_arg16) = W (Proc.devRef .tc main_arg16) := by after_results_simp

/-! ### Third stretch: the two batch gathers -/

set_option maxRecDepth 16384 in
set_option maxHeartbeats 1000000 in
theorem s3_v46 (W : Valuation τ sig (Elt F)) :
    after s3 W (Proc.devRef .tc main_v46)
      = rowsOf (W (Proc.devRef .tc main_v0)) (W (Proc.devRef .tc main_v38)) (W (Proc.devRef .tc main_arg15)) := by
  after_results_simp
  rfl
set_option maxRecDepth 16384 in
set_option maxHeartbeats 1000000 in
theorem s3_v55 (W : Valuation τ sig (Elt F)) :
    after s3 W (Proc.devRef .tc main_v55)
      = rowsOf (W (Proc.devRef .tc main_v0)) (W (Proc.devRef .tc main_v38)) (addi (W (Proc.devRef .tc main_arg16)) (broadcastInDim S16384 ![] bcast_S_S16384 (constantI S_ 32 50000#32))) := by
  after_results_simp
  rfl
theorem s3_arg9 (W : Valuation τ sig (Elt F)) :
    after s3 W (Proc.devRef .tc main_arg9) = W (Proc.devRef .tc main_arg9) := by after_results_simp
theorem s3_arg10 (W : Valuation τ sig (Elt F)) :
    after s3 W (Proc.devRef .tc main_arg10) = W (Proc.devRef .tc main_arg10) := by after_results_simp
theorem s3_arg11 (W : Valuation τ sig (Elt F)) :
    after s3 W (Proc.devRef .tc main_arg11) = W (Proc.devRef .tc main_arg11) := by after_results_simp
theorem s3_arg12 (W : Valuation τ sig (Elt F)) :
    after s3 W (Proc.devRef .tc main_arg12) = W (Proc.devRef .tc main_arg12) := by after_results_simp
theorem s3_arg13 (W : Valuation τ sig (Elt F)) :
    after s3 W (Proc.devRef .tc main_arg13) = W (Proc.devRef .tc main_arg13) := by after_results_simp
theorem s3_arg14 (W : Valuation τ sig (Elt F)) :
    after s3 W (Proc.devRef .tc main_arg14) = W (Proc.devRef .tc main_arg14) := by after_results_simp

/-! ### Fourth stretch: the gathered rows side by side and the three dense layers -/

set_option maxRecDepth 16384 in
set_option maxHeartbeats 1000000 in
theorem s4_v71 (W : Valuation τ sig (Elt F)) :
    after s4 W (Proc.devRef .tc main_v71)
      = outOf (concatenate S16384x256 1 [⟨S16384x128, W (Proc.devRef .tc main_v46)⟩, ⟨S16384x128, W (Proc.devRef .tc main_v55)⟩] concatenates_S16384x128_S16384x128_S16384x256_d1)
          (W (Proc.devRef .tc main_arg9)) (W (Proc.devRef .tc main_arg10)) (W (Proc.devRef .tc main_arg11))
          (W (Proc.devRef .tc main_arg12)) (W (Proc.devRef .tc main_arg13)) (W (Proc.devRef .tc main_arg14)) := by
  after_results_simp
  try simp only [cast_eq]
  rfl

/-! ## The fold at the result buffer -/

/-- The fold at the result buffer is the composed term: stretch by stretch, each stretch's result its function of
    what the earlier stretches leave, the arguments passing through. -/
theorem out_eq (V : Valuation τ sig (Elt F)) :
    after ops V (Proc.devRef .tc main_v71) = Cert.RefTerm.out (argsAt V) := by
  rw [ops_eq, after_append, after_append, after_append, s4_v71]
  rw [s3_v46, s3_v55, s3_arg9, s3_arg10, s3_arg11, s3_arg12, s3_arg13, s3_arg14]
  rw [s2_v38, s2_v0, s2_arg9, s2_arg10, s2_arg11, s2_arg12, s2_arg13, s2_arg14, s2_arg15, s2_arg16]
  rw [s1_v0, s1_v13, s1_v27, s1_arg5, s1_arg6, s1_arg7, s1_arg8, s1_arg9, s1_arg10, s1_arg11, s1_arg12, s1_arg13, s1_arg14, s1_arg15, s1_arg16]
  exact compose_eq (argsAt V)

/-- No operation writes an argument's buffer: the fold leaves it what it was. -/
theorem arg0_eq (V : Valuation τ sig (Elt F)) :
    after ops V (Proc.devRef .tc main_arg0) = V (Proc.devRef .tc main_arg0) := by after_results_simp
theorem arg1_eq (V : Valuation τ sig (Elt F)) :
    after ops V (Proc.devRef .tc main_arg1) = V (Proc.devRef .tc main_arg1) := by after_results_simp
theorem arg2_eq (V : Valuation τ sig (Elt F)) :
    after ops V (Proc.devRef .tc main_arg2) = V (Proc.devRef .tc main_arg2) := by after_results_simp
theorem arg3_eq (V : Valuation τ sig (Elt F)) :
    after ops V (Proc.devRef .tc main_arg3) = V (Proc.devRef .tc main_arg3) := by after_results_simp
theorem arg4_eq (V : Valuation τ sig (Elt F)) :
    after ops V (Proc.devRef .tc main_arg4) = V (Proc.devRef .tc main_arg4) := by after_results_simp
theorem arg5_eq (V : Valuation τ sig (Elt F)) :
    after ops V (Proc.devRef .tc main_arg5) = V (Proc.devRef .tc main_arg5) := by after_results_simp
theorem arg6_eq (V : Valuation τ sig (Elt F)) :
    after ops V (Proc.devRef .tc main_arg6) = V (Proc.devRef .tc main_arg6) := by after_results_simp
theorem arg7_eq (V : Valuation τ sig (Elt F)) :
    after ops V (Proc.devRef .tc main_arg7) = V (Proc.devRef .tc main_arg7) := by after_results_simp
theorem arg8_eq (V : Valuation τ sig (Elt F)) :
    after ops V (Proc.devRef .tc main_arg8) = V (Proc.devRef .tc main_arg8) := by after_results_simp
theorem arg9_eq (V : Valuation τ sig (Elt F)) :
    after ops V (Proc.devRef .tc main_arg9) = V (Proc.devRef .tc main_arg9) := by after_results_simp
theorem arg10_eq (V : Valuation τ sig (Elt F)) :
    after ops V (Proc.devRef .tc main_arg10) = V (Proc.devRef .tc main_arg10) := by after_results_simp
theorem arg11_eq (V : Valuation τ sig (Elt F)) :
    after ops V (Proc.devRef .tc main_arg11) = V (Proc.devRef .tc main_arg11) := by after_results_simp
theorem arg12_eq (V : Valuation τ sig (Elt F)) :
    after ops V (Proc.devRef .tc main_arg12) = V (Proc.devRef .tc main_arg12) := by after_results_simp
theorem arg13_eq (V : Valuation τ sig (Elt F)) :
    after ops V (Proc.devRef .tc main_arg13) = V (Proc.devRef .tc main_arg13) := by after_results_simp
theorem arg14_eq (V : Valuation τ sig (Elt F)) :
    after ops V (Proc.devRef .tc main_arg14) = V (Proc.devRef .tc main_arg14) := by after_results_simp
theorem arg15_eq (V : Valuation τ sig (Elt F)) :
    after ops V (Proc.devRef .tc main_arg15) = V (Proc.devRef .tc main_arg15) := by after_results_simp
theorem arg16_eq (V : Valuation τ sig (Elt F)) :
    after ops V (Proc.devRef .tc main_arg16) = V (Proc.devRef .tc main_arg16) := by after_results_simp

/-- The seventeen argument arrays at launch, on a device. -/
def argsOf (m : (ℓ : Loc nD τ sig) → Buf (Elt F) ℓ) (c : Dev nD) : Cert.RefTerm.Args F :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16)⟩

/-- On every device, for any float values, from any memory with zero counters: every weakly fair execution of the
    program terminates with the result buffer at the composed term of the arguments' launch contents and every
    argument's buffer unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = Cert.RefTerm.out (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v71).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c))⟩)
    (run_seq scopedRefs_eq scopedSems_eq defs main (fun _ => ops) main_eq (fun _ => ops_sub) m ρ)

end Cert.ReferenceIdeal.HandRun

end
-- ==== Proof.RefValue.lean ====
/-
  The reference's two dense stages, read entry by entry, are the specification's functions.

  * The hidden rows: entry (p, j) of the leaky rectifier of the combine layer is `leaky` of
    (sum over k of (lx + feat)[p,k] * Wg1[k,j]) + bg1[j] + ((sum over k of lx2[p,k] * Wg2[k,j]) + bg2[j]).
    Each product against a 64 by 64 matrix contracts the left operand's columns with the right operand's rows, so at
    an entry it is the sum over the contracted coordinate; a bias vector laid as one row and the row laid along every
    row reads the vector's entry j; a scalar constant broadcast to the whole shape reads the constant.
  * The three dense layers: entry (r, 0) of the last one is the 32-term sum of the twice-rectified rows against the
    last weight column plus the last bias; the rectifier is the maximum with a broadcast zero.

  The aggregated arrays, the node features and the gathered 256-column rows are never looked into: they enter only
  through their entries.
-/
import proofs.«152742_j52785148068369_2_alg».proof.Proof.RefTerm
import proofs.«152742_j52785148068369_2_alg».proof.Proof.Spec
import proofs.«152742_j52785148068369_2_alg».proof.Proof.LibSageLayer

noncomputable section

open scoped BigOperators

namespace Cert.RefValue

open Idealize.ShloMosaic Idealize.ShloMosaic.ValueIdx Idealize.ShloMosaic.StackMember
open Cert.ReferenceIdeal Cert.ReferenceIdeal.Facts₀ Cert.ReferenceIdeal.Facts

/-- A scalar broadcast to a whole shape reads the scalar at every entry. -/
theorem splat_apply {α : Type} {s : Shape} (h : (⟨0, ![]⟩ : Shape).BroadcastsInDim s ![])
    (c : (⟨0, ![]⟩ : Shape).Idx → α) (i : s.Idx) :
    broadcastInDim s ![] h c i = c ix0 :=
  broadcastInDim_apply ![] h c i ix0 (fun a => a.elim0)

/-- The leaky rectifier on an array (an ordered comparison against a broadcast zero constant choosing between the
    entry and a broadcast slope constant times the entry), read at an entry. -/
theorem leaky_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3C23D70A#32))) v) i
      = Cert.Spec.leaky (v i) := by
  rw [select_apply, cmpf_apply, mulf_apply, splat_apply, splat_apply]
  rfl

/-- A bias vector laid as one row, the row laid along every row, read at (p, j), is the vector at j. -/
theorem biasRows_apply {R N : Nat} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (j : Fin N) :
    broadcastInDim ⟨2, ![R, N]⟩ ![0, 1] h2 (broadcastInDim ⟨2, ![1, N]⟩ ![1] h1 b) (ix2 p j) = b (ix1 j) := by
  rw [broadcastInDim_oneRow_apply, Cert.Sage.broadcastInDim_vecRow_apply]

/-- A dense layer (a plain product plus a bias vector laid along every row), read at (p, j). -/
theorem dense_apply {R K N : Nat} (D : DotDims ⟨2, ![R, K]⟩ ⟨2, ![K, N]⟩ ⟨2, ![R, N]⟩) (hD : D = DotDims.plain R K N)
    (x : FVec Ideal ⟨2, ![R, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (j : Fin N) :
    addf (Host.dotGeneral D none x W)
         (broadcastInDim ⟨2, ![R, N]⟩ ![0, 1] h2 (broadcastInDim ⟨2, ![1, N]⟩ ![1] h1 b)) (ix2 p j)
      = ∑ k : Fin K, x (ix2 p k) * W (ix2 k j) + b (ix1 j) := by
  subst hD
  rw [addf_apply, biasRows_apply, dotGeneral_plain_apply]

/-- A dense layer under the rectifier (the maximum with a broadcast zero constant), read at (p, j). -/
theorem dense_relu_apply {R K N : Nat} (D : DotDims ⟨2, ![R, K]⟩ ⟨2, ![K, N]⟩ ⟨2, ![R, N]⟩) (hD : D = DotDims.plain R K N)
    (x : FVec Ideal ⟨2, ![R, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1])
    (h0 : (⟨0, ![]⟩ : Shape).BroadcastsInDim ⟨2, ![R, N]⟩ ![]) (p : Fin R) (j : Fin N) :
    maximumf (addf (Host.dotGeneral D none x W)
         (broadcastInDim ⟨2, ![R, N]⟩ ![0, 1] h2 (broadcastInDim ⟨2, ![1, N]⟩ ![1] h1 b)))
       (broadcastInDim ⟨2, ![R, N]⟩ ![] h0 (constant (F := Ideal) ⟨0, ![]⟩ .f32 0x00000000#32)) (ix2 p j)
      = max (∑ k : Fin K, x (ix2 p k) * W (ix2 k j) + b (ix1 j)) 0 := by
  rw [Cert.Sage.relu_host_apply, dense_apply D hD]

/-- The combine layer before its rectifier, read at (p, j). -/
theorem pre_apply {R : Nat} (D : DotDims ⟨2, ![R, 64]⟩ ⟨2, ![64, 64]⟩ ⟨2, ![R, 64]⟩) (hD : D = DotDims.plain R 64 64)
    (X L L2 : FVec Ideal ⟨2, ![R, 64]⟩ .f32) (W1 W2 : FVec Ideal ⟨2, ![64, 64]⟩ .f32) (b1 b2 : FVec Ideal ⟨1, ![64]⟩ .f32)
    (h1 : (⟨1, ![64]⟩ : Shape).BroadcastsInDim ⟨2, ![1, 64]⟩ ![1])
    (h2 : (⟨2, ![1, 64]⟩ : Shape).BroadcastsInDim ⟨2, ![R, 64]⟩ ![0, 1]) (p : Fin R) (j : Fin 64) :
    addf (addf (Host.dotGeneral D none (addf L X) W1)
               (broadcastInDim ⟨2, ![R, 64]⟩ ![0, 1] h2 (broadcastInDim ⟨2, ![1, 64]⟩ ![1] h1 b1)))
         (addf (Host.dotGeneral D none L2 W2)
               (broadcastInDim ⟨2, ![R, 64]⟩ ![0, 1] h2 (broadcastInDim ⟨2, ![1, 64]⟩ ![1] h1 b2))) (ix2 p j)
      = Cert.Spec.gcnPre X L L2 W1 W2 (fun j => b1 (ix1 j)) (fun j => b2 (ix1 j)) p j := by
  rw [addf_apply, dense_apply D hD, dense_apply D hD]
  rfl

variable [Cert.ReferenceIdeal.Facts]

/-- The hidden rows are the specification's combine layer of the node features and the two aggregated arrays. -/
theorem hidden_eq (A : Cert.RefTerm.Args Ideal) :
    Cert.RefTerm.hidden A
      = Cert.Spec.gcn (Cert.RefTerm.feat A) (Cert.RefTerm.lx A) (Cert.RefTerm.lx2 A) A.a5 A.a7
          (fun j => A.a6 (ValueIdx.ix1 j)) (fun j => A.a8 (ValueIdx.ix1 j)) := by
  funext i
  obtain ⟨p, j, rfl⟩ : ∃ (p : Fin 70000) (j : Fin 64), i = ix2 p j := ⟨i 0, i 1, eq_ix2 i⟩
  unfold Cert.RefTerm.hidden Cert.RefTerm.leakyArr Cert.RefTerm.pre Cert.RefTerm.biasRows
  generalize Cert.RefTerm.lx A = L
  generalize Cert.RefTerm.lx2 A = L2
  generalize Cert.RefTerm.feat A = X
  exact (leaky_apply _ _ _).trans
    (congrArg Cert.Spec.leaky (pre_apply _ rfl X L L2 A.a5 A.a7 A.a6 A.a8 _ _ p j))

/-- The first dense layer at (r, j): the 256-term product of the gathered row plus the bias, rectified. -/
theorem layer1_apply (A : Cert.RefTerm.Args Ideal) (r : Fin 16384) (j : Fin 64) :
    Cert.RefTerm.layer1 A (ix2 r j)
      = Cert.Spec.hid1Cat (Cert.RefTerm.embed A) A.a9 (fun j => A.a10 (ix1 j)) r j := by
  unfold Cert.RefTerm.layer1
  generalize Cert.RefTerm.embed A = E
  exact dense_relu_apply _ rfl E A.a9 A.a10 _ _ _ r j

/-- The second dense layer at (r, j). -/
theorem layer2_apply (A : Cert.RefTerm.Args Ideal) (r : Fin 16384) (j : Fin 32) :
    Cert.RefTerm.layer2 A (ix2 r j)
      = Cert.Spec.hid2 (Cert.Spec.hid1Cat (Cert.RefTerm.embed A) A.a9 (fun j => A.a10 (ix1 j))) A.a11
          (fun j => A.a12 (ix1 j)) r j := by
  unfold Cert.RefTerm.layer2
  have h1 := layer1_apply A
  generalize Cert.RefTerm.layer1 A = Y at h1 ⊢
  generalize Cert.RefTerm.embed A = E at h1 ⊢
  refine (dense_relu_apply _ rfl Y A.a11 A.a12 _ _ _ r j).trans ?_
  unfold Cert.Spec.hid2
  simp only [h1]

/-- The last dense layer is the specification's perceptron of the gathered 256-column rows. -/
theorem layer3_eq (A : Cert.RefTerm.Args Ideal) :
    Cert.RefTerm.layer3 A
      = Cert.Spec.mlpCat (Cert.RefTerm.embed A) A.a9 (fun j => A.a10 (ValueIdx.ix1 j)) A.a11
          (fun j => A.a12 (ValueIdx.ix1 j)) A.a13 (A.a14 (ValueIdx.ix1 (0 : Fin 1))) := by
  funext i
  obtain ⟨r, c, rfl⟩ : ∃ (r : Fin 16384) (c : Fin 1), i = ix2 r c := ⟨i 0, i 1, eq_ix2 i⟩
  obtain rfl : c = 0 := Subsingleton.elim _ _
  unfold Cert.RefTerm.layer3
  have h2 := layer2_apply A
  generalize Cert.RefTerm.layer2 A = Y at h2 ⊢
  generalize Cert.RefTerm.embed A = E at h2 ⊢
  refine (dense_apply _ rfl Y A.a13 A.a14 _ _ r (0 : Fin 1)).trans ?_
  unfold Cert.Spec.mlpCat Cert.Spec.outRow
  simp only [h2]

end Cert.RefValue

end
-- ==== Proof.LibRowGather.lean ====
/-
  Taking rows of a matrix by an index column, read at an entry.

  `x[idx]` for an [N, C] matrix `x` and R start indices (an [R, 1] column) is the gather whose offset axis is the
  columns, whose collapsed axis is the rows, whose start index map names the rows, and whose slices are one row wide:
  entry (r, k) of the result is `x` at row `clampRow idx r` — the r-th start index read as a signed integer and
  clamped into [0, N − 1] — and column k. Generic in N, C, R, the index width and the element type.
-/
import Idealize.ShloMosaic.PureOps.ShapeOps
import Idealize.ShloMosaic.Lib.ValueIdx

noncomputable section

namespace Cert.Lib.RowGather

open Idealize.ShloMosaic Idealize.ShloMosaic.ValueIdx

variable {α : Type}

/-- The dimension numbers of "take rows": operand [N, C], start indices [R, 1], result [R, C]. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row that result row `r` reads: its start index, read signed, clamped into [0, N − 1]. -/
def clampRow (N : Nat) {R w : Nat} (idx : IVec ⟨2, ![R, 1]⟩ w) (r : Fin R) : Nat :=
  min (idx (ix2 r (0 : Fin 1))).toInt.toNat (N - 1)

theorem clampRow_lt {N R w : Nat} (hN : 0 < N) (idx : IVec ⟨2, ![R, 1]⟩ w) (r : Fin R) : clampRow N idx r < N := by
  unfold clampRow; omega

/-- THE ROW GATHER READ AT (r, k): the operand at the clamped start row and column k. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k) = x (ix2 ⟨clampRow N idx r, clampRow_lt hN idx r⟩ k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = clampRow N idx r
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    rw [GatherDims.batchCoord_eq_zero _ _ _ List.not_mem_nil]
    unfold GatherDims.start
    rw [dif_neg (show (1 : Fin 2) ∉ (rowsDims N C R wf).startIndexMap from
      fun h => Nat.one_ne_zero (congrArg Fin.val (List.mem_singleton.mp h)))]
    simp only [Nat.add_zero, Nat.zero_add]
    unfold GatherDims.offCoord
    rw [dif_pos (show (1 : Fin 2) ∈ (rowsDims N C R wf).sKept from
      (GatherDims.mem_sKept _ _).mpr ⟨fun h => Nat.one_ne_zero (congrArg Fin.val (List.mem_singleton.mp h)), List.not_mem_nil⟩)]
    rfl

end Cert.Lib.RowGather

end
-- ==== Proof.Bridge.lean ====
/-
  The reference's result and the kernel program's result are ONE function of the seventeen argument arrays.

  Stage by stage: the node features, the index columns and the aggregated features are the same terms. The aggregated
  SQUARED features agree because taking rows commutes with an entrywise product (a gather is the operand composed with
  an index function). The combine layer's bias vectors reach it as a broadcast row on one side and as a reshaped row
  on the other: the same row. Taking rows of two arrays laid side by side is taking rows of each, so the reference's
  256-column batch row is the four 64-column blocks the kernel program gathers apart, and the first weight matrix's
  four 64-row stretches are the four pieces it cuts; a 256-term product is then the sum of the four 64-term products
  (`Spec.mlpCat_eq_mlp`). The last reshape is the same on both sides.
-/
import proofs.«152742_j52785148068369_2_alg».proof.Proof.RefTerm
import proofs.«152742_j52785148068369_2_alg».proof.Proof.KerTerm
import proofs.«152742_j52785148068369_2_alg».proof.Proof.Spec
import proofs.«152742_j52785148068369_2_alg».proof.Proof.LibRowGather
import proofs.«152742_j52785148068369_2_alg».proof.Proof.LibSageLayer
import Idealize.ShloMosaic.Lib.ValueLayout
import Idealize.ShloMosaic.Lib.Pipeline.Value

noncomputable section

namespace Cert.Bridge

open Idealize.ShloMosaic Idealize.ShloMosaic.ValueIdx Cert.Lib.RowGather

variable [Cert.ReferenceIdeal.Facts] [Cert.KernelIdeal.Facts] (A : Cert.RefTerm.Args Ideal)

/-! ## The shared stages are the same terms -/

theorem feat_eq : Cert.RefTerm.feat A = Cert.KerTerm.feat A := rfl
theorem userIdx_eq : Cert.RefTerm.userIdx A = Cert.KerTerm.userIdx A := rfl
theorem itemIdx_eq : Cert.RefTerm.itemIdx A = Cert.KerTerm.itemIdx A := rfl
theorem lx_eq : Cert.RefTerm.lx A = Cert.KerTerm.lx A := rfl
/-- Rows of the entrywise square are the entrywise squares of the rows. -/
theorem lx2_eq : Cert.RefTerm.lx2 A = Cert.KerTerm.lx2 A := rfl

/-! ## A reshaped vector is the vector, as a row -/

theorem bg1row_apply (j : Fin 64) : Cert.KerTerm.bg1row A (ix2 (0 : Fin 1) j) = A.a6 (ix1 j) := by
  unfold Cert.KerTerm.bg1row; exact Cert.Sage.rowcast_apply _ _ j
theorem bg2row_apply (j : Fin 64) : Cert.KerTerm.bg2row A (ix2 (0 : Fin 1) j) = A.a8 (ix1 j) := by
  unfold Cert.KerTerm.bg2row; exact Cert.Sage.rowcast_apply _ _ j
theorem b1row_apply (j : Fin 64) : Cert.KerTerm.b1row A (ix2 (0 : Fin 1) j) = A.a10 (ix1 j) := by
  unfold Cert.KerTerm.b1row; exact Cert.Sage.rowcast_apply _ _ j
theorem b2row_apply (j : Fin 32) : Cert.KerTerm.b2row A (ix2 (0 : Fin 1) j) = A.a12 (ix1 j) := by
  unfold Cert.KerTerm.b2row; exact Cert.Sage.rowcast_apply _ _ j
theorem b3row_apply : Cert.KerTerm.b3row A (ix2 (0 : Fin 1) (0 : Fin 1)) = A.a14 (ix1 (0 : Fin 1)) := by
  unfold Cert.KerTerm.b3row; exact Cert.Sage.rowcast_apply _ _ (0 : Fin 1)

/-! ## The hidden rows -/

/-- Given the reference's combine layer read as `Spec.gcn`, its hidden rows are the kernel program's. -/
theorem hidden_eq
    (hH : Cert.RefTerm.hidden A = Cert.Spec.gcn (Cert.RefTerm.feat A) (Cert.RefTerm.lx A) (Cert.RefTerm.lx2 A) A.a5 A.a7
        (fun j => A.a6 (ix1 j)) (fun j => A.a8 (ix1 j))) :
    Cert.RefTerm.hidden A = Cert.KerTerm.hidden A := by
  rw [hH]
  unfold Cert.KerTerm.hidden
  rw [feat_eq, lx_eq, lx2_eq]
  have e1 : (fun j => A.a6 (ix1 j)) = fun j => Cert.KerTerm.bg1row A (ix2 (0 : Fin 1) j) :=
    funext fun j => (bg1row_apply A j).symm
  have e2 : (fun j => A.a8 (ix1 j)) = fun j => Cert.KerTerm.bg2row A (ix2 (0 : Fin 1) j) :=
    funext fun j => (bg2row_apply A j).symm
  rw [e1, e2]

/-! ## Taking rows of two arrays laid side by side -/

section Side

variable (X H : (⟨2, ![70000, 64]⟩ : Shape).Idx → EReal)
  (hc : Shape.Concatenates [(⟨2, ![70000, 64]⟩ : Shape), ⟨2, ![70000, 64]⟩] ⟨2, ![70000, 128]⟩ 1)
  (idx : IVec ⟨2, ![16384, 1]⟩ 32) (r : Fin 16384) (k : Fin 64)

/-- Columns 0–63 of the rows taken from `[X | H]` are the rows taken from `X`. -/
theorem side_left :
    Host.gather Cert.ReferenceIdeal.gather_S70000x128_S16384x1_S16384x128_1_0_n_n_0_1_1128
        (concatenate ⟨2, ![70000, 128]⟩ 1 [⟨⟨2, ![70000, 64]⟩, X⟩, ⟨⟨2, ![70000, 64]⟩, H⟩] hc) idx (ix2 r ⟨k.val, by omega⟩)
      = Host.gather Cert.KernelIdeal.gather_S70000x64_S16384x1_S16384x64_1_0_n_n_0_1_164 X idx (ix2 r k) := by
  refine (gather_rows_apply (N := 70000) (C := 128) (R := 16384) (by norm_num) _ _ idx r ⟨k.val, by omega⟩).trans ?_
  refine Eq.trans ?_ (gather_rows_apply (N := 70000) (C := 64) (R := 16384) (by norm_num) _ X idx r k).symm
  exact concatenate_pair_apply_left 1 X H hc _ rfl _ (fun b => by
    match b with
    | ⟨0, _⟩ => rfl
    | ⟨1, _⟩ => rfl)

/-- Columns 64–127 of the rows taken from `[X | H]` are the rows taken from `H`. -/
theorem side_right :
    Host.gather Cert.ReferenceIdeal.gather_S70000x128_S16384x1_S16384x128_1_0_n_n_0_1_1128
        (concatenate ⟨2, ![70000, 128]⟩ 1 [⟨⟨2, ![70000, 64]⟩, X⟩, ⟨⟨2, ![70000, 64]⟩, H⟩] hc) idx (ix2 r ⟨64 + k.val, by omega⟩)
      = Host.gather Cert.KernelIdeal.gather_S70000x64_S16384x1_S16384x64_1_0_n_n_0_1_164 H idx (ix2 r k) := by
  refine (gather_rows_apply (N := 70000) (C := 128) (R := 16384) (by norm_num) _ _ idx r ⟨64 + k.val, by omega⟩).trans ?_
  refine Eq.trans ?_ (gather_rows_apply (N := 70000) (C := 64) (R := 16384) (by norm_num) _ H idx r k).symm
  exact concatenate_pair_apply_right 1 X H hc _ rfl rfl _ (fun b hb => by
    match b with
    | ⟨0, _⟩ => rfl
    | ⟨1, _⟩ => exact absurd rfl hb) (by show k.val + 64 = 64 + k.val; omega)

end Side

/-! ## The batch row's four 64-column blocks -/

section Embed

variable (r : Fin 16384) (k : Fin 64)

/-- Columns 0–63: the user's feature row. -/
theorem embed_uf : Cert.RefTerm.embed A (ix2 r ⟨k.val, by omega⟩) = Cert.KerTerm.uf A (ix2 r k) := by
  unfold Cert.RefTerm.embed
  refine (concatenate_pair_apply_left (t := ⟨2, ![16384, 256]⟩) (s₁ := ⟨2, ![16384, 128]⟩) (s₂ := ⟨2, ![16384, 128]⟩) 1 _ _ _ _ rfl
    (ix2 r ⟨k.val, by omega⟩ : (⟨2, ![16384, 128]⟩ : Shape).Idx) (fun b => by
      match b with
      | ⟨0, _⟩ => rfl
      | ⟨1, _⟩ => rfl)).trans ?_
  unfold Cert.RefTerm.final
  exact side_left (Cert.RefTerm.feat A) (Cert.RefTerm.hidden A) _ (Cert.RefTerm.userIdx A) r k

/-- Columns 64–127: the user's hidden row. -/
theorem embed_uh (hH : Cert.RefTerm.hidden A = Cert.Spec.gcn (Cert.RefTerm.feat A) (Cert.RefTerm.lx A) (Cert.RefTerm.lx2 A) A.a5 A.a7
    (fun j => A.a6 (ix1 j)) (fun j => A.a8 (ix1 j))) :
    Cert.RefTerm.embed A (ix2 r ⟨64 + k.val, by omega⟩) = Cert.KerTerm.uh A (ix2 r k) := by
  unfold Cert.RefTerm.embed
  refine (concatenate_pair_apply_left (t := ⟨2, ![16384, 256]⟩) (s₁ := ⟨2, ![16384, 128]⟩) (s₂ := ⟨2, ![16384, 128]⟩) 1 _ _ _ _ rfl
    (ix2 r ⟨64 + k.val, by omega⟩ : (⟨2, ![16384, 128]⟩ : Shape).Idx) (fun b => by
      match b with
      | ⟨0, _⟩ => rfl
      | ⟨1, _⟩ => rfl)).trans ?_
  unfold Cert.RefTerm.final
  refine (side_right (Cert.RefTerm.feat A) (Cert.RefTerm.hidden A) _ (Cert.RefTerm.userIdx A) r k).trans ?_
  exact congrFun (congrArg (fun h => Host.gather Cert.KernelIdeal.gather_S70000x64_S16384x1_S16384x64_1_0_n_n_0_1_164 h
    (Cert.KerTerm.userIdx A)) (hidden_eq A hH)) (ix2 r k)

/-- Columns 128–191: the item's feature row. -/
theorem embed_vf : Cert.RefTerm.embed A (ix2 r ⟨128 + k.val, by omega⟩) = Cert.KerTerm.vf A (ix2 r k) := by
  unfold Cert.RefTerm.embed
  refine (concatenate_pair_apply_right (t := ⟨2, ![16384, 256]⟩) (s₁ := ⟨2, ![16384, 128]⟩) (s₂ := ⟨2, ![16384, 128]⟩) 1 _ _ _ _ rfl rfl
    (ix2 r ⟨k.val, by omega⟩ : (⟨2, ![16384, 128]⟩ : Shape).Idx) (fun b hb => by
      match b with
      | ⟨0, _⟩ => rfl
      | ⟨1, _⟩ => exact absurd rfl hb) (by show k.val + 128 = 128 + k.val; omega)).trans ?_
  unfold Cert.RefTerm.final
  exact side_left (Cert.RefTerm.feat A) (Cert.RefTerm.hidden A) _ (Cert.RefTerm.itemIdx A) r k

/-- Columns 192–255: the item's hidden row. -/
theorem embed_vh (hH : Cert.RefTerm.hidden A = Cert.Spec.gcn (Cert.RefTerm.feat A) (Cert.RefTerm.lx A) (Cert.RefTerm.lx2 A) A.a5 A.a7
    (fun j => A.a6 (ix1 j)) (fun j => A.a8 (ix1 j))) :
    Cert.RefTerm.embed A (ix2 r ⟨192 + k.val, by omega⟩) = Cert.KerTerm.vh A (ix2 r k) := by
  unfold Cert.RefTerm.embed
  refine (concatenate_pair_apply_right (t := ⟨2, ![16384, 256]⟩) (s₁ := ⟨2, ![16384, 128]⟩) (s₂ := ⟨2, ![16384, 128]⟩) 1 _ _ _ _ rfl rfl
    (ix2 r ⟨64 + k.val, by omega⟩ : (⟨2, ![16384, 128]⟩ : Shape).Idx) (fun b hb => by
      match b with
      | ⟨0, _⟩ => rfl
      | ⟨1, _⟩ => exact absurd rfl hb) (by show 64 + k.val + 128 = 192 + k.val; omega)).trans ?_
  unfold Cert.RefTerm.final
  refine (side_right (Cert.RefTerm.feat A) (Cert.RefTerm.hidden A) _ (Cert.RefTerm.itemIdx A) r k).trans ?_
  exact congrFun (congrArg (fun h => Host.gather Cert.KernelIdeal.gather_S70000x64_S16384x1_S16384x64_1_0_n_n_0_1_164 h
    (Cert.KerTerm.itemIdx A)) (hidden_eq A hH)) (ix2 r k)

end Embed

/-! ## The first weight matrix's four 64-row stretches are the four pieces -/

theorem w1a_apply (k j : Fin 64) : A.a9 (ix2 ⟨k.val, by omega⟩ j) = Cert.KerTerm.w1a A (ix2 k j) := by
  unfold Cert.KerTerm.w1a
  exact (slice2_axis0_apply 0 A.a9 _ k j ⟨k.val, by omega⟩ (Nat.zero_add _).symm).symm
theorem w1b_apply (k j : Fin 64) : A.a9 (ix2 ⟨64 + k.val, by omega⟩ j) = Cert.KerTerm.w1b A (ix2 k j) := by
  unfold Cert.KerTerm.w1b
  exact (slice2_axis0_apply 64 A.a9 _ k j ⟨64 + k.val, by omega⟩ rfl).symm
theorem w1c_apply (k j : Fin 64) : A.a9 (ix2 ⟨128 + k.val, by omega⟩ j) = Cert.KerTerm.w1c A (ix2 k j) := by
  unfold Cert.KerTerm.w1c
  exact (slice2_axis0_apply 128 A.a9 _ k j ⟨128 + k.val, by omega⟩ rfl).symm
theorem w1d_apply (k j : Fin 64) : A.a9 (ix2 ⟨192 + k.val, by omega⟩ j) = Cert.KerTerm.w1d A (ix2 k j) := by
  unfold Cert.KerTerm.w1d
  exact (slice2_axis0_apply 192 A.a9 _ k j ⟨192 + k.val, by omega⟩ rfl).symm

/-! ## The two results -/

/-- Given the reference's two dense stages read as the specification, its result is the kernel program's. -/
theorem out_eq
    (hH : Cert.RefTerm.hidden A = Cert.Spec.gcn (Cert.RefTerm.feat A) (Cert.RefTerm.lx A) (Cert.RefTerm.lx2 A) A.a5 A.a7
        (fun j => A.a6 (ix1 j)) (fun j => A.a8 (ix1 j)))
    (hL : Cert.RefTerm.layer3 A = Cert.Spec.mlpCat (Cert.RefTerm.embed A) A.a9 (fun j => A.a10 (ix1 j)) A.a11
        (fun j => A.a12 (ix1 j)) A.a13 (A.a14 (ix1 (0 : Fin 1)))) :
    Cert.RefTerm.out A = Cert.KerTerm.out A := by
  have hcol : Cert.RefTerm.layer3 A = Cert.KerTerm.col A := by
    rw [hL]
    unfold Cert.KerTerm.col
    rw [Cert.Spec.mlpCat_eq_mlp (Cert.RefTerm.embed A) A.a9 (Cert.KerTerm.uf A) (Cert.KerTerm.uh A) (Cert.KerTerm.vf A)
      (Cert.KerTerm.vh A) (Cert.KerTerm.w1a A) (Cert.KerTerm.w1b A) (Cert.KerTerm.w1c A) (Cert.KerTerm.w1d A)
      (fun j => A.a10 (ix1 j)) A.a11 (fun j => A.a12 (ix1 j)) A.a13 (A.a14 (ix1 (0 : Fin 1)))
      (embed_uf A) (fun r k => embed_uh A r k hH) (embed_vf A) (fun r k => embed_vh A r k hH) (w1a_apply A) (w1b_apply A) (w1c_apply A) (w1d_apply A)]
    have e1 : (fun j => A.a10 (ix1 j)) = fun j => Cert.KerTerm.b1row A (ix2 (0 : Fin 1) j) :=
      funext fun j => (b1row_apply A j).symm
    have e2 : (fun j => A.a12 (ix1 j)) = fun j => Cert.KerTerm.b2row A (ix2 (0 : Fin 1) j) :=
      funext fun j => (b2row_apply A j).symm
    rw [e1, e2, ← b3row_apply A]
  unfold Cert.RefTerm.out Cert.KerTerm.out
  exact congrArg (fun x => shapeCast (⟨1, ![16384]⟩ : Shape) x _) hcol

end Cert.Bridge

end
-- ==== Proof.lean ====
/-
  The certificate of a graph-convolution recommender: a kernel program with two kernel launches — the combine layer
  `leaky((lx + x) Wg1 + bg1 + lx2 Wg2 + bg2)` over 70000 node rows in blocks of 2800, and a three-layer perceptron
  over 16384 batch rows in blocks of 2048 — against a plain array program.

  Over the extended reals both programs compute ONE function of the seventeen argument arrays. The edge aggregation
  (gather the source rows, scale, scatter-add into the target rows) is the same chain of host operations on both
  sides and is never opened; the only difference there is that one side squares the features before taking rows and
  the other after, and taking rows commutes with an entrywise product. Each kernel launch leaves in its output array
  the whole-array function of its input arrays that the blocks tile (`Spec.gcn`, `Spec.mlp`): a block's matrix
  product into a zero accumulator is the plain sum over the contracted coordinate, and a change of float format is the
  identity. On the reference's side the two dense stages are the same sums (`RefValue`). The perceptron's first layer
  is one 256-term product of the concatenated batch row on one side and four 64-term products of separately gathered
  rows against the four row stretches of the weight matrix on the other: taking rows of arrays laid side by side is
  taking rows of each, and a finite sum splits into stretches by associativity and commutativity of addition alone, so
  no finiteness of the inputs is used anywhere in the value claim (`Bridge`).

  The three frames: the two kernel programs' are the launch-by-launch frame proofs over the programs' segments; the
  reference's is its run with the result dropped. The idealization rewrote no operation, so `preserves` asks nothing.
-/
import proofs.«152742_j52785148068369_2_alg».proof.Defs
import proofs.«152742_j52785148068369_2_alg».proof.Proof.Gen.Kernel
import proofs.«152742_j52785148068369_2_alg».proof.Proof.Gen.Kernel.Frame
import proofs.«152742_j52785148068369_2_alg».proof.Proof.Gen.KernelIdeal
import proofs.«152742_j52785148068369_2_alg».proof.Proof.Gen.KernelIdeal.Frame
import proofs.«152742_j52785148068369_2_alg».proof.Proof.Gen.ReferenceIdeal
import proofs.«152742_j52785148068369_2_alg».proof.Proof.Gen.Pre_finite_inputs
import proofs.«152742_j52785148068369_2_alg».proof.Proof.Region0
import proofs.«152742_j52785148068369_2_alg».proof.Proof.Region1
import proofs.«152742_j52785148068369_2_alg».proof.Proof.KernelRun
import proofs.«152742_j52785148068369_2_alg».proof.Proof.RefRun
import proofs.«152742_j52785148068369_2_alg».proof.Proof.RefValue
import proofs.«152742_j52785148068369_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

/-- From memories that agree on the arguments the two programs read the same seventeen arrays. -/
theorem algebraic : Cert.algebraic_KernelIdeal_ReferenceIdeal := by
  intro m ρ m' ρ' _ hagree
  refine ⟨fun c => Cert.KerTerm.out (Cert.KernelIdeal.HandRun.argsOf m c),
    Cert.KernelIdeal.HandRun.run Cert.KernelIdeal.Region0.value Cert.KernelIdeal.Region1.value m ρ, ?_⟩
  refine (θ_run Cert.ReferenceIdeal.defs _ _).mono (fun _ h c => ⟨(h c).1.trans ?_, (h c).2⟩)
    (Cert.ReferenceIdeal.HandRun.run (F := Ideal) m' ρ')
  have hargs : Cert.ReferenceIdeal.HandRun.argsOf m' c = Cert.KernelIdeal.HandRun.argsOf m c := by
    obtain ⟨h0, h1, h2, h3, h4, h5, h6, h7, h8, h9, h10, h11, h12, h13, h14, h15, h16⟩ := hagree c
    unfold Cert.ReferenceIdeal.HandRun.argsOf Cert.KernelIdeal.HandRun.argsOf
    rw [h0, h1, h2, h3, h4, h5, h6, h7, h8, h9, h10, h11, h12, h13, h14, h15, h16]
  rw [hargs]
  exact Cert.Bridge.out_eq _ (Cert.RefValue.hidden_eq _) (Cert.RefValue.layer3_eq _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
